-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_inputs_ReferenceIdeal.lean ====
abbrev S512x4096 : Shape := ⟨2, ![512, 4096]⟩
abbrev S4096 : Shape := ⟨1, ![4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S512x4096 .f32) (main_arg1 : FVec F S4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S512x256 : Shape := ⟨2, ![512, 256]⟩
abbrev S256 : Shape := ⟨1, ![256]⟩
abbrev S16x512 : Shape := ⟨2, ![16, 512]⟩
abbrev S16 : Shape := ⟨1, ![16]⟩
abbrev S_ : Shape := ⟨0, ![]⟩
abbrev S512 : Shape := ⟨1, ![512]⟩
abbrev S1x512 : Shape := ⟨2, ![1, 512]⟩
abbrev S1 : Shape := ⟨1, ![1]⟩
abbrev S1x256 : Shape := ⟨2, ![1, 256]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S512x256, .bf16⟩
  | .local _ .vmem, ⟨0, _⟩ => ⟨S512x256, .f32⟩
  | .local _ .vmem, ⟨1, _⟩ => ⟨S256, .f32⟩
  | .local _ .vmem, ⟨2, _⟩ => ⟨S512x256, .bf16⟩
  | .local _ .vmem, ⟨3, _⟩ => ⟨S16x512, .f32⟩
  | .local _ .vmem, ⟨4, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  { ofTc nBuf bufTy 1 35 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v68 : Index := Scalar.indexCast v2
  let c0_61 : Index := 0#32
  ![v68.toNat, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_68 : BitVec 32 := 0#32
  ![v2.toNat, 0]
def k0_dev16 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v72 : BitVec 32 := Scalar.addi v2 c1_i32_63
  let c16_i32_64 : BitVec 32 := 16#32
  let v73 : BitVec 32 := Scalar.remsi v72 c16_i32_64
  let c1_i32_66 : BitVec 32 := 1#32
  let v74 : BitVec 32 := Scalar.muli v73 c1_i32_66
  let v75 : BitVec 32 := Scalar.addi c0_i32_67 v74
  v75.toNat
def k0_dev17 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_70 : BitVec 32 := 2#32
  let v84 : BitVec 32 := Scalar.addi v2 c2_i32_70
  let c16_i32_71 : BitVec 32 := 16#32
  let v85 : BitVec 32 := Scalar.remsi v84 c16_i32_71
  let c1_i32_73 : BitVec 32 := 1#32
  let v86 : BitVec 32 := Scalar.muli v85 c1_i32_73
  let v87 : BitVec 32 := Scalar.addi c0_i32_74 v86
  v87.toNat
def k0_dev18 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_77 : BitVec 32 := 3#32
  let v96 : BitVec 32 := Scalar.addi v2 c3_i32_77
  let c16_i32_78 : BitVec 32 := 16#32
  let v97 : BitVec 32 := Scalar.remsi v96 c16_i32_78
  let c1_i32_80 : BitVec 32 := 1#32
  let v98 : BitVec 32 := Scalar.muli v97 c1_i32_80
  let v99 : BitVec 32 := Scalar.addi c0_i32_81 v98
  v99.toNat
def k0_dev19 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v108 : BitVec 32 := Scalar.addi v2 c4_i32_84
  let c16_i32_85 : BitVec 32 := 16#32
  let v109 : BitVec 32 := Scalar.remsi v108 c16_i32_85
  let c1_i32_87 : BitVec 32 := 1#32
  let v110 : BitVec 32 := Scalar.muli v109 c1_i32_87
  let v111 : BitVec 32 := Scalar.addi c0_i32_88 v110
  v111.toNat
def k0_dev20 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_91 : BitVec 32 := 5#32
  let v120 : BitVec 32 := Scalar.addi v2 c5_i32_91
  let c16_i32_92 : BitVec 32 := 16#32
  let v121 : BitVec 32 := Scalar.remsi v120 c16_i32_92
  let c1_i32_94 : BitVec 32 := 1#32
  let v122 : BitVec 32 := Scalar.muli v121 c1_i32_94
  let v123 : BitVec 32 := Scalar.addi c0_i32_95 v122
  v123.toNat
def k0_dev21 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_98 : BitVec 32 := 6#32
  let v132 : BitVec 32 := Scalar.addi v2 c6_i32_98
  let c16_i32_99 : BitVec 32 := 16#32
  let v133 : BitVec 32 := Scalar.remsi v132 c16_i32_99
  let c1_i32_101 : BitVec 32 := 1#32
  let v134 : BitVec 32 := Scalar.muli v133 c1_i32_101
  let v135 : BitVec 32 := Scalar.addi c0_i32_102 v134
  v135.toNat
def k0_dev22 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_105 : BitVec 32 := 7#32
  let v144 : BitVec 32 := Scalar.addi v2 c7_i32_105
  let c16_i32_106 : BitVec 32 := 16#32
  let v145 : BitVec 32 := Scalar.remsi v144 c16_i32_106
  let c1_i32_108 : BitVec 32 := 1#32
  let v146 : BitVec 32 := Scalar.muli v145 c1_i32_108
  let v147 : BitVec 32 := Scalar.addi c0_i32_109 v146
  v147.toNat
def k0_dev23 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_112 : BitVec 32 := 8#32
  let v156 : BitVec 32 := Scalar.addi v2 c8_i32_112
  let c16_i32_113 : BitVec 32 := 16#32
  let v157 : BitVec 32 := Scalar.remsi v156 c16_i32_113
  let c1_i32_115 : BitVec 32 := 1#32
  let v158 : BitVec 32 := Scalar.muli v157 c1_i32_115
  let v159 : BitVec 32 := Scalar.addi c0_i32_116 v158
  v159.toNat
def k0_dev24 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_119 : BitVec 32 := 9#32
  let v168 : BitVec 32 := Scalar.addi v2 c9_i32_119
  let c16_i32_120 : BitVec 32 := 16#32
  let v169 : BitVec 32 := Scalar.remsi v168 c16_i32_120
  let c1_i32_122 : BitVec 32 := 1#32
  let v170 : BitVec 32 := Scalar.muli v169 c1_i32_122
  let v171 : BitVec 32 := Scalar.addi c0_i32_123 v170
  v171.toNat
def k0_dev25 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_126 : BitVec 32 := 10#32
  let v180 : BitVec 32 := Scalar.addi v2 c10_i32_126
  let c16_i32_127 : BitVec 32 := 16#32
  let v181 : BitVec 32 := Scalar.remsi v180 c16_i32_127
  let c1_i32_129 : BitVec 32 := 1#32
  let v182 : BitVec 32 := Scalar.muli v181 c1_i32_129
  let v183 : BitVec 32 := Scalar.addi c0_i32_130 v182
  v183.toNat
def k0_dev26 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_133 : BitVec 32 := 11#32
  let v192 : BitVec 32 := Scalar.addi v2 c11_i32_133
  let c16_i32_134 : BitVec 32 := 16#32
  let v193 : BitVec 32 := Scalar.remsi v192 c16_i32_134
  let c1_i32_136 : BitVec 32 := 1#32
  let v194 : BitVec 32 := Scalar.muli v193 c1_i32_136
  let v195 : BitVec 32 := Scalar.addi c0_i32_137 v194
  v195.toNat
def k0_dev27 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_140 : BitVec 32 := 12#32
  let v204 : BitVec 32 := Scalar.addi v2 c12_i32_140
  let c16_i32_141 : BitVec 32 := 16#32
  let v205 : BitVec 32 := Scalar.remsi v204 c16_i32_141
  let c1_i32_143 : BitVec 32 := 1#32
  let v206 : BitVec 32 := Scalar.muli v205 c1_i32_143
  let v207 : BitVec 32 := Scalar.addi c0_i32_144 v206
  v207.toNat
def k0_dev28 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_147 : BitVec 32 := 13#32
  let v216 : BitVec 32 := Scalar.addi v2 c13_i32_147
  let c16_i32_148 : BitVec 32 := 16#32
  let v217 : BitVec 32 := Scalar.remsi v216 c16_i32_148
  let c1_i32_150 : BitVec 32 := 1#32
  let v218 : BitVec 32 := Scalar.muli v217 c1_i32_150
  let v219 : BitVec 32 := Scalar.addi c0_i32_151 v218
  v219.toNat
def k0_dev29 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_154 : BitVec 32 := 14#32
  let v228 : BitVec 32 := Scalar.addi v2 c14_i32_154
  let c16_i32_155 : BitVec 32 := 16#32
  let v229 : BitVec 32 := Scalar.remsi v228 c16_i32_155
  let c1_i32_157 : BitVec 32 := 1#32
  let v230 : BitVec 32 := Scalar.muli v229 c1_i32_157
  let v231 : BitVec 32 := Scalar.addi c0_i32_158 v230
  v231.toNat
def k0_dev30 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_161 : BitVec 32 := 15#32
  let v240 : BitVec 32 := Scalar.addi v2 c15_i32_161
  let c16_i32_162 : BitVec 32 := 16#32
  let v241 : BitVec 32 := Scalar.remsi v240 c16_i32_162
  let c1_i32_164 : BitVec 32 := 1#32
  let v242 : BitVec 32 := Scalar.muli v241 c1_i32_164
  let v243 : BitVec 32 := Scalar.addi c0_i32_165 v242
  v243.toNat
def k0_off4 (d0 : Dev nD) (c1_i32_172 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_171 : BitVec 32 := 16#32
  let v260 : BitVec 32 := Scalar.addi v2 c16_i32_171
  let v261 : BitVec 32 := Scalar.subi v260 c1_i32_172
  let c16_i32_173 : BitVec 32 := 16#32
  let v262 : BitVec 32 := Scalar.remsi v261 c16_i32_173
  ![v262.toNat]
def k0_off5 (d0 : Dev nD) (c1_i32_172 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_171 : BitVec 32 := 16#32
  let v260 : BitVec 32 := Scalar.addi v2 c16_i32_171
  let v261 : BitVec 32 := Scalar.subi v260 c1_i32_172
  let c16_i32_173 : BitVec 32 := 16#32
  let v262 : BitVec 32 := Scalar.remsi v261 c16_i32_173
  let c0_i32_177 : BitVec 32 := 0#32
  ![v262.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  h_S1x512 : 0 < S1x512.numel
  shapeCasts_S1x512_S512 : S1x512.ShapeCasts S512
  shapeCasts_S512_S1x512 : S512.ShapeCasts S1x512
  hamt_15 : (15#32 : BitVec 32).msb = false
  inb_S16_S1_1 : ∀ a, (![1] : Fin 1 → Nat) a + S1.size a ≤ S16.size a
  squeezes_S1_S_ : S1.Squeezes S_
  squeezes_S1x512_S512 : S1x512.Squeezes S512
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  inb_S16x512_S16x512_0_0 : ∀ a, (![0, 0] : Fin 2 → Nat) a + S16x512.size a ≤ S16x512.size a
  h_S16x512 : 0 < S16x512.numel
  reduces_S16x512_S512 : S16x512.Reduces [0] S512
  shapeCasts_S512_S512x1 : S512.ShapeCasts S512x1
  broadcasts_S512x1_S512x256 : S512x1.Broadcasts S512x256
  bitsLt_bf16_f32 : FTy.bits .bf16 < FTy.bits .f32
  packedbf16_S512x256_S512x256_0_0 : (Rect.unit (s := S512x256) ![0, 0] S512x256.size inb_S512x256_S512x256_0_0).PackedRows (EltTy.packing .bf16)
  hcc0_scratch2 : 3 + S16.numel ≤ 35
  hcc0_scratch3 : 19 + S16.numel ≤ 35
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x512.size a ≤ S16x512.size a
  k0_off2_inb : ∀ d0 : Dev nD, ∀ a, (k0_off2 d0) a + S1.size a ≤ S16.size a
  k0_off3_inb : ∀ d0 : Dev nD, ∀ a, (k0_off3 d0) a + S1x512.size a ≤ S16x512.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off4_inb : ∀ d0 : Dev nD, ∀ (r : Fin 15), ∀ a, (k0_off4 d0 (BitVec.ofNat 32 (1 + r.val))) a + S1.size a ≤ S16.size a
  k0_off5_inb : ∀ d0 : Dev nD, ∀ (r : Fin 15), ∀ a, (k0_off5 d0 (BitVec.ofNat 32 (1 + r.val))) a + S1x512.size a ≤ S16x512.size a
  hstage0_0 : ∀ j, (stage0_0 j).IsWhole
  hstage0_1 : ∀ j, (stage0_1 j).IsWhole
  hstage0_2 : ∀ j, (stage0_2 j).IsWhole

variable [Facts₀]

abbrev cc0_scratch2 : DmaSems sig S16 := SemArray.consecutive 3 S16 hcc0_scratch2
abbrev cc0_scratch3 : DmaSems sig S16 := SemArray.consecutive 19 S16 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x4096 : Shape := ⟨2, ![512, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S512x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x4096, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S512x4096_S512_d1 : S512x4096.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  bcast_S512x1_S512x4096_0_1 : S512x1.BroadcastsInDim S512x4096 (![0, 1] : Fin 2 → Fin S512x4096.rank)
  bitsLt_bf16_f32 : FTy.bits .bf16 < FTy.bits .f32

variable [Facts₀]

class Facts : Prop extends Facts₀ where

variable [Facts]
-- ==== Proof.RmsSpec.lean ====
import proofs.«900466_g7700000000000467_dist_rmsnorm_colshard_i_m512_n256_v7x_i16_bf16_1_alg».proof.Proof.Gen.KernelIdeal.Skeleton
import Idealize.ShloMosaic.Lib.ValueIdx

/-!
# The distributed RMS norm as one pure term of the devices' blocks

Device `c` holds a block `x c` of 256 columns of a 512 × 4096 matrix and the matching 256 scale
factors. Every device forms, for each of its 512 rows, the sum of the squares of its 256 entries of
that row; the sixteen devices exchange these row sums, so that each ends up with the same 16 × 512
table `partials x` (row `d` = the row sums of device `d`). A device's result is then its scaled
block times the reciprocal square root of (the column sums of that table divided by 4096, plus a
small constant): `outOf x g c`.
-/

noncomputable section

namespace Cert.KernelIdeal.RmsSpec

open Idealize.ShloMosaic Idealize.ShloMosaic.ValueIdx Cert.KernelIdeal.Gen

variable {F : FTy → Type} [FloatOps F]

/-- The table of row sums after the exchange: its entry at row `d` (a device) and column `r` (a
    matrix row) is device `d`'s sum of squares over its 256 entries of matrix row `r`. -/
def partials (x : Dev nD → Vec F S512x256 .f32) : Vec F S16x512 .f32 :=
  fun i => k0_pay3 (x (i 0)) (ix2 (0 : Fin 1) (i 1))

/-- Device `c`'s result: its block scaled column by column by `g`, every row multiplied by the
    reciprocal square root of (the total of that row's sixteen partial sums, divided by 4096, plus
    the small constant). -/
def outOf (x : Dev nD → Vec F S512x256 .f32) (g : Vec F S256 .f32) (c : Dev nD) : FVec F S512x256 .bf16 :=
  k0_pay1 (k0_pay6 (partials x)) k0_pay7 (k0_pay5 (k0_pay4 (k0_pay2 (x c)) g))

end Cert.KernelIdeal.RmsSpec
-- ==== Proof.Rows.lean ====
/-
  The geometry of the gather buffer: a 16 × 512 array whose row `d` holds device `d`'s vector of row sums of
  squares. Row `r` is the set of indices with first coordinate `r`; the printed row slices (a unit rectangle of
  size 1 × 512 at offsets `![r, 0]`, squeezed to a vector of 512) cover exactly that set; the sixteen rows are
  pairwise disjoint and cover the buffer. A copy from a view onto the same view of another device's buffer leaves,
  under the view, the source's contents; a store of the block's sums of squares through the row rectangle makes
  the row agree with the gathered array of the specification.
-/
import proofs.«900466_g7700000000000467_dist_rmsnorm_colshard_i_m512_n256_v7x_i16_bf16_1_alg».proof.Proof.Gen.KernelIdeal.Skeleton
import proofs.«900466_g7700000000000467_dist_rmsnorm_colshard_i_m512_n256_v7x_i16_bf16_1_alg».proof.Proof.RmsSpec
import Idealize.ShloMosaic.Lib.Pipeline.Value
import Idealize.ShloMosaic.Lib.ValueIdx

noncomputable section

namespace Cert.KernelIdeal.Coll

open Cert.KernelIdeal Cert.KernelIdeal.Gen
open Idealize.ShloMosaic Idealize.ShloMosaic.TcCoe Idealize.ShloMosaic.ValueIdx

variable {F : FTy → Type} [FloatOps F]

/-- The gather buffer, whole. -/
abbrev PM : Memref sig .tc .vmem S16x512 .f32 := Memref.whole cc0_scratch0

/-- The indices of row `r` of the gather buffer. -/
def rowSet (r : ℕ) : Finset S16x512.Idx := Finset.univ.filter fun i => (i 0).val = r

theorem mem_rowSet {r : ℕ} {i : S16x512.Idx} : i ∈ rowSet r ↔ (i 0).val = r := by
  unfold rowSet; rw [Finset.mem_filter]; exact ⟨fun h => h.2, fun h => ⟨Finset.mem_univ _, h⟩⟩

/-- The unit rectangle of one row at offsets `![r, 0]` is row `r`. -/
theorem rowRect_set (off : Fin 2 → ℕ) (inb : ∀ a, off a + S1x512.size a ≤ S16x512.size a) (r : ℕ) (h : off = ![r, 0]) :
    (Rect.unit (s := S16x512) off S1x512.size inb).set = rowSet r := by
  subst h
  ext i
  rw [Rect.mem_set_unit, mem_rowSet, Fin.forall_fin_two]
  have h1 : ((i 1 : Fin 512) : ℕ) < 512 := (i 1).isLt
  constructor
  · rintro ⟨⟨h0, h0'⟩, -⟩
    have e0 : (![r, 0] : Fin 2 → ℕ) 0 = r := rfl
    have e1 : S1x512.size 0 = 1 := rfl
    rw [e0] at h0; rw [e0, e1] at h0'; omega
  · intro h
    have e0 : (![r, 0] : Fin 2 → ℕ) 0 = r := rfl
    have e1 : S1x512.size 0 = 1 := rfl
    have e2 : (![r, 0] : Fin 2 → ℕ) 1 = 0 := rfl
    have e3 : S1x512.size 1 = 512 := rfl
    refine ⟨⟨by rw [e0]; omega, by rw [e0, e1]; omega⟩, ⟨by rw [e2]; omega, by rw [e2, e3]; omega⟩⟩

/-- Rows are pairwise disjoint. -/
theorem rowSet_disjoint {r r' : ℕ} (h : r ≠ r') : Disjoint (rowSet r) (rowSet r') :=
  Finset.disjoint_left.mpr fun i hi hi' => h ((mem_rowSet.mp hi).symm.trans (mem_rowSet.mp hi'))

/-- The printed row slice of the gather buffer at offsets `off`, squeezed to a vector of 512. -/
abbrev rowOf (off : Fin 2 → ℕ) (inb : ∀ a, off a + S1x512.size a ≤ S16x512.size a) : Memref sig .tc .vmem S512 .f32 :=
  ((PM : Memref sig .tc .vmem S16x512 .f32).slice (Rect.unit (s := S16x512) off S1x512.size inb) (fun _ => rfl)).squeeze S512 squeezes_S1x512_S512

theorem rowOf_set (off : Fin 2 → ℕ) (inb : ∀ a, off a + S1x512.size a ≤ S16x512.size a) (r : ℕ) (h : off = ![r, 0]) :
    (rowOf off inb).view.set = rowSet r := by
  have h1 : (rowOf off inb).view.set = (Rect.unit (s := S16x512) off S1x512.size inb).set := by
    show (((View.whole cc0_scratch0 : View sig .tc _ _ _).slice (Rect.unit (s := S16x512) off S1x512.size inb)).reshape S512 _).set = _
    rw [View.set_reshape, View.set_slice_whole]
  exact h1.trans (rowRect_set off inb r h)

/-- A copy from a view onto the same view of another buffer leaves, under the view, the source's contents. -/
theorem write_read_same {sig' : RefSig} {κ : Kind} {sp : Space} {s : Shape} {e : EltTy} {Val : EltTy → Type}
    (v : View sig' κ sp s e) (fd fs : v.ty.Contents Val) :
    ∀ i ∈ v.set, v.write Val fd (v.read Val fs) Finset.univ i = fs i := by
  intro i hi
  obtain ⟨y, rfl⟩ := View.exists_emb_of_mem_set v hi
  rw [View.write_emb_of_mem _ _ (Finset.mem_univ y), View.read_apply, cast_cast, cast_eq]

end Cert.KernelIdeal.Coll

end
-- ==== Proof.Proto.lean ====
/-
  The cross-device protocol of the distributed RMS-norm on 16 devices, under the rounds discipline.

  Every device `c` first signals the runtime's barrier semaphore of each of its 15 peers `peer c k`
  (`k = 1 … 15`), stores its own vector of row sums of squares into row `c` of its 16 × 512 gather buffer, and
  waits for 15 units on its own barrier semaphore. It then copies its row `c` into row `c` of every peer's
  gather buffer — the copy to `peer c k` completing on `c`'s send semaphore `k` and on the peer's receive
  semaphore `c` —, computes `gamma · x`, waits for the 15 rows coming in and for its 15 copies going out, and
  normalises.

  Cells and duties (one round, round 0; a duty is named by a device):
  * the barrier cell of `c` has the 15 duties `d ≠ c`, one unit each, duty `d` paid by device `d`'s signal;
    its payload is what `c` needs for its copy into `d`'s buffer: row `c` of `d`'s gather buffer, at any
    contents, and that `d`'s receive cell `c` has reached round 0;
  * the receive cell `s` of `c` (`s ≠ c`) has the one duty `0`, of the row's transfer credit, paid by device
    `s`'s copy; its payload is row `s` of `c`'s gather buffer holding the gathered array's row `s`;
  * the send cell `k` of `c` (`1 ≤ k ≤ 15`) has the one duty `0`, paid by `c`'s own copy number `k`; its
    payload gives back the share of row `c` the copy read through.
  A device waits on its barrier cell (level 1) while it still owes its peers' receive cells (level 2) only;
  on its receive and send cells it waits owing nothing. That is the whole deadlock argument.
-/
import proofs.«900466_g7700000000000467_dist_rmsnorm_colshard_i_m512_n256_v7x_i16_bf16_1_alg».proof.Proof.Gen.KernelIdeal
import proofs.«900466_g7700000000000467_dist_rmsnorm_colshard_i_m512_n256_v7x_i16_bf16_1_alg».proof.Proof.Gen.KernelIdeal.Skeleton
import proofs.«900466_g7700000000000467_dist_rmsnorm_colshard_i_m512_n256_v7x_i16_bf16_1_alg».proof.Proof.Gen.KernelIdeal.Launch
import proofs.«900466_g7700000000000467_dist_rmsnorm_colshard_i_m512_n256_v7x_i16_bf16_1_alg».proof.Proof.Gen.KernelIdeal.Points
import proofs.«900466_g7700000000000467_dist_rmsnorm_colshard_i_m512_n256_v7x_i16_bf16_1_alg».proof.Proof.Gen.KernelIdeal.Frame
import proofs.«900466_g7700000000000467_dist_rmsnorm_colshard_i_m512_n256_v7x_i16_bf16_1_alg».proof.Proof.RmsSpec
import proofs.«900466_g7700000000000467_dist_rmsnorm_colshard_i_m512_n256_v7x_i16_bf16_1_alg».proof.Proof.Rows
import Idealize.ShloMosaic.Lib.Pipeline.Launch
import Idealize.ShloMosaic.Lib.Pipeline.Kit
import Idealize.ShloMosaic.Lib.Ring
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices -/

/-- The device `k` places after `c` around the mesh. -/
def peer (c : Dev nD) (k : ℕ) : Dev nD := ⟨(c.val + k) % 16, Nat.mod_lt _ (by decide)⟩

theorem peer_val (c : Dev nD) (k : ℕ) : (peer c k).val = (c.val + k) % 16 := rfl

/-- Going `k` places on and then `16 - k` places on comes back. -/
theorem peer_peer (c : Dev nD) (k : ℕ) (hk : k ≤ 16) : peer (peer c k) (16 - k) = c := by
  apply Fin.ext; rw [peer_val, peer_val]; have h16 : c.val < 16 := c.isLt; omega

theorem peer_ne (c : Dev nD) (k : ℕ) (h1 : 1 ≤ k) (h2 : k ≤ 15) : peer c k ≠ c := by
  intro h; have := congrArg Fin.val h; rw [peer_val] at this; have h16 : c.val < 16 := c.isLt; omega

theorem peer_inj (c : Dev nD) {k k' : ℕ} (hk : k < 16) (hk' : k' < 16) (h : peer c k = peer c k') : k = k' := by
  have := congrArg Fin.val h; rw [peer_val, peer_val] at this; have h16 : c.val < 16 := c.isLt; omega

/-! ## Semaphores and cells -/

/-- The runtime's barrier semaphore of collective id 0 (unscoped). -/
abbrev barS : Sem sig := (SemArray.scalar (sig.barrier 0 rfl) : Sems sig S_).sem
/-- Send semaphore `k` and receive semaphore `k` (the two scratch arrays of 16 DMA semaphores), `k` read modulo 16. -/
def sendSem (k : ℕ) : DmaSem sig := ⟨3 + k % 16, by show 3 + k % 16 < 35; have := Nat.mod_lt k (show 0 < 16 by decide); omega⟩
def recvSem (k : ℕ) : DmaSem sig := ⟨19 + k % 16, by show 19 + k % 16 < 35; have := Nat.mod_lt k (show 0 < 16 by decide); omega⟩

abbrev barCell (c : Dev nD) : GSem nD τ sig := ((c : Thread nD τ), .reg barS)
abbrev sendCell (c : Dev nD) (k : ℕ) : GSem nD τ sig := ((c : Thread nD τ), .dma (sendSem k))
abbrev recvCell (c : Dev nD) (k : ℕ) : GSem nD τ sig := ((c : Thread nD τ), .dma (recvSem k))

/-- What a semaphore cell is in the protocol. -/
inductive CellClass where
  | bar | send (k : ℕ) | recv (s : ℕ) | other
deriving DecidableEq

def classOf : SemLoc sig → CellClass
  | .reg _ => .bar
  | .dma q => if q.val < 3 then .other else if q.val < 19 then .send (q.val - 3) else .recv (q.val - 19)

theorem classOf_bar : classOf (.reg barS : SemLoc sig) = .bar := rfl
theorem classOf_send (k : ℕ) (hk : k < 16) : classOf (.dma (sendSem k) : SemLoc sig) = .send k := by
  unfold classOf sendSem; dsimp only
  split_ifs with h1 h2
  · omega
  · congr 1; omega
  · omega
theorem classOf_recv (s : ℕ) (hs : s < 16) : classOf (.dma (recvSem s) : SemLoc sig) = .recv s := by
  unfold classOf recvSem; dsimp only
  split_ifs with h1 h2
  · omega
  · omega
  · congr 1; omega

/-- The transfer credit of one row of the gather buffer. -/
abbrev N : ℕ := (rowOf (k0_off3 (0 : Dev nD)) (k0_off3_inb 0)).view.dmaCredit
theorem N_pos : 0 < N := View.dmaCredit_pos _ (by decide)

/-! ## Contents -/

/-- Device `d`'s block of `x` and of `gamma`, as its staging buffers hold them. -/
def xblk (d : Dev nD) : Vec F S512x256 .f32 := iblk m d 0 t0_0
def gblk (d : Dev nD) : Vec F S256 .f32 := iblk m d 1 t0_0

/-- The gathered array: row `d` is device `d`'s vector of row sums of squares. The same on every device. -/
def gathered : Vec F S16x512 .f32 := RmsSpec.partials (fun d => xblk m d)

/-- Device `c`'s result. -/
def outAt (c : Dev nD) : FVec F S512x256 .bf16 := RmsSpec.outOf (fun d => xblk m d) (gblk m c) c

/-! ## Shares of the own row: copy `k` reads through `sndShare k`; after `k` copies `remShare k` is left -/

def remShare : ℕ → PosShare TreeShare
  | 0 => fullShare
  | k + 1 => (remShare k).right
def sndShare (k : ℕ) : PosShare TreeShare := (remShare (k - 1)).left

theorem share_split (k : ℕ) : remShare k ∈ sndShare (k + 1) ·? remShare (k + 1) := by
  show remShare k ∈ (remShare (k + 1 - 1)).left ·? (remShare k).right
  rw [Nat.add_sub_cancel]; exact PosShare.mem_left_op_right _

/-- Row `r` of device `c`'s gather buffer at contents `f`, held with share `q`. -/
def rowPts (c : Dev nD) (r : ℕ) (q : PosShare TreeShare) (f : Buf (Elt F) ((c : Thread nD τ).loc cc0_scratch0)) : sProp 𝕄 :=
  ((c : Thread nD τ).loc cc0_scratch0) ↦[rowSet r]{q} f

instance rowPts_storable (c : Dev nD) (r : ℕ) (q) (f) : BI.Storable (upEmb : UEmb _ 𝕄) (rowPts (F := F) c r q f) := by unfold rowPts; infer_instance

/-! ## The schedule -/

/-- What device `d`'s signal (duty `d` of `c`'s barrier cell) hands `c`. -/
def barPay (c d : Dev nD) : sProp 𝕄 := iprop((∃ f, rowPts d c.val fullShare f) ∗ reached ER (recvCell d c.val) 0)
/-- What the copy from device `s` hands `c`: row `s` at the gathered array. -/
def recvPay (c : Dev nD) (s : ℕ) : sProp 𝕄 := rowPts c s fullShare (gathered m)
/-- What `c`'s own copy `k` gives back: the share of row `c` it read through. -/
def sendPay (c : Dev nD) (k : ℕ) : sProp 𝕄 := rowPts c c.val (sndShare k) (gathered m)

def sched : Rounds.Schedule (GSem nD τ sig) (Dev nD) 𝕄 where
  duties g r :=
    if r = 0 ∧ g.1.2 = .tc then
      match classOf g.2 with
      | .bar => Finset.univ.erase g.1.1
      | .send k => if k = 0 then ∅ else {0}
      | .recv s => if s = g.1.1.val then ∅ else {0}
      | .other => ∅
    else ∅
  unitless _ := False
  amount g _ _ := match classOf g.2 with | .bar => 1 | _ => N
  payload g _ d := match classOf g.2 with
    | .bar => barPay g.1.1 d
    | .send k => sendPay m g.1.1 k
    | .recv s => recvPay m g.1.1 s
    | .other => iprop(emp)
  amount_pos g _ _ _ := by
    show 0 < (match classOf g.2 with | .bar => 1 | _ => N)
    split
    · exact Nat.one_pos
    · exact N_pos

instance sched_payload_storable (g : GSem nD τ sig) (r : ℕ) (d : Dev nD) :
    BI.Storable (upEmb : UEmb _ 𝕄) ((sched (F := F) m).payload g r d) := by
  show BI.Storable upEmb (match classOf g.2 with
    | .bar => barPay g.1.1 d
    | .send k => sendPay m g.1.1 k
    | .recv s => recvPay m g.1.1 s
    | .other => iprop(emp))
  unfold barPay recvPay sendPay
  split <;> infer_instance

section Sched
variable (c : Dev nD)

theorem duties_bar : (sched (F := F) m).duties (barCell c) 0 = Finset.univ.erase c := by
  dsimp only [sched]; rw [if_pos ⟨rfl, rfl⟩]; rfl
theorem duties_send (k : ℕ) (h1 : 1 ≤ k) (h2 : k ≤ 15) : (sched (F := F) m).duties (sendCell c k) 0 = {0} := by
  dsimp only [sched]; rw [if_pos ⟨rfl, rfl⟩, classOf_send k (by omega)]; dsimp only; rw [if_neg (by omega)]
theorem duties_recv (s : ℕ) (hs : s < 16) (hne : s ≠ c.val) : (sched (F := F) m).duties (recvCell c s) 0 = {0} := by
  dsimp only [sched]; rw [if_pos ⟨rfl, rfl⟩, classOf_recv s hs]; dsimp only; rw [if_neg hne]
theorem duties_later (g : GSem nD τ sig) : ∀ r, 1 ≤ r → (sched (F := F) m).duties g r = ∅ :=
  fun r hr => by dsimp only [sched]; rw [if_neg fun h => by omega]
/-- The two cells no copy uses: send cell 0 and the receive cell of the device's own number. -/
theorem duties_send_zero : ∀ r, 0 ≤ r → (sched (F := F) m).duties (sendCell c 0) r = ∅ := fun r _ => by
  dsimp only [sched]; split
  · rw [classOf_send 0 (by omega)]; rfl
  · rfl
theorem duties_recv_self : ∀ r, 0 ≤ r → (sched (F := F) m).duties (recvCell c c.val) r = ∅ := fun r _ => by
  dsimp only [sched]; split
  · rw [classOf_recv c.val c.isLt]; dsimp only; rw [if_pos rfl]
  · rfl

theorem amount_bar (d : Dev nD) : (sched (F := F) m).amount (barCell c) 0 d = 1 := rfl
theorem amount_send (k : ℕ) (hk : k < 16) (d : Dev nD) : (sched (F := F) m).amount (sendCell c k) 0 d = N := by
  dsimp only [sched]; rw [classOf_send k hk]
theorem amount_recv (s : ℕ) (hs : s < 16) (d : Dev nD) : (sched (F := F) m).amount (recvCell c s) 0 d = N := by
  dsimp only [sched]; rw [classOf_recv s hs]

theorem expect_bar : (sched (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (k : ℕ) (h1 : 1 ≤ k) (h2 : k ≤ 15) : (sched (F := F) m).expect (sendCell c k) 0 = N := by
  unfold Schedule.expect Schedule.amountOf; rw [duties_send m c k h1 h2, Finset.sum_singleton, amount_send m c k (by omega)]
theorem expect_recv (s : ℕ) (hs : s < 16) (hne : s ≠ c.val) : (sched (F := F) m).expect (recvCell c s) 0 = N := by
  unfold Schedule.expect Schedule.amountOf; rw [duties_recv m c s hs hne, Finset.sum_singleton, amount_recv m c s hs]

theorem payload_bar (d : Dev nD) : (sched (F := F) m).payload (barCell c) 0 d = barPay c d := rfl
theorem payload_send (k : ℕ) (hk : k < 16) (d : Dev nD) : (sched (F := F) m).payload (sendCell c k) 0 d = sendPay m c k := by
  dsimp only [sched]; rw [classOf_send k hk]
theorem payload_recv (s : ℕ) (hs : s < 16) (d : Dev nD) : (sched (F := F) m).payload (recvCell c s) 0 d = recvPay m c s := by
  dsimp only [sched]; rw [classOf_recv s hs]

theorem rest_send (k : ℕ) (h1 : 1 ≤ k) (h2 : k ≤ 15) :
    bigSep ((sched (F := F) m).duties (sendCell c k) 0 \ ∅) (fun d => (sched (F := F) m).payload (sendCell c k) 0 d) = sendPay m c k := by
  rw [Finset.sdiff_empty, duties_send m c k h1 h2, bigSep_singleton, payload_send m c k (by omega)]
theorem rest_recv (s : ℕ) (hs : s < 16) (hne : s ≠ c.val) :
    bigSep ((sched (F := F) m).duties (recvCell c s) 0 \ ∅) (fun d => (sched (F := F) m).payload (recvCell c s) 0 d) = recvPay m c s := by
  rw [Finset.sdiff_empty, duties_recv m c s hs hne, bigSep_singleton, payload_recv m c s hs]
/-- The barrier round's payloads: from every other device, the row of its buffer that `c` will write. -/
theorem rest_bar :
    bigSep ((sched (F := F) m).duties (barCell c) 0 \ ∅) (fun d => (sched (F := F) m).payload (barCell c) 0 d)
      = bigSep (Finset.univ.erase c) (fun d => barPay (F := F) c d) := by
  rw [Finset.sdiff_empty, duties_bar]; rfl

end Sched

/-! ## What each device owes at launch, in the order its body pays it; the levels -/

/-- The receive credits still owed when `j` copies remain: to `peer c (15 - j + 1) … peer c 15`. The next copy,
    number `16 - j`, peels the last summand. -/
def OR (c : Dev nD) : ℕ → CellTallies nD τ sig Unit
  | 0 => 0
  | j + 1 => OR c j + tallyAt (recvCell (peer c (15 - j)) c.val) () N
/-- The same with the barrier units still owed when `j` signals remain. -/
def OB (c : Dev nD) : ℕ → CellTallies nD τ sig Unit
  | 0 => OR c 15
  | j + 1 => OB c j + tallyAt (barCell (peer c (15 - j))) () 1
def O₀ (c : Dev nD) : CellTallies nD τ sig Unit := OB c 15

def L (g : GSem nD τ sig) : Finset Unit := if g.1.2 = .tc then {()} else ∅
/-- barrier cells at 1, receive cells at 2, everything else (staging, send) at 0. -/
def lv (g : GSem nD τ sig) (_ : Unit) : ℕ := match classOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- A cell owed something by `OR c j` is a receive cell of a peer. -/
theorem OR_pos {c : Dev nD} {j : ℕ} {g : GSem nD τ sig} {u : Unit} (h : 0 < OR c j g u) : ∃ p : Dev nD, g = recvCell p c.val := by
  induction j with
  | zero => exact absurd h (by simp [OR])
  | succ j ih =>
    unfold OR at h
    rw [Pi.add_apply, Finsupp.add_apply, tallyAt_apply] at h
    by_cases hg : g = recvCell (peer c (15 - j)) c.val ∧ u = ()
    · exact ⟨_, hg.1⟩
    · rw [if_neg hg, Nat.add_zero] at h; exact ih h

theorem OB_pos {c : Dev nD} {j : ℕ} {g : GSem nD τ sig} {u : Unit} (h : 0 < OB c j g u) :
    (∃ p : Dev nD, g = recvCell p c.val) ∨ ∃ p : Dev nD, g = barCell p := by
  induction j with
  | zero => exact Or.inl (OR_pos h)
  | succ j ih =>
    unfold OB at h
    rw [Pi.add_apply, Finsupp.add_apply, tallyAt_apply] at h
    by_cases hg : g = barCell (peer c (15 - j)) ∧ u = ()
    · exact Or.inr ⟨_, hg.1⟩
    · rw [if_neg hg, Nat.add_zero] at h; exact ih h

theorem lv_bar (p : Dev nD) (u : Unit) : lv (barCell p) u = 1 := rfl
theorem lv_recv (p : Dev nD) (s : ℕ) (hs : s < 16) (u : Unit) : lv (recvCell p s) u = 2 := by
  unfold lv; rw [classOf_recv s hs]

/-- Waits on cells below the barrier and receive levels (staging and send cells) are allowed whatever is owed. -/
theorem mayWait_low (c : Dev nD) (q : SemLoc sig) (hq : lv ((c : Thread nD τ), q) () = 0) (j : ℕ) :
    (levAts L lv : sProp 𝕄) ⊢ MayWait (c : Thread nD τ) q () (OB c j) :=
  MayOwe.of_cut (L := L) (lev := lv) 0 (fun p hp => by rw [Finset.mem_singleton.mp hp, L_tc]; exact Finset.mem_singleton_self _)
    (fun g u hg => by
      rcases OB_pos hg with ⟨p, rfl⟩ | ⟨p, rfl⟩ <;> exact Finset.mem_singleton_self _)
    (fun p hp => by rw [Finset.mem_singleton.mp hp]; exact Nat.le_of_eq hq)
    (fun g u hg => by
      rcases OB_pos hg with ⟨p, rfl⟩ | ⟨p, rfl⟩
      · rw [lv_recv p c.val c.isLt]; decide
      · rw [lv_bar]; decide)

/-- At its barrier wait a device owes receive credits only: receive cells, above its barrier cell. -/
theorem mayWait_bar (c : Dev nD) (j : ℕ) :
    (levAts L lv : sProp 𝕄) ⊢ MayWait (c : Thread nD τ) (.reg barS) () (OR c j) :=
  MayOwe.of_cut (L := L) (lev := lv) 1 (fun p hp => by rw [Finset.mem_singleton.mp hp, L_tc]; exact Finset.mem_singleton_self _)
    (fun g u hg => by obtain ⟨p, rfl⟩ := OR_pos hg; exact Finset.mem_singleton_self _)
    (fun p hp => by rw [Finset.mem_singleton.mp hp]; exact Nat.le_of_eq (lv_bar c ()))
    (fun g u hg => by obtain ⟨p, rfl⟩ := OR_pos hg; rw [lv_recv p c.val c.isLt]; decide)

end Cert.KernelIdeal.Coll

end
-- ==== Proof.Data.lean ====
/-
  What each device holds during the protocol, and the pipeline's proof data.

  The protocol's cells are, per device, its barrier cell, its 16 send cells and its 16 receive cells (send cell 0 and
  the receive cell of the device's own number take part in no copy: they have no duty and are closed untouched).
  A device starts with every cell's invariant and round-0 mark, its own cells' positions, and the tokens of the
  duties IT pays: duty `c` of each peer's barrier cell, the one duty of each peer's receive cell `c`, and the one
  duty of each of its own send cells 1 … 15. It ends with its gather buffer holding the gathered array and all its
  own semaphores at zero.
-/
import proofs.«900466_g7700000000000467_dist_rmsnorm_colshard_i_m512_n256_v7x_i16_bf16_1_alg».proof.Proof.Proto

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed: 0 the barrier, 1 + k send cell k, 17 + s receive cell s -/

def csem (j : Fin 33) : SemLoc sig :=
  if j.val = 0 then .reg barS else if j.val ≤ 16 then .dma (sendSem (j.val - 1)) else .dma (recvSem (j.val - 17))
abbrev kcell (ck : Dev nD × Fin 33) : GSem nD τ sig := ((ck.1 : Thread nD τ), csem ck.2)

def ixBar : Fin 33 := ⟨0, by decide⟩
def ixSend (k : ℕ) : Fin 33 := ⟨1 + k % 16, by have := Nat.mod_lt k (show 0 < 16 by decide); omega⟩
def ixRecv (s : ℕ) : Fin 33 := ⟨17 + s % 16, by have := Nat.mod_lt s (show 0 < 16 by decide); omega⟩

theorem sendSem_mod (k : ℕ) : sendSem (k % 16) = sendSem k := by
  unfold sendSem; apply Fin.ext; show 3 + k % 16 % 16 = 3 + k % 16; omega
theorem recvSem_mod (k : ℕ) : recvSem (k % 16) = recvSem k := by
  unfold recvSem; apply Fin.ext; show 19 + k % 16 % 16 = 19 + k % 16; omega

theorem kcell_bar (c : Dev nD) : kcell (c, ixBar) = barCell c := rfl
theorem kcell_send (c : Dev nD) (k : ℕ) : kcell (c, ixSend k) = sendCell c k := by
  have hm := Nat.mod_lt k (show 0 < 16 by decide)
  show ((c : Thread nD τ), csem (ixSend k)) = _
  unfold csem ixSend; dsimp only
  rw [if_neg (by omega), if_pos (by omega), show 1 + k % 16 - 1 = k % 16 by omega, sendSem_mod]
theorem kcell_recv (c : Dev nD) (s : ℕ) : kcell (c, ixRecv s) = recvCell c s := by
  have hm := Nat.mod_lt s (show 0 < 16 by decide)
  show ((c : Thread nD τ), csem (ixRecv s)) = _
  unfold csem ixRecv; dsimp only
  rw [if_neg (by omega), if_neg (by omega), show 17 + s % 16 - 17 = s % 16 by omega, recvSem_mod]

/-- Every cell's invariant, under the names `K`, and that every cell has reached round 0. Persistent. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) :
    records m K ⊢ cellInv ER (sched m) (K ck) (kcell ck) := by
  unfold records; exact (BI.sep_and.trans and_elimL).trans (bigSep_elim (Finset.mem_univ ck))
theorem reached_at (K : Dev nD × Fin 33 → ℕ) (ck : Dev nD × Fin 33) :
    records m K ⊢ reached ER (kcell ck) 0 := by
  unfold records; exact (BI.sep_and.trans and_elimR).trans (bigSep_elim (Finset.mem_univ ck))

theorem inv_bar (K : Dev nD × Fin 33 → ℕ) (c : Dev nD) : records m K ⊢ cellInv ER (sched m) (K (c, ixBar)) (barCell c) := inv_at m K (c, ixBar)
theorem inv_send (K : Dev nD × Fin 33 → ℕ) (c : Dev nD) (k : ℕ) : records m K ⊢ cellInv ER (sched m) (K (c, ixSend k)) (sendCell c k) := by
  have h := inv_at m K (c, ixSend k); rw [kcell_send] at h; exact h
theorem inv_recv (K : Dev nD × Fin 33 → ℕ) (c : Dev nD) (s : ℕ) : records m K ⊢ cellInv ER (sched m) (K (c, ixRecv s)) (recvCell c s) := by
  have h := inv_at m K (c, ixRecv s); rw [kcell_recv] at h; exact h
theorem reached_bar (K : Dev nD × Fin 33 → ℕ) (c : Dev nD) : records m K ⊢ reached ER (barCell c) 0 := reached_at m K (c, ixBar)
theorem reached_send (K : Dev nD × Fin 33 → ℕ) (c : Dev nD) (k : ℕ) : records m K ⊢ reached ER (sendCell c k) 0 := by
  have h := reached_at m K (c, ixSend k); rw [kcell_send] at h; exact h
theorem reached_recv (K : Dev nD × Fin 33 → ℕ) (c : Dev nD) (s : ℕ) : records m K ⊢ reached ER (recvCell c s) 0 := by
  have h := reached_at m K (c, ixRecv s); rw [kcell_recv] at h; exact h

/-! ## What a device starts from -/

/-- The protocol's ghost state of device `c`: the records; its positions at round 0 of its barrier cell, its 16 send
    cells and its 16 receive cells (receive cell `(peer c k).val` for `k = 0 … 15`: `k = 0` is its own number's);
    and, for each peer `peer c k`, `k = 1 … 15`, the tokens of the three duties its signal and its copy to that peer pay. -/
def ghost (K : Dev nD × Fin 33 → ℕ) (c : Dev nD) : sProp 𝕄 :=
  iprop(records m K
    ∗ atPos ER (barCell c) 0 ∅ 0
    ∗ (bigSep (Finset.Ico 0 16) fun k => atPos ER (sendCell c k) 0 ∅ 0)
    ∗ (bigSep (Finset.Ico 0 16) fun k => atPos ER (recvCell c (peer c k).val) 0 ∅ 0)
    ∗ (bigSep (Finset.Ico 1 16) fun k => dutyTok ER (barCell (peer c k)) 0 c)
    ∗ (bigSep (Finset.Ico 1 16) fun k => dutyTok ER (recvCell (peer c k) c.val) 0 (0 : Dev nD))
    ∗ (bigSep (Finset.Ico 1 16) fun k => dutyTok ER (sendCell c k) 0 (0 : Dev nD)))

/-- What device `c`'s body starts from: that at some names; the credit tokens of its barrier cell's 15 units and of each
    of its 15 receive cells' row credit; the level facts. -/
def start (c : Dev nD) : sProp 𝕄 :=
  iprop((∃ K, ghost m K c) ∗ cred (tallyAt (barCell c) () 15)
    ∗ (bigSep (Finset.Ico 1 16) fun k => cred (tallyAt (recvCell c (peer c k).val) () N)) ∗ levAts L lv)

/-- The two scratch buffers, whole. -/
def scr0 (c : Dev nD) (f : Buf (Elt F) ((c : Thread nD τ).loc cc0_scratch0)) : sProp 𝕄 := ((c : Thread nD τ).loc cc0_scratch0) ↦{fullShare} f
def scr1 (c : Dev nD) (f : Buf (Elt F) ((c : Thread nD τ).loc cc0_scratch1)) : sProp 𝕄 := ((c : Thread nD τ).loc cc0_scratch1) ↦{fullShare} f

def Φ₀ (c : Dev nD) : sProp 𝕄 := iprop(start m c ∗ (∃ f, scr0 c f) ∗ ∃ f, scr1 c f)
/-- After the point: the gather buffer holds the gathered array, and the device's 32 own semaphores are at zero. -/
def Φ₁ (c : Dev nD) : sProp 𝕄 :=
  iprop(scr0 c (gathered m) ∗ (∃ f, scr1 c f)
    ∗ (bigSep (Finset.Ico 0 16) fun k => semVal (sendCell c k) 0)
    ∗ (bigSep (Finset.Ico 0 16) fun k => semVal (recvCell c (peer c k).val) 0))

/-! ## The pipeline's proof data -/

def dats (_ : Fin 1) (c : Dev nD) : Dat τ (Elt F) Unit ℕ UU ℕ cfg0 c where
  A w := V m c (Pipeline.arrRef spec0 w)
  after w _ := match w with
    | ⟨0, _⟩ => xblk m c
    | ⟨1, _⟩ => gblk m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Coll

end
-- ==== Proof.Regions.lean ====
/-
  The gather buffer as its sixteen rows. Holding the whole buffer at contents `f` (with any share) is holding
  each row at `f`; seen from device `c`, the rows are its own row `c` and the rows of its fifteen peers
  `peer c k`, `k = 1 … 15`. A row's points-to depends on the contents only through the row.
-/
import proofs.«900466_g7700000000000467_dist_rmsnorm_colshard_i_m512_n256_v7x_i16_bf16_1_alg».proof.Proof.Proto

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rows below `n`. -/
def rowsBelow (n : ℕ) : Finset S16x512.Idx := Finset.univ.filter fun i => (i 0).val < n

theorem mem_rowsBelow {n : ℕ} {i : S16x512.Idx} : i ∈ rowsBelow n ↔ (i 0).val < n := by
  unfold rowsBelow; rw [Finset.mem_filter]; exact ⟨fun h => h.2, fun h => ⟨Finset.mem_univ _, h⟩⟩

theorem rowsBelow_succ (n : ℕ) : rowsBelow (n + 1) = rowsBelow n ∪ rowSet n := by
  ext i; rw [Finset.mem_union, mem_rowsBelow, mem_rowsBelow, mem_rowSet]; omega

theorem rowsBelow_disjoint (n : ℕ) : Disjoint (rowsBelow n) (rowSet n) :=
  Finset.disjoint_left.mpr fun i hi hi' => by rw [mem_rowsBelow] at hi; rw [mem_rowSet] at hi'; omega

theorem rowsBelow_one : rowsBelow 1 = rowSet 0 := by
  ext i; rw [mem_rowsBelow, mem_rowSet]; omega

theorem rowsBelow_all : rowsBelow 16 = Finset.univ := by
  ext i; rw [mem_rowsBelow]; exact ⟨fun _ => Finset.mem_univ _, fun _ => (i 0).isLt⟩

omit [FloatOps F] in
/-- A row's points-to depends on the contents through the row only. -/
theorem rowPts_congr (c : Dev nD) (r : ℕ) (q : PosShare TreeShare) {f g : Buf (Elt F) ((c : Thread nD τ).loc cc0_scratch0)}
    (h : ∀ i ∈ rowSet r, f i = g i) : rowPts (F := F) c r q f = rowPts c r q g := by
  unfold rowPts; exact pointsTo_congr h

omit [FloatOps F] in
/-- The rows below `n + 1`, one by one. -/
theorem rows_range (c : Dev nD) (q : PosShare TreeShare) (f : Buf (Elt F) ((c : Thread nD τ).loc cc0_scratch0)) (n : ℕ) :
    ((((c : Thread nD τ).loc cc0_scratch0) ↦[rowsBelow (n + 1)]{q} f : sProp 𝕄)) = bigSep (Finset.range (n + 1)) fun r => rowPts c r q f := by
  induction n with
  | zero =>
    rw [rowsBelow_one, Finset.range_one, bigSep_singleton]; rfl
  | succ n ih =>
    rw [rowsBelow_succ, Finset.range_add_one, bigSep_insert Finset.notMem_range_self, ← ih]
    have hu : ((((c : Thread nD τ).loc cc0_scratch0) ↦[rowsBelow (n + 1) ∪ rowSet (n + 1)]{q} f : sProp 𝕄))
        ⊣⊢ iprop((((c : Thread nD τ).loc cc0_scratch0) ↦[rowsBelow (n + 1)]{q} f) ∗ ((c : Thread nD τ).loc cc0_scratch0) ↦[rowSet (n + 1)]{q} f) :=
      pointsTo_union (rowsBelow_disjoint (n + 1))
    refine (equiv_iff.mp ⟨hu.1, hu.2⟩).trans ?_
    exact equiv_iff.mp ⟨BI.sep_comm, BI.sep_comm⟩

/-- Seen from device `c`, the sixteen row numbers are `c`'s own and its fifteen peers'. -/
theorem range_eq_peers (c : Dev nD) :
    Finset.range 16 = insert c.val ((Finset.Ico 1 16).image fun k => (peer c k).val) := by
  have hc : c.val < 16 := c.isLt
  ext x
  rw [Finset.mem_range, Finset.mem_insert, Finset.mem_image]
  constructor
  · intro hx
    by_cases h : x = c.val
    · exact Or.inl h
    · refine Or.inr ⟨(x + 16 - c.val) % 16, Finset.mem_Ico.mpr ⟨by omega, by omega⟩, ?_⟩
      rw [peer_val]; omega
  · rintro (h | ⟨k, hk, h⟩)
    · omega
    · rw [peer_val] at h; omega

theorem own_not_peer (c : Dev nD) : c.val ∉ (Finset.Ico 1 16).image fun k => (peer c k).val := by
  have hc : c.val < 16 := c.isLt
  intro h
  obtain ⟨k, hk, h⟩ := Finset.mem_image.mp h
  rw [Finset.mem_Ico] at hk; rw [peer_val] at h; omega

theorem peer_val_injOn (c : Dev nD) : Set.InjOn (fun k => (peer c k).val) (Finset.Ico 1 16 : Finset ℕ) := by
  have hc : c.val < 16 := c.isLt
  intro k hk k' hk' h
  rw [Finset.mem_coe, Finset.mem_Ico] at hk hk'
  simp only [peer_val] at h; omega

omit [FloatOps F] in
/-- A family over the sixteen rows, seen from `c`. -/
theorem bigSep_rows (c : Dev nD) (Φ : ℕ → sProp 𝕄) :
    bigSep (Finset.range 16) Φ = iprop(Φ c.val ∗ bigSep (Finset.Ico 1 16) fun k => Φ (peer c k).val) := by
  rw [range_eq_peers c, bigSep_insert (own_not_peer c), bigSep_image_of_injOn (peer_val_injOn c)]
  rfl

omit [FloatOps F] in
/-- The whole gather buffer is the own row and the fifteen peers' rows. -/
theorem scr_rows (c : Dev nD) (q : PosShare TreeShare) (f : Buf (Elt F) ((c : Thread nD τ).loc cc0_scratch0)) :
    ((((c : Thread nD τ).loc cc0_scratch0) ↦{q} f : sProp 𝕄))
      = iprop(rowPts c c.val q f ∗ bigSep (Finset.Ico 1 16) fun k => rowPts c (peer c k).val q f) := by
  rw [← bigSep_rows c (fun r => rowPts c r q f), ← rows_range c q f 15, rowsBelow_all]

end Cert.KernelIdeal.Coll

end
-- ==== Proof.Steps.lean ====
/-
  One thread's protocol steps, each stated once for a symbolic device and a symbolic step number.

  While signals remain the thread holds, for each peer still to be signalled, the token of its duty on that peer's
  barrier cell and the row of its own gather buffer that the peer will write. While copies remain it holds, for
  each peer still to be served, the tokens of the copy's two duties and what that peer's signal handed over; the
  share of its own row not yet lent to a copy; and the send credits of the copies already started. A receive wait
  turns a receive cell's credit and position into the landed row; a send wait gives back the share a copy read
  through. What is owed shrinks by one summand per signal and per copy, in program order.
-/
import proofs.«900466_g7700000000000467_dist_rmsnorm_colshard_i_m512_n256_v7x_i16_bf16_1_alg».proof.Proof.Data
import proofs.«900466_g7700000000000467_dist_rmsnorm_colshard_i_m512_n256_v7x_i16_bf16_1_alg».proof.Proof.Regions

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Ring (bigSep_Ico_succ bigSep_Ico_one)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The printed device chains and semaphore slices -/

theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 1 := Fin.ext (k0_dev16_eq c)
theorem dev17_eq (c : Dev nD) : (⟨k0_dev17 c, k0_dev17_lt c⟩ : Dev nD) = peer c 2 := Fin.ext (k0_dev17_eq c)
theorem dev18_eq (c : Dev nD) : (⟨k0_dev18 c, k0_dev18_lt c⟩ : Dev nD) = peer c 3 := Fin.ext (k0_dev18_eq c)
theorem dev19_eq (c : Dev nD) : (⟨k0_dev19 c, k0_dev19_lt c⟩ : Dev nD) = peer c 4 := Fin.ext (k0_dev19_eq c)
theorem dev20_eq (c : Dev nD) : (⟨k0_dev20 c, k0_dev20_lt c⟩ : Dev nD) = peer c 5 := Fin.ext (k0_dev20_eq c)
theorem dev21_eq (c : Dev nD) : (⟨k0_dev21 c, k0_dev21_lt c⟩ : Dev nD) = peer c 6 := Fin.ext (k0_dev21_eq c)
theorem dev22_eq (c : Dev nD) : (⟨k0_dev22 c, k0_dev22_lt c⟩ : Dev nD) = peer c 7 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 9 := Fin.ext (k0_dev24_eq c)
theorem dev25_eq (c : Dev nD) : (⟨k0_dev25 c, k0_dev25_lt c⟩ : Dev nD) = peer c 10 := Fin.ext (k0_dev25_eq c)
theorem dev26_eq (c : Dev nD) : (⟨k0_dev26 c, k0_dev26_lt c⟩ : Dev nD) = peer c 11 := Fin.ext (k0_dev26_eq c)
theorem dev27_eq (c : Dev nD) : (⟨k0_dev27 c, k0_dev27_lt c⟩ : Dev nD) = peer c 12 := Fin.ext (k0_dev27_eq c)
theorem dev28_eq (c : Dev nD) : (⟨k0_dev28 c, k0_dev28_lt c⟩ : Dev nD) = peer c 13 := Fin.ext (k0_dev28_eq c)
theorem dev29_eq (c : Dev nD) : (⟨k0_dev29 c, k0_dev29_lt c⟩ : Dev nD) = peer c 14 := Fin.ext (k0_dev29_eq c)
theorem dev30_eq (c : Dev nD) : (⟨k0_dev30 c, k0_dev30_lt c⟩ : Dev nD) = peer c 15 := Fin.ext (k0_dev30_eq c)

theorem inb16 (j : Fin 16) : ∀ a, (![j.val] : Fin 1 → ℕ) a + S1.size a ≤ S16.size a := by revert j; decide

theorem send_sem_at : ∀ j : Fin 16,
    ((cc0_scratch2.slice (Rect.unit (s := S16) ![j.val] S1.size (inb16 j))).squeeze S_ squeezes_S1_S_).sem = sendSem j.val := by decide
theorem recv_sem_at : ∀ j : Fin 16,
    ((cc0_scratch3.slice (Rect.unit (s := S16) ![j.val] S1.size (inb16 j))).squeeze S_ squeezes_S1_S_).sem = recvSem j.val := by decide

theorem send_sem (off : Fin 1 → ℕ) (inb : ∀ a, off a + S1.size a ≤ S16.size a) (j : Fin 16) (h : off = ![j.val]) :
    ((cc0_scratch2.slice (Rect.unit (s := S16) off S1.size inb)).squeeze S_ squeezes_S1_S_).sem = sendSem j.val := by
  subst h; exact send_sem_at j
theorem recv_sem (off : Fin 1 → ℕ) (inb : ∀ a, off a + S1.size a ≤ S16.size a) (j : Fin 16) (h : off = ![j.val]) :
    ((cc0_scratch3.slice (Rect.unit (s := S16) off S1.size inb)).squeeze S_ squeezes_S1_S_).sem = recvSem j.val := by
  subst h; exact recv_sem_at j

theorem sendSem1_eq : ((cc0_scratch2.slice (Rect.unit (s := S16) ![1] S1.size inb_S16_S1_1)).squeeze S_ squeezes_S1_S_).sem = sendSem 1 := send_sem _ _ ⟨1, by decide⟩ rfl
theorem sendSem2_eq : ((cc0_scratch2.slice (Rect.unit (s := S16) ![2] S1.size inb_S16_S1_2)).squeeze S_ squeezes_S1_S_).sem = sendSem 2 := send_sem _ _ ⟨2, by decide⟩ rfl
theorem sendSem3_eq : ((cc0_scratch2.slice (Rect.unit (s := S16) ![3] S1.size inb_S16_S1_3)).squeeze S_ squeezes_S1_S_).sem = sendSem 3 := send_sem _ _ ⟨3, by decide⟩ rfl
theorem sendSem4_eq : ((cc0_scratch2.slice (Rect.unit (s := S16) ![4] S1.size inb_S16_S1_4)).squeeze S_ squeezes_S1_S_).sem = sendSem 4 := send_sem _ _ ⟨4, by decide⟩ rfl
theorem sendSem5_eq : ((cc0_scratch2.slice (Rect.unit (s := S16) ![5] S1.size inb_S16_S1_5)).squeeze S_ squeezes_S1_S_).sem = sendSem 5 := send_sem _ _ ⟨5, by decide⟩ rfl
theorem sendSem6_eq : ((cc0_scratch2.slice (Rect.unit (s := S16) ![6] S1.size inb_S16_S1_6)).squeeze S_ squeezes_S1_S_).sem = sendSem 6 := send_sem _ _ ⟨6, by decide⟩ rfl
theorem sendSem7_eq : ((cc0_scratch2.slice (Rect.unit (s := S16) ![7] S1.size inb_S16_S1_7)).squeeze S_ squeezes_S1_S_).sem = sendSem 7 := send_sem _ _ ⟨7, by decide⟩ rfl
theorem sendSem8_eq : ((cc0_scratch2.slice (Rect.unit (s := S16) ![8] S1.size inb_S16_S1_8)).squeeze S_ squeezes_S1_S_).sem = sendSem 8 := send_sem _ _ ⟨8, by decide⟩ rfl
theorem sendSem9_eq : ((cc0_scratch2.slice (Rect.unit (s := S16) ![9] S1.size inb_S16_S1_9)).squeeze S_ squeezes_S1_S_).sem = sendSem 9 := send_sem _ _ ⟨9, by decide⟩ rfl
theorem sendSem10_eq : ((cc0_scratch2.slice (Rect.unit (s := S16) ![10] S1.size inb_S16_S1_10)).squeeze S_ squeezes_S1_S_).sem = sendSem 10 := send_sem _ _ ⟨10, by decide⟩ rfl
theorem sendSem11_eq : ((cc0_scratch2.slice (Rect.unit (s := S16) ![11] S1.size inb_S16_S1_11)).squeeze S_ squeezes_S1_S_).sem = sendSem 11 := send_sem _ _ ⟨11, by decide⟩ rfl
theorem sendSem12_eq : ((cc0_scratch2.slice (Rect.unit (s := S16) ![12] S1.size inb_S16_S1_12)).squeeze S_ squeezes_S1_S_).sem = sendSem 12 := send_sem _ _ ⟨12, by decide⟩ rfl
theorem sendSem13_eq : ((cc0_scratch2.slice (Rect.unit (s := S16) ![13] S1.size inb_S16_S1_13)).squeeze S_ squeezes_S1_S_).sem = sendSem 13 := send_sem _ _ ⟨13, by decide⟩ rfl
theorem sendSem14_eq : ((cc0_scratch2.slice (Rect.unit (s := S16) ![14] S1.size inb_S16_S1_14)).squeeze S_ squeezes_S1_S_).sem = sendSem 14 := send_sem _ _ ⟨14, by decide⟩ rfl
theorem sendSem15_eq : ((cc0_scratch2.slice (Rect.unit (s := S16) ![15] S1.size inb_S16_S1_15)).squeeze S_ squeezes_S1_S_).sem = sendSem 15 := send_sem _ _ ⟨15, by decide⟩ rfl

/-- The receive semaphore a copy from `c` completes on at its peer: number `c`. -/
theorem recvSemOwn_eq (c : Dev nD) :
    ((cc0_scratch3.slice (Rect.unit (s := S16) (k0_off2 c) S1.size (k0_off2_inb c))).squeeze S_ squeezes_S1_S_).sem = recvSem c.val :=
  recv_sem _ _ c (k0_off2_eq c)

/-- The receive semaphore of the wait number `r`: the number of the device `15 - r` places on. -/
theorem recvSemWait_eq (c : Dev nD) (r : Fin 15) :
    ((cc0_scratch3.slice (Rect.unit (s := S16) (k0_off4 c (BitVec.ofNat 32 (1 + r.val))) S1.size (k0_off4_inb c r))).squeeze S_ squeezes_S1_S_).sem
      = recvSem (peer c (15 - r.val)).val := by
  have h := k0_off4_eq c r
  have hc : c.val < 16 := c.isLt
  have hr : r.val < 15 := r.isLt
  have e : ((c.val + 15) - r.val) % 16 = (peer c (15 - r.val)).val := by rw [peer_val]; omega
  rw [e] at h
  exact recv_sem _ _ (peer c (15 - r.val)) h

/-! ## Runs over consecutive numbers, the last one set apart -/

omit [FloatOps F] in
theorem bigSep_Ico_last {a b : ℕ} (h : a ≤ b) (A : ℕ → sProp 𝕄) :
    bigSep (Finset.Ico a (b + 1)) A = iprop(bigSep (Finset.Ico a b) A ∗ A b) := by
  have e : Finset.Ico a (b + 1) = insert b (Finset.Ico a b) := by
    ext x; simp only [Finset.mem_Ico, Finset.mem_insert]; omega
  rw [e, bigSep_insert (by simp)]
  exact equiv_iff.mp ⟨BI.sep_comm, BI.sep_comm⟩

/-! ## The signals -/

/-- While `i` signals remain (to `peer c (16 - i)` … `peer c 15`). -/
def SigSt (c : Dev nD) (i : ℕ) (W : Waits sig Unit) (f : Buf (Elt F) ((c : Thread nD τ).loc cc0_scratch0)) : sProp 𝕄 :=
  iprop(owes (c : Thread nD τ) (OB c i) W
    ∗ bigSep (Finset.Ico (16 - i) 16) fun k => iprop(dutyTok ER (barCell (peer c k)) 0 c ∗ rowPts c (peer c k).val fullShare f))

/-- The signal to `peer c (15 - i)`, duty `c` of that peer's barrier cell: it hands over row `(peer c (15 - i)).val` of
    the signaller's gather buffer and that the signaller's receive cell of that number has reached round 0. -/
theorem sig_step (K : Dev nD × Fin 33 → ℕ) (c : Dev nD) (i : ℕ) (hi : i ≤ 14) (n : Dev nD) (hn : n = peer c (15 - i))
    (W : Waits sig Unit) (f : Buf (Elt F) ((c : Thread nD τ).loc cc0_scratch0))
    {α : Type} {Q : α → sProp 𝕄} {k : PUnit → Prog (TpuEff nD τ sig (Elt F) Λ₀ .tc) α} :
    iprop(records m K ∗ SigSt c (i + 1) W f)
      ⊢ iprop((SigSt c i W f -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold SigSt
  have e1 : 16 - (i + 1) = 15 - i := by omega
  have e2 : 15 - i + 1 = 16 - i := by omega
  rw [e1, bigSep_Ico_succ (by omega : 15 - i < 16), e2]
  iintro ⟨#HR, HO, ⟨Htok, Hrow⟩, Hrest⟩ Hk
  iapply (Rounds.wp_signal 𝒱₀ ER (sched m) (c : Thread nD τ) none (dst := (peer c (15 - i) : Thread nD τ)) (κ := K (peer c (15 - i), ixBar))
      (d := c) (by rw [duties_bar]; exact Finset.mem_erase.mpr ⟨(peer_ne c (15 - i) (by omega) (by omega)).symm, Finset.mem_univ _⟩)
      (amount_bar m (peer c (15 - i)) c) () (OB c i) rfl) $$ [HO Htok Hrow]
  · isplitr; · iapply (inv_bar m K (peer c (15 - i))); iexact HR
    isplitl [HO]; · iexact HO
    isplitl [Htok]; · iexact Htok
    isplitl [Hrow]
    · rw [payload_bar]; unfold barPay
      isplitl [Hrow]; · iexists f; iexact Hrow
      iapply (reached_recv m K c (peer c (15 - i)).val); iexact HR
    · iapply (reached_bar m K (peer c (15 - i))); iexact HR
  iintro HO
  iapply Hk
  isplitl [HO]; · iexact HO
  iexact Hrest

/-! ## The barrier wait -/

/-- The peers of `c` are the other fifteen devices. -/
theorem erase_eq_peers (c : Dev nD) : Finset.univ.erase c = (Finset.Ico 1 16).image (peer c) := by
  have hc : c.val < 16 := c.isLt
  ext x
  rw [Finset.mem_erase, Finset.mem_image]
  constructor
  · rintro ⟨hne, -⟩
    have hx : x.val < 16 := x.isLt
    have hxc : x.val ≠ c.val := fun h => hne (Fin.ext h)
    refine ⟨(x.val + 16 - c.val) % 16, Finset.mem_Ico.mpr ⟨by omega, by omega⟩, Fin.ext ?_⟩
    rw [peer_val]; omega
  · rintro ⟨k, hk, rfl⟩
    rw [Finset.mem_Ico] at hk
    exact ⟨peer_ne c k hk.1 (by omega), Finset.mem_univ _⟩

theorem peer_injOn (c : Dev nD) : Set.InjOn (peer c) (Finset.Ico 1 16 : Finset ℕ) := by
  intro k hk k' hk' h
  rw [Finset.mem_coe, Finset.mem_Ico] at hk hk'
  exact peer_inj c (by omega) (by omega) h

/-- The wait for 15 units on the own barrier cell, owing receive credits only: every peer's payload comes with it. -/
theorem bar_wait (K : Dev nD × Fin 33 → ℕ) (c : Dev nD) (W : Waits sig Unit)
    {α : Type} {Q : α → sProp 𝕄} {k : PUnit → Prog (TpuEff nD τ sig (Elt F) Λ₀ .tc) α} :
    iprop(records m K ∗ levAts L lv ∗ cred (tallyAt (barCell c) () 15) ∗ owes (c : Thread nD τ) (OR c 15) W ∗ atPos ER (barCell c) 0 ∅ 0)
      ⊢ iprop(((owes (c : Thread nD τ) (OR c 15) (insert (SemLoc.reg barS, ()) W) ∗ atPos ER (barCell c) 1 ∅ 0
              ∗ bigSep (Finset.Ico 1 16) fun k => barPay (F := F) c (peer c k))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, #Hlev, Hc, HO, Hat⟩ Hk
  iapply (Rounds.wp_wait_rest_token 𝒱₀ ER (sched m) (c : Thread nD τ) none (κ := K (c, ixBar))
      (wpE_semWait_eq 𝒱₀ (c : Thread nD τ) none Set.univ) (Set.mem_univ _) () (O := OR c 15) (W := W) (R := 0) (m := 0) (T := ∅)
      (by rw [expect_bar m c])) $$ [Hc HO Hat]
  · isplitr; · iapply (inv_bar m K c); iexact HR
    isplitl [Hc]; · iexact Hc
    isplitl [HO]; · iexact HO
    isplitr; · iapply (mayWait_bar (F := F) c 15); iexact Hlev
    iexact Hat
  iintro ⟨HO, Hat, -, Hpay⟩
  ihave Hp := (Entails.of_eq ((rest_bar m c).trans (by rw [erase_eq_peers c, bigSep_image_of_injOn (peer_injOn c)]))) $$ Hpay
  iapply Hk
  isplitl [HO]; · iexact HO
  isplitl [Hat]; · iexact Hat
  iexact Hp

/-! ## The copies -/

/-- The own row, as every copy's source and (on the peer) destination. -/
abbrev ownRow (c : Dev nD) : Memref sig .tc .vmem S512 .f32 := rowOf (k0_off3 c) (k0_off3_inb c)
theorem ownRow_set (c : Dev nD) : (ownRow c).view.set = rowSet c.val := rowOf_set _ _ _ (k0_off3_eq c)

/-- While `i` copies remain (to `peer c (16 - i)` … `peer c 15`). -/
def SendSt (c : Dev nD) (i : ℕ) (W : Waits sig Unit) : sProp 𝕄 :=
  iprop(owes (c : Thread nD τ) (OR c i) W
    ∗ rowPts c c.val (remShare (15 - i)) (gathered m)
    ∗ (bigSep (Finset.Ico (16 - i) 16) fun k => iprop(dutyTok ER (sendCell c k) 0 (0 : Dev nD) ∗ dutyTok ER (recvCell (peer c k) c.val) 0 (0 : Dev nD) ∗ barPay (F := F) c (peer c k)))
    ∗ (bigSep (Finset.Ico 1 (16 - i)) fun k => cred (tallyAt (sendCell c k) () N)))

/-- The copy to `peer c (15 - i)`: it reads the own row through the next share and writes the peer's row `c`, which the
    peer's signal handed over; the peer's receive cell `c` is paid the gathered array's row, the own send cell the share. -/
theorem send_step (K : Dev nD × Fin 33 → ℕ) (c : Dev nD) (i : ℕ) (hi : i ≤ 14) (n : Dev nD) (hn : n = peer c (15 - i))
    (sS sR : SemLoc sig) (hsS : sS = .dma (sendSem (15 - i))) (hsR : sR = .dma (recvSem c.val)) (W : Waits sig Unit)
    {hsc : (ownRow c : Memref sig (Dev.tc n : Thread nD τ).2.kind .vmem S512 .f32).view.ref.isScScratch = false}
    {hsrc : (ownRow c).view.WordExact} {hdst : (ownRow c).view.WordExact}
    {hsem : DmaTarget.Typed .vmem sR (.remote (Dev.tc n : Thread nD τ) (ownRow c) sS hsc)}
    {α : Type} {Q : α → sProp 𝕄} {k : PUnit → Prog (TpuEff nD τ sig (Elt F) Λ₀ .tc) α} :
    iprop(records m K ∗ SendSt m c (i + 1) W)
      ⊢ iprop((SendSt m c i W -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownRow c) (.remote (Dev.tc n : Thread nD τ) (ownRow c) sS hsc) sR hsrc hdst hsem) k) Q) := by
  subst hn; subst hsS; subst hsR
  unfold SendSt
  have hc : c.val < 16 := c.isLt
  have e1 : 16 - (i + 1) = 15 - i := by omega
  have e2 : 15 - i + 1 = 16 - i := by omega
  have e3 : 15 - (i + 1) = 14 - i := by omega
  have hne : c.val ≠ (peer c (15 - i)).val := by rw [peer_val]; omega
  have hshare : remShare (14 - i) ∈ sndShare (15 - i) ·? remShare (15 - i) := by
    have h := share_split (14 - i); rwa [show 14 - i + 1 = 15 - i by omega] at h
  have hset := ownRow_set c
  rw [e1, bigSep_Ico_succ (by omega : 15 - i < 16), e2, e3]
  iintro ⟨#HR, HO, Hrow, ⟨⟨HtS, HtR, Hbp⟩, Hrest⟩, Hcr⟩ Hk
  unfold barPay
  icases Hbp with ⟨⟨%fd, Hdst⟩, #Hrch⟩
  unfold rowPts
  ihave Hsp := (pointsTo_share hshare).1 $$ Hrow
  icases Hsp with ⟨Hlend, Hkeep⟩
  have hrule := Rounds.wp_send_pointsTo (defs := defs₀ (F := F)) (Γ := .empty) 𝒱₀ ER (sched m) (c : Thread nD τ) none (c' := (peer c (15 - i) : Thread nD τ))
    (src := ownRow c) (dst := ownRow c) (hsc := hsc) (hsrc := hsrc) (hdst := hdst) (hsem := hsem) (k := k) (Q := Q)
    (q := sndShare (15 - i)) (fs := gathered m) (fd := fd)
    (κ₁ := K (c, ixSend (15 - i))) (κ₂ := K (peer c (15 - i), ixRecv c.val)) (r₁ := 0) (r₂ := 0) (d₁ := (0 : Dev nD)) (d₂ := (0 : Dev nD))
    (by rw [duties_send m c (15 - i) (by omega) (by omega)]; exact Finset.mem_singleton_self _)
    (by rw [duties_recv m (peer c (15 - i)) c.val hc hne]; exact Finset.mem_singleton_self _)
    () () N rfl (amount_send m c (15 - i) (by omega) 0) (amount_recv m (peer c (15 - i)) c.val hc 0) (OR c i) rfl (W := W) (Es := Set.univ)
    (by rw [payload_send m c (15 - i) (by omega), hset]; exact BI.Entails.refl _)
    (by
      rw [payload_recv m (peer c (15 - i)) c.val hc, hset]
      unfold recvPay rowPts
      exact Entails.of_eq (pointsTo_congr fun j hj => write_read_same (ownRow c).view fd (gathered m) j (hset ▸ hj)))
  rw [hset] at hrule
  iapply hrule $$ [HO HtS HtR Hdst Hlend]
  · isplitr; · iapply (inv_send m K c (15 - i)); iexact HR
    isplitr; · iapply (inv_recv m K (peer c (15 - i)) c.val); iexact HR
    isplitl [Hlend]; · iexact Hlend
    isplitl [Hdst]; · iexact Hdst
    isplitl [HO]; · iexact HO
    isplitl [HtS]; · iexact HtS
    isplitr; · iapply (reached_send m K c (15 - i)); iexact HR
    isplitl [HtR]; · iexact HtR
    iexact Hrch
  iintro ⟨Hc, HO⟩
  iapply Hk
  isplitl [HO]; · iexact HO
  isplitl [Hkeep]; · iexact Hkeep
  isplitl [Hrest]; · iexact Hrest
  have e5 : 16 - i = (15 - i) + 1 := by omega
  rw [e5, bigSep_Ico_last (by omega : 1 ≤ 15 - i)]
  isplitl [Hcr]; · iexact Hcr
  iexact Hc

/-! ## The receive waits -/

/-- While the receive waits on the cells of `peer c 1` … `peer c j` remain (the next one is `peer c j`'s). -/
def RecvSt (c : Dev nD) (j : ℕ) : sProp 𝕄 :=
  iprop((∃ W, owes (c : Thread nD τ) 0 W)
    ∗ (bigSep (Finset.Ico 1 (j + 1)) fun k => iprop(cred (tallyAt (recvCell c (peer c k).val) () N) ∗ atPos ER (recvCell c (peer c k).val) 0 ∅ 0))
    ∗ (bigSep (Finset.Ico (j + 1) 16) fun k => iprop(rowPts c (peer c k).val fullShare (gathered m) ∗ atPos ER (recvCell c (peer c k).val) 1 ∅ 0)))

/-- The wait on the receive cell of `peer c (j + 1)`'s number: the row that device copied is there. -/
theorem recv_step (K : Dev nD × Fin 33 → ℕ) (c : Dev nD) (j : ℕ) (hj : j ≤ 14) (q : DmaSem sig) (hq : q = recvSem (peer c (j + 1)).val)
    {sp sp' : Space} {s s' : Shape} {e e' : EltTy} {src : Memref sig .tc sp' s' e'} {dst : Memref sig .tc sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ RecvSt m c (j + 1))
      ⊢ iprop((RecvSt m c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold RecvSt
  have hc : c.val < 16 := c.isLt
  have hp : (peer c (j + 1)).val < 16 := (peer c (j + 1)).isLt
  have hne : (peer c (j + 1)).val ≠ c.val := by rw [peer_val]; omega
  rw [bigSep_Ico_last (by omega : 1 ≤ j + 1)]
  iintro ⟨#HR, ⟨%W, HO⟩, ⟨Hwait, ⟨Hc, Hat⟩⟩, Hdone⟩ Hk
  iapply (Rounds.wp_wait_rest_token 𝒱₀ ER (sched m) (c : Thread nD τ) none (κ := K (c, ixRecv (peer c (j + 1)).val))
      (wpE_waitDma2_eq 𝒱₀ (c : Thread nD τ) none Set.univ) (Set.mem_univ _) () (O := 0) (W := W) (R := 0) (m := 0) (T := ∅)
      (by rw [Nat.zero_add, expect_recv m c _ hp hne, hcr])) $$ [Hc HO Hat]
  · isplitr; · iapply (inv_recv m K c (peer c (j + 1)).val); iexact HR
    isplitl [Hc]; · rw [hcr]; iexact Hc
    isplitl [HO]; · iexact HO
    isplitr; · rw [MayWait_zero]; iempintro
    iexact Hat
  iintro ⟨HO, Hat, -, Hpay⟩
  ihave Hrow := (Entails.of_eq (rest_recv m c _ hp hne)) $$ Hpay
  iapply Hk
  isplitl [HO]; · iexists _; iexact HO
  isplitl [Hwait]; · iexact Hwait
  rw [bigSep_Ico_succ (by omega : j + 1 < 16) (fun k => iprop(rowPts c (peer c k).val fullShare (gathered m) ∗ atPos ER (recvCell c (peer c k).val) 1 ∅ 0))]
  isplitl [Hrow Hat]
  · isplitl [Hrow]; · unfold recvPay; iexact Hrow
    iexact Hat
  iexact Hdone

/-! ## The send waits -/

/-- After the send waits on the own send cells 1 … j. -/
def SendWSt (c : Dev nD) (j : ℕ) : sProp 𝕄 :=
  iprop((∃ W, owes (c : Thread nD τ) 0 W)
    ∗ (bigSep (Finset.Ico (j + 1) 16) fun k => iprop(cred (tallyAt (sendCell c k) () N) ∗ atPos ER (sendCell c k) 0 ∅ 0))
    ∗ (bigSep (Finset.Ico 1 (j + 1)) fun k => iprop(sendPay m c k ∗ atPos ER (sendCell c k) 1 ∅ 0)))

/-- The wait on the own send cell `j + 1`: the share copy `j + 1` read through comes back. -/
theorem sendw_step (K : Dev nD × Fin 33 → ℕ) (c : Dev nD) (j : ℕ) (hj : j ≤ 14) (q : DmaSem sig) (hq : q = sendSem (j + 1))
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ SendWSt m c j)
      ⊢ iprop((SendWSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold SendWSt
  rw [bigSep_Ico_succ (by omega : j + 1 < 16)]
  iintro ⟨#HR, ⟨%W, HO⟩, ⟨⟨Hc, Hat⟩, Hwait⟩, Hdone⟩ Hk
  iapply (Rounds.wp_wait_rest_token 𝒱₀ ER (sched m) (c : Thread nD τ) none (κ := K (c, ixSend (j + 1)))
      (wpE_waitDma2_eq 𝒱₀ (c : Thread nD τ) none Set.univ) (Set.mem_univ _) () (O := 0) (W := W) (R := 0) (m := 0) (T := ∅)
      (by rw [Nat.zero_add, expect_send m c (j + 1) (by omega) (by omega), hcr])) $$ [Hc HO Hat]
  · isplitr; · iapply (inv_send m K c (j + 1)); iexact HR
    isplitl [Hc]; · rw [hcr]; iexact Hc
    isplitl [HO]; · iexact HO
    isplitr; · rw [MayWait_zero]; iempintro
    iexact Hat
  iintro ⟨HO, Hat, -, Hpay⟩
  ihave Hrow := (Entails.of_eq (rest_send m c (j + 1) (by omega) (by omega))) $$ Hpay
  iapply Hk
  isplitl [HO]; · iexists _; iexact HO
  isplitl [Hwait]; · iexact Hwait
  rw [bigSep_Ico_last (by omega : 1 ≤ j + 1) (fun k => iprop(sendPay m c k ∗ atPos ER (sendCell c k) 1 ∅ 0))]
  isplitl [Hdone]; · iexact Hdone
  isplitl [Hrow]; · iexact Hrow
  iexact Hat

end Cert.KernelIdeal.Coll

end
-- ==== Proof.Close.lean ====
/-
  The end of the protocol on one device: the shares of the own row lent to the fifteen copies, all back, are the
  row whole again; the fifteen used send cells and the fifteen used receive cells, each past its one round, and the
  two cells that took part in nothing, close with their counters at zero. And its beginning: the row a device
  stores its sums of squares into then agrees with the gathered array.
-/
import proofs.«900466_g7700000000000467_dist_rmsnorm_colshard_i_m512_n256_v7x_i16_bf16_1_alg».proof.Proof.Steps

noncomputable section

namespace Cert.KernelIdeal.Coll

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Ring (bigSep_Ico_succ bigSep_Ico_one)

variable {F : FTy → Type} [FloatOps F]

local notation "𝕄" => MT nD τ sig Unit (Elt F) ℕ UU ℕ

variable (m : (ℓ : Loc nD τ sig) → Buf (Elt F) ℓ)

/-! ## The shares rejoined -/

omit [FloatOps F] in
/-- What is left after `n` copies and the shares those copies read through make the row whole. -/
theorem join_shares (c : Dev nD) (f : Buf (Elt F) ((c : Thread nD τ).loc cc0_scratch0)) : ∀ n : ℕ,
    iprop(rowPts c c.val (remShare n) f ∗ bigSep (Finset.Ico 1 (n + 1)) fun k => rowPts c c.val (sndShare k) f)
      ⊢ (rowPts c c.val fullShare f : sProp 𝕄)
  | 0 => by
    rw [show Finset.Ico 1 (0 + 1) = (∅ : Finset ℕ) by decide, bigSep_empty]
    iintro ⟨H, -⟩; iexact H
  | n + 1 => by
    rw [bigSep_Ico_last (by omega : 1 ≤ n + 1) (fun k => rowPts c c.val (sndShare k) f)]
    have hj : iprop(rowPts c c.val (sndShare (n + 1)) f ∗ rowPts c c.val (remShare (n + 1)) f) ⊢ (rowPts c c.val (remShare n) f : sProp 𝕄) := by
      unfold rowPts; exact (pointsTo_share (share_split n)).2
    iintro ⟨Hrem, Hrest, Hlast⟩
    ihave H := hj $$ [Hlast Hrem]
    · isplitl [Hlast]; · iexact Hlast
      iexact Hrem
    iapply (join_shares c f n)
    isplitl [H]; · iexact H
    iexact Hrest

/-! ## The cells closed -/

/-- A send cell past its one round closes. -/
theorem close_send (K : Dev nD × Fin 33 → ℕ) (c : Dev nD) (k : ℕ) :
    iprop(records m K ∗ atPos ER (sendCell c k) 1 ∅ 0) ⊢ (|={Set.univ}=> semVal (sendCell c k) 0 : sProp 𝕄) :=
  (sep_mono_left (inv_send m K c k)).trans
    (Rounds.cell_close ER (sched m) (Set.mem_univ _) (fun h => h) (R := 1) (duties_later m (sendCell c k)))
theorem close_recv (K : Dev nD × Fin 33 → ℕ) (c : Dev nD) (s : ℕ) :
    iprop(records m K ∗ atPos ER (recvCell c s) 1 ∅ 0) ⊢ (|={Set.univ}=> semVal (recvCell c s) 0 : sProp 𝕄) :=
  (sep_mono_left (inv_recv m K c s)).trans
    (Rounds.cell_close ER (sched m) (Set.mem_univ _) (fun h => h) (R := 1) (duties_later m (recvCell c s)))
/-- The two cells that took part in nothing close at round 0. -/
theorem close_send_zero (K : Dev nD × Fin 33 → ℕ) (c : Dev nD) :
    iprop(records m K ∗ atPos ER (sendCell c 0) 0 ∅ 0) ⊢ (|={Set.univ}=> semVal (sendCell c 0) 0 : sProp 𝕄) :=
  (sep_mono_left (inv_send m K c 0)).trans
    (Rounds.cell_close ER (sched m) (Set.mem_univ _) (fun h => h) (R := 0) (duties_send_zero m c))
theorem close_recv_self (K : Dev nD × Fin 33 → ℕ) (c : Dev nD) :
    iprop(records m K ∗ atPos ER (recvCell c c.val) 0 ∅ 0) ⊢ (|={Set.univ}=> semVal (recvCell c c.val) 0 : sProp 𝕄) :=
  (sep_mono_left (inv_recv m K c c.val)).trans
    (Rounds.cell_close ER (sched m) (Set.mem_univ _) (fun h => h) (R := 0) (duties_recv_self m c))

theorem peer_zero (c : Dev nD) : (peer c 0).val = c.val := by
  rw [peer_val]; have := c.isLt; have h16 : c.val < 16 := c.isLt; omega

/-- All sixteen send cells close. -/
theorem close_sends (K : Dev nD × Fin 33 → ℕ) (c : Dev nD) :
    iprop(records m K ∗ atPos ER (sendCell c 0) 0 ∅ 0 ∗ bigSep (Finset.Ico 1 16) fun k => atPos ER (sendCell c k) 1 ∅ 0)
      ⊢ (|={Set.univ}=> bigSep (Finset.Ico 0 16) fun k => semVal (sendCell c k) 0 : sProp 𝕄) := by
  iintro ⟨#HR, H0, Hr⟩
  imod (close_send_zero m K c) $$ [H0] with Hz
  · isplitr; · iexact HR
    iexact H0
  imod ((bigSep_with_persistent (R := records m K) fun k _ => close_send m K c k).trans (bigSep_fupd _ _)) $$ [Hr] with Hs
  · isplitr; · iexact HR
    iexact Hr
  imodintro
  rw [bigSep_Ico_succ (by omega : 0 < 16) (fun k => semVal (sendCell c k) 0)]
  isplitl [Hz]; · iexact Hz
  iexact Hs

/-- All sixteen receive cells close (receive cell `(peer c k).val`, `k = 0 … 15`: `k = 0` is the own number's). -/
theorem close_recvs (K : Dev nD × Fin 33 → ℕ) (c : Dev nD) :
    iprop(records m K ∗ atPos ER (recvCell c (peer c 0).val) 0 ∅ 0 ∗ bigSep (Finset.Ico 1 16) fun k => atPos ER (recvCell c (peer c k).val) 1 ∅ 0)
      ⊢ (|={Set.univ}=> bigSep (Finset.Ico 0 16) fun k => semVal (recvCell c (peer c k).val) 0 : sProp 𝕄) := by
  rw [bigSep_Ico_succ (by omega : 0 < 16) (fun k => semVal (recvCell c (peer c k).val) 0), peer_zero c]
  iintro ⟨#HR, H0, Hr⟩
  imod (close_recv_self m K c) $$ [H0] with Hz
  · isplitr; · iexact HR
    iexact H0
  imod ((bigSep_with_persistent (R := records m K) fun k _ => close_recv m K c (peer c k).val).trans (bigSep_fupd _ _)) $$ [Hr] with Hs
  · isplitr; · iexact HR
    iexact Hr
  imodintro
  isplitl [Hz]; · iexact Hz
  iexact Hs

/-! ## The stored row -/

/-- The rectangle a device stores its sums of squares through. -/
abbrev storeRect (c : Dev nD) : Rect S16x512 := Rect.unit (s := S16x512) (k0_off1 c) S1x512.size (k0_off1_inb c)

theorem storeRect_set (c : Dev nD) : (storeRect c).set = rowSet c.val := rowRect_set _ _ _ (k0_off1_eq c)

/-- After the store, row `c` of device `c`'s buffer agrees with the gathered array. -/
theorem gathered_apply (i : S16x512.Idx) : gathered m i = k0_pay3 (xblk m (i 0)) (ix2 (0 : Fin 1) (i 1)) := rfl

theorem stored_row (c : Dev nD) (f : Buf (Elt F) ((c : Thread nD τ).loc cc0_scratch0)) :
    ∀ i ∈ rowSet c.val,
      (((PM : Memref sig .tc .vmem S16x512 .f32).access (storeRect c) : View sig .tc _ _ _).write (Elt F) f (k0_pay3 (xblk m c)) Finset.univ) i
        = gathered m i := by
  intro i hi
  have hset : ((PM : Memref sig .tc .vmem S16x512 .f32).access (storeRect c) : View sig .tc _ _ _).set = rowSet c.val := by
    show ((View.whole cc0_scratch0 : View sig .tc _ _ _).slice (storeRect c)).set = _
    rw [View.set_slice_whole]; exact storeRect_set c
  obtain ⟨y, rfl⟩ := View.exists_emb_of_mem_set _ (hset ▸ hi)
  rw [View.write_emb_of_mem _ _ (Finset.mem_univ y)]
  have h0 : (((PM : Memref sig .tc .vmem S16x512 .f32).access (storeRect c) : View sig .tc _ _ _).emb y) 0 = c := Fin.ext (mem_rowSet.mp hi)
  have hsz : (storeRect c).shape.size 0 = 1 := rfl
  have hy0 : ((y 0) : ℕ) = 0 := by have := (y 0).isLt; omega
  have h1 : ((((PM : Memref sig .tc .vmem S16x512 .f32).access (storeRect c) : View sig .tc _ _ _).emb y) 1 : ℕ) = (y 1 : ℕ) := by
    show (k0_off1 c) 1 + 1 * (y 1 : ℕ) = _
    rw [k0_off1_eq c]; show 0 + 1 * (y 1 : ℕ) = _; omega
  have hyy : (ix2 (0 : Fin 1) ((((PM : Memref sig .tc .vmem S16x512 .f32).access (storeRect c) : View sig .tc _ _ _).emb y) 1 : Fin 512) : S1x512.Idx) = y := by
    funext a
    match a with
    | ⟨0, _⟩ => exact Fin.ext hy0.symm
    | ⟨1, _⟩ => exact Fin.ext h1
  refine (cast_eq _ _).trans ?_
  rw [gathered_apply, h0]
  exact congrArg (k0_pay3 (xblk m c)) hyy.symm

end Cert.KernelIdeal.Coll

end
-- ==== Proof.Body.lean ====
/-
  One thread's body, stepped through the protocol from what the launch hands the device to what the pipeline takes
  back: the fifteen signals, the block's sums of squares stored into the own row, the barrier wait, the fifteen
  copies, `gamma · x` stored, the fifteen receive waits and the fifteen send waits, the cells closed, the gather
  buffer reassembled from its sixteen rows, and the normalised block stored into the result's staging buffer.
-/
import proofs.«900466_g7700000000000467_dist_rmsnorm_colshard_i_m512_n256_v7x_i16_bf16_1_alg».proof.Proof.Close

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Ring (bigSep_Ico_succ bigSep_Ico_one)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 33 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 15)
      ∗ (bigSep (Finset.Ico 1 16) fun k => cred (tallyAt (recvCell c (peer c k).val) () N)) ∗ levAts L lv
      ∗ (∃ f, scr0 c f) ∗ ∃ f, scr1 c f)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xblk m c) ∗ stg c cc0_stg1_0 (gblk m c) ∗ stg c cc0_stg2_0 (outAt m c))

abbrev r0x : Rect S512x256 := Rect.unit (s := S512x256) ![0, 0] S512x256.size inb_S512x256_S512x256_0_0
abbrev r0g : Rect S256 := Rect.unit (s := S256) ![0] S256.size inb_S256_S256_0
abbrev r0p : Rect S16x512 := Rect.unit (s := S16x512) ![0, 0] S16x512.size inb_S16x512_S16x512_0_0

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
theorem read_x (f : (cc0_stg0_0 : Ref sig .tc).ty.Contents (Elt F)) :
    (Memref.whole cc0_stg0_0 : Memref sig .tc .vmem S512x256 .f32).view.readAt (Elt F) r0x.toLoadRect f = f :=
  Memref.readAt_unit_zero (Elt F) cc0_stg0_0 hz2 _ f
omit [FloatOps F] in
theorem read_g (f : (cc0_stg1_0 : Ref sig .tc).ty.Contents (Elt F)) :
    (Memref.whole cc0_stg1_0 : Memref sig .tc .vmem S256 .f32).view.readAt (Elt F) r0g.toLoadRect f = f :=
  Memref.readAt_unit_zero (Elt F) cc0_stg1_0 hz1 _ f
omit [FloatOps F] in
theorem read_y (f : (cc0_scratch1 : Ref sig .tc).ty.Contents (Elt F)) :
    (Memref.whole cc0_scratch1 : Memref sig .tc .vmem S512x256 .f32).view.readAt (Elt F) r0x.toLoadRect f = f :=
  Memref.readAt_unit_zero (Elt F) cc0_scratch1 hz2 _ f
omit [FloatOps F] in
theorem read_p (f : (cc0_scratch0 : Ref sig .tc).ty.Contents (Elt F)) :
    (Memref.whole cc0_scratch0 : Memref sig .tc .vmem S16x512 .f32).view.readAt (Elt F) r0p.toLoadRect f = f :=
  Memref.readAt_unit_zero (Elt F) cc0_scratch0 hz2 _ f
omit [FloatOps F] in
theorem write_y (f w : (cc0_scratch1 : Ref sig .tc).ty.Contents (Elt F)) :
    (((Memref.whole cc0_scratch1 : Memref sig .tc .vmem S512x256 .f32).access r0x : View sig .tc _ _ _).write (Elt F) f w Finset.univ) = w :=
  Memref.write_access_unit_zero_univ (Elt F) cc0_scratch1 hz2 _ f w
omit [FloatOps F] in
theorem write_out (f w : (cc0_stg2_0 : Ref sig .tc).ty.Contents (Elt F)) :
    (((Memref.whole cc0_stg2_0 : Memref sig .tc .vmem S512x256 .bf16).access r0x : View sig .tc _ _ _).write (Elt F) f w Finset.univ) = w :=
  Memref.write_access_unit_zero_univ (Elt F) cc0_stg2_0 hz2 _ f w

theorem storeView_set (c : Dev nD) :
    ((PM : Memref sig .tc .vmem S16x512 .f32).access (storeRect c) : View sig .tc _ _ _).set = rowSet c.val := by
  show ((View.whole cc0_scratch0 : View sig .tc _ _ _).slice (storeRect c)).set = _
  rw [View.set_slice_whole]; exact storeRect_set c

/-- Every row slice of the gather buffer has the same transfer credit. -/
theorem rowOf_credit (off : Fin 2 → ℕ) (inb : ∀ a, off a + S1x512.size a ≤ S16x512.size a) : (rowOf off inb).view.dmaCredit = N := rfl

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyPre ghost
  iintro ⟨⟨⟨⟨#HR, HatB, HatS, HatV, HtB, HtR, HtS⟩, HcB, HcV, #Hlev, ⟨%f0, Hscr0⟩, ⟨%f1, Hscr1⟩⟩, Ho, ⟨%d0, %g0, %hg0, Hx⟩, ⟨%d1, %g1, %hg1, Hg⟩, ⟨%d2, %g2, %hg2, Hout⟩⟩, Hk⟩
  have hx : g0 = xblk m c := by
    rw [hg0]; unfold Dat.before; rw [if_pos (fetch0_0 t0_0)]; rfl
  have hg : g1 = gblk m c := by
    rw [hg1]; unfold Dat.before; rw [if_pos (fetch0_1 t0_0)]; rfl
  subst hx; subst hg
  unfold Dat.owesAt Pipeline.owesWithin
  icases Ho with ⟨%W, %hW, HO⟩
  rw [show (dats m 0 c).owed t0_0.castSucc = O₀ c from rfl]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c]
  -- the gather buffer by rows: the own row kept, each peer's row to go with the signal to that peer
  unfold scr0
  ihave Hrows := (Entails.of_eq (scr_rows c fullShare f0)) $$ Hscr0
  icases Hrows with ⟨Hown, Hpeers⟩
  ihave HSig := (show iprop(owes (c : Thread nD τ) (O₀ c) W ∗ (bigSep (Finset.Ico 1 16) fun k => dutyTok ER (barCell (peer c k)) 0 c)
        ∗ (bigSep (Finset.Ico 1 16) fun k => rowPts c (peer c k).val fullShare f0)) ⊢ SigSt c 15 W f0 from by
      unfold SigSt O₀; rw [bigSep_sep']) $$ [HO HtB Hpeers]
  · isplitl [HO]; · iexact HO
    isplitl [HtB]; · iexact HtB
    iexact Hpeers
  -- the fifteen signals
  iapply (sig_step m K c 14 (by decide) _ rfl W f0) $$ [HSig]
  · isplitr; · iexact HR
    iexact HSig
  iintro HSig
  iapply (sig_step m K c 13 (by decide) _ rfl W f0) $$ [HSig]
  · isplitr; · iexact HR
    iexact HSig
  iintro HSig
  iapply (sig_step m K c 12 (by decide) _ rfl W f0) $$ [HSig]
  · isplitr; · iexact HR
    iexact HSig
  iintro HSig
  iapply (sig_step m K c 11 (by decide) _ rfl W f0) $$ [HSig]
  · isplitr; · iexact HR
    iexact HSig
  iintro HSig
  iapply (sig_step m K c 10 (by decide) _ rfl W f0) $$ [HSig]
  · isplitr; · iexact HR
    iexact HSig
  iintro HSig
  iapply (sig_step m K c 9 (by decide) _ rfl W f0) $$ [HSig]
  · isplitr; · iexact HR
    iexact HSig
  iintro HSig
  iapply (sig_step m K c 8 (by decide) _ rfl W f0) $$ [HSig]
  · isplitr; · iexact HR
    iexact HSig
  iintro HSig
  iapply (sig_step m K c 7 (by decide) _ rfl W f0) $$ [HSig]
  · isplitr; · iexact HR
    iexact HSig
  iintro HSig
  iapply (sig_step m K c 6 (by decide) _ rfl W f0) $$ [HSig]
  · isplitr; · iexact HR
    iexact HSig
  iintro HSig
  iapply (sig_step m K c 5 (by decide) _ rfl W f0) $$ [HSig]
  · isplitr; · iexact HR
    iexact HSig
  iintro HSig
  iapply (sig_step m K c 4 (by decide) _ rfl W f0) $$ [HSig]
  · isplitr; · iexact HR
    iexact HSig
  iintro HSig
  iapply (sig_step m K c 3 (by decide) _ rfl W f0) $$ [HSig]
  · isplitr; · iexact HR
    iexact HSig
  iintro HSig
  iapply (sig_step m K c 2 (by decide) _ rfl W f0) $$ [HSig]
  · isplitr; · iexact HR
    iexact HSig
  iintro HSig
  iapply (sig_step m K c 1 (by decide) _ rfl W f0) $$ [HSig]
  · isplitr; · iexact HR
    iexact HSig
  iintro HSig
  iapply (sig_step m K c 0 (by decide) _ rfl W f0) $$ [HSig]
  · isplitr; · iexact HR
    iexact HSig
  iintro HSig
  unfold SigSt
  icases HSig with ⟨HO, -⟩
  rw [show OB c 0 = OR c 15 from rfl]
  -- the block's sums of squares into the own row
  iapply (wp_load 𝒱₀ (c : Thread nD τ) none Set.univ (m := Memref.whole cc0_stg0_0) (Finset.subset_univ _)) $$ Hx; iintro Hx
  rw [read_x]
  unfold rowPts
  iapply (wp_load_rect 𝒱₀ (c : Thread nD τ) none Set.univ (m := (PM : Memref sig .tc .vmem S16x512 .f32)) (r := storeRect c) (S := rowSet c.val)
    (subset_of_eq (storeView_set c))) $$ Hown; iintro Hown
  iapply (wp_store 𝒱₀ (c : Thread nD τ) none Set.univ (m := (PM : Memref sig .tc .vmem S16x512 .f32)) (r := storeRect c) (Mk := Finset.univ) (S := rowSet c.val)
    (subset_of_eq (storeView_set c))) $$ Hown; iintro Hown
  ihave Hown := (Entails.of_eq (pointsTo_congr (stored_row m c f0))) $$ Hown
  -- the barrier wait: every peer's row `c` comes with it
  iapply (bar_wait m K c W) $$ [HcB HO HatB]
  · isplitr; · iexact HR
    isplitr; · iexact Hlev
    isplitl [HcB]; · iexact HcB
    isplitl [HO]; · iexact HO
    iexact HatB
  iintro ⟨HO, HatB, Hbp⟩
  ihave HSend := (show iprop(owes (c : Thread nD τ) (OR c 15) (insert (SemLoc.reg barS, ()) W)
        ∗ (((c : Thread nD τ).loc cc0_scratch0) ↦[rowSet c.val]{fullShare} gathered m)
        ∗ (bigSep (Finset.Ico 1 16) fun k => dutyTok ER (sendCell c k) 0 (0 : Dev nD))
        ∗ (bigSep (Finset.Ico 1 16) fun k => dutyTok ER (recvCell (peer c k) c.val) 0 (0 : Dev nD))
        ∗ (bigSep (Finset.Ico 1 16) fun k => barPay (F := F) c (peer c k))) ⊢ SendSt m c 15 (insert (SemLoc.reg barS, ()) W) from by
      unfold SendSt rowPts
      rw [bigSep_sep', bigSep_sep', show Finset.Ico 1 (16 - 15) = (∅ : Finset ℕ) from by decide, bigSep_empty]
      iintro ⟨H1, H2, H3, H4, H5⟩
      isplitl [H1]; · iexact H1
      isplitl [H2]; · iexact H2
      isplitl [H3 H4 H5]
      · isplitl [H3]; · iexact H3
        isplitl [H4]; · iexact H4
        iexact H5
      iempintro) $$ [HO Hown HtS HtR Hbp]
  · isplitl [HO]; · iexact HO
    isplitl [Hown]; · iexact Hown
    isplitl [HtS]; · iexact HtS
    isplitl [HtR]; · iexact HtR
    iexact Hbp
  -- the fifteen copies
  iapply (send_step m K c 14 (by decide) _ (dev16_eq c) _ _ (congrArg SemLoc.dma sendSem1_eq) (congrArg SemLoc.dma (recvSemOwn_eq c)) _) $$ [HSend]
  · isplitr; · iexact HR
    iexact HSend
  iintro HSend
  iapply (send_step m K c 13 (by decide) _ (dev17_eq c) _ _ (congrArg SemLoc.dma sendSem2_eq) (congrArg SemLoc.dma (recvSemOwn_eq c)) _) $$ [HSend]
  · isplitr; · iexact HR
    iexact HSend
  iintro HSend
  iapply (send_step m K c 12 (by decide) _ (dev18_eq c) _ _ (congrArg SemLoc.dma sendSem3_eq) (congrArg SemLoc.dma (recvSemOwn_eq c)) _) $$ [HSend]
  · isplitr; · iexact HR
    iexact HSend
  iintro HSend
  iapply (send_step m K c 11 (by decide) _ (dev19_eq c) _ _ (congrArg SemLoc.dma sendSem4_eq) (congrArg SemLoc.dma (recvSemOwn_eq c)) _) $$ [HSend]
  · isplitr; · iexact HR
    iexact HSend
  iintro HSend
  iapply (send_step m K c 10 (by decide) _ (dev20_eq c) _ _ (congrArg SemLoc.dma sendSem5_eq) (congrArg SemLoc.dma (recvSemOwn_eq c)) _) $$ [HSend]
  · isplitr; · iexact HR
    iexact HSend
  iintro HSend
  iapply (send_step m K c 9 (by decide) _ (dev21_eq c) _ _ (congrArg SemLoc.dma sendSem6_eq) (congrArg SemLoc.dma (recvSemOwn_eq c)) _) $$ [HSend]
  · isplitr; · iexact HR
    iexact HSend
  iintro HSend
  iapply (send_step m K c 8 (by decide) _ (dev22_eq c) _ _ (congrArg SemLoc.dma sendSem7_eq) (congrArg SemLoc.dma (recvSemOwn_eq c)) _) $$ [HSend]
  · isplitr; · iexact HR
    iexact HSend
  iintro HSend
  iapply (send_step m K c 7 (by decide) _ (dev23_eq c) _ _ (congrArg SemLoc.dma sendSem8_eq) (congrArg SemLoc.dma (recvSemOwn_eq c)) _) $$ [HSend]
  · isplitr; · iexact HR
    iexact HSend
  iintro HSend
  iapply (send_step m K c 6 (by decide) _ (dev24_eq c) _ _ (congrArg SemLoc.dma sendSem9_eq) (congrArg SemLoc.dma (recvSemOwn_eq c)) _) $$ [HSend]
  · isplitr; · iexact HR
    iexact HSend
  iintro HSend
  iapply (send_step m K c 5 (by decide) _ (dev25_eq c) _ _ (congrArg SemLoc.dma sendSem10_eq) (congrArg SemLoc.dma (recvSemOwn_eq c)) _) $$ [HSend]
  · isplitr; · iexact HR
    iexact HSend
  iintro HSend
  iapply (send_step m K c 4 (by decide) _ (dev26_eq c) _ _ (congrArg SemLoc.dma sendSem11_eq) (congrArg SemLoc.dma (recvSemOwn_eq c)) _) $$ [HSend]
  · isplitr; · iexact HR
    iexact HSend
  iintro HSend
  iapply (send_step m K c 3 (by decide) _ (dev27_eq c) _ _ (congrArg SemLoc.dma sendSem12_eq) (congrArg SemLoc.dma (recvSemOwn_eq c)) _) $$ [HSend]
  · isplitr; · iexact HR
    iexact HSend
  iintro HSend
  iapply (send_step m K c 2 (by decide) _ (dev28_eq c) _ _ (congrArg SemLoc.dma sendSem13_eq) (congrArg SemLoc.dma (recvSemOwn_eq c)) _) $$ [HSend]
  · isplitr; · iexact HR
    iexact HSend
  iintro HSend
  iapply (send_step m K c 1 (by decide) _ (dev29_eq c) _ _ (congrArg SemLoc.dma sendSem14_eq) (congrArg SemLoc.dma (recvSemOwn_eq c)) _) $$ [HSend]
  · isplitr; · iexact HR
    iexact HSend
  iintro HSend
  iapply (send_step m K c 0 (by decide) _ (dev30_eq c) _ _ (congrArg SemLoc.dma sendSem15_eq) (congrArg SemLoc.dma (recvSemOwn_eq c)) _) $$ [HSend]
  · isplitr; · iexact HR
    iexact HSend
  iintro HSend
  unfold SendSt
  icases HSend with ⟨HO, Hkeep, -, Hcs⟩
  rw [show OR c 0 = (0 : CellTallies nD τ sig Unit) from rfl]
  -- gamma · x into the second scratch buffer
  iapply (wp_load 𝒱₀ (c : Thread nD τ) none Set.univ (m := Memref.whole cc0_stg1_0) (Finset.subset_univ _)) $$ Hg; iintro Hg
  rw [read_g]
  unfold scr1
  iapply (wp_load 𝒱₀ (c : Thread nD τ) none Set.univ (m := Memref.whole cc0_scratch1) (Finset.subset_univ _)) $$ Hscr1; iintro Hscr1
  iapply (wp_store 𝒱₀ (c : Thread nD τ) none Set.univ (m := Memref.whole cc0_scratch1) (r := r0x) (Mk := Finset.univ) (Finset.subset_univ _)) $$ Hscr1; iintro Hscr1
  rw [write_y]
  -- the fifteen receive waits
  ihave HatV' := (Entails.of_eq (bigSep_Ico_succ (by decide : 0 < 16) (fun k => atPos ER (recvCell c (peer c k).val) 0 ∅ 0))) $$ HatV
  icases HatV' with ⟨HatV0, HatV⟩
  ihave HRecv := (show iprop(owes (c : Thread nD τ) 0 (insert (SemLoc.reg barS, ()) W)
        ∗ (bigSep (Finset.Ico 1 16) fun k => cred (tallyAt (recvCell c (peer c k).val) () N))
        ∗ (bigSep (Finset.Ico (0 + 1) 16) fun k => atPos ER (recvCell c (peer c k).val) 0 ∅ 0)) ⊢ RecvSt m c 15 from by
      unfold RecvSt
      rw [bigSep_sep', show Finset.Ico (15 + 1) 16 = (∅ : Finset ℕ) from by decide, bigSep_empty]
      iintro ⟨H1, H2, H3⟩
      isplitl [H1]; · iexists _; iexact H1
      isplitl [H2 H3]
      · isplitl [H2]; · iexact H2
        iexact H3
      iempintro) $$ [HO HcV HatV]
  · isplitl [HO]; · iexact HO
    isplitl [HcV]; · iexact HcV
    iexact HatV
  iapply (recv_step m K c 14 (by decide) _ (recvSemWait_eq c 0) (rowOf_credit _ _)) $$ [HRecv]
  · isplitr; · iexact HR
    iexact HRecv
  iintro HRecv
  iapply (recv_step m K c 13 (by decide) _ (recvSemWait_eq c 1) (rowOf_credit _ _)) $$ [HRecv]
  · isplitr; · iexact HR
    iexact HRecv
  iintro HRecv
  iapply (recv_step m K c 12 (by decide) _ (recvSemWait_eq c 2) (rowOf_credit _ _)) $$ [HRecv]
  · isplitr; · iexact HR
    iexact HRecv
  iintro HRecv
  iapply (recv_step m K c 11 (by decide) _ (recvSemWait_eq c 3) (rowOf_credit _ _)) $$ [HRecv]
  · isplitr; · iexact HR
    iexact HRecv
  iintro HRecv
  iapply (recv_step m K c 10 (by decide) _ (recvSemWait_eq c 4) (rowOf_credit _ _)) $$ [HRecv]
  · isplitr; · iexact HR
    iexact HRecv
  iintro HRecv
  iapply (recv_step m K c 9 (by decide) _ (recvSemWait_eq c 5) (rowOf_credit _ _)) $$ [HRecv]
  · isplitr; · iexact HR
    iexact HRecv
  iintro HRecv
  iapply (recv_step m K c 8 (by decide) _ (recvSemWait_eq c 6) (rowOf_credit _ _)) $$ [HRecv]
  · isplitr; · iexact HR
    iexact HRecv
  iintro HRecv
  iapply (recv_step m K c 7 (by decide) _ (recvSemWait_eq c 7) (rowOf_credit _ _)) $$ [HRecv]
  · isplitr; · iexact HR
    iexact HRecv
  iintro HRecv
  iapply (recv_step m K c 6 (by decide) _ (recvSemWait_eq c 8) (rowOf_credit _ _)) $$ [HRecv]
  · isplitr; · iexact HR
    iexact HRecv
  iintro HRecv
  iapply (recv_step m K c 5 (by decide) _ (recvSemWait_eq c 9) (rowOf_credit _ _)) $$ [HRecv]
  · isplitr; · iexact HR
    iexact HRecv
  iintro HRecv
  iapply (recv_step m K c 4 (by decide) _ (recvSemWait_eq c 10) (rowOf_credit _ _)) $$ [HRecv]
  · isplitr; · iexact HR
    iexact HRecv
  iintro HRecv
  iapply (recv_step m K c 3 (by decide) _ (recvSemWait_eq c 11) (rowOf_credit _ _)) $$ [HRecv]
  · isplitr; · iexact HR
    iexact HRecv
  iintro HRecv
  iapply (recv_step m K c 2 (by decide) _ (recvSemWait_eq c 12) (rowOf_credit _ _)) $$ [HRecv]
  · isplitr; · iexact HR
    iexact HRecv
  iintro HRecv
  iapply (recv_step m K c 1 (by decide) _ (recvSemWait_eq c 13) (rowOf_credit _ _)) $$ [HRecv]
  · isplitr; · iexact HR
    iexact HRecv
  iintro HRecv
  iapply (recv_step m K c 0 (by decide) _ (recvSemWait_eq c 14) (rowOf_credit _ _)) $$ [HRecv]
  · isplitr; · iexact HR
    iexact HRecv
  iintro HRecv
  unfold RecvSt
  icases HRecv with ⟨⟨%W3, HO⟩, -, Hlanded⟩
  -- the fifteen send waits
  ihave HatS' := (Entails.of_eq (bigSep_Ico_succ (by decide : 0 < 16) (fun k => atPos ER (sendCell c k) 0 ∅ 0))) $$ HatS
  icases HatS' with ⟨HatS0, HatS⟩
  ihave HSw := (show iprop(owes (c : Thread nD τ) 0 W3
        ∗ (bigSep (Finset.Ico 1 (16 - 0)) fun k => cred (tallyAt (sendCell c k) () N))
        ∗ (bigSep (Finset.Ico (0 + 1) 16) fun k => atPos ER (sendCell c k) 0 ∅ 0)) ⊢ SendWSt m c 0 from by
      unfold SendWSt
      rw [bigSep_sep', show Finset.Ico 1 (0 + 1) = (∅ : Finset ℕ) from by decide, bigSep_empty]
      iintro ⟨H1, H2, H3⟩
      isplitl [H1]; · iexists _; iexact H1
      isplitl [H2 H3]
      · isplitl [H2]; · iexact H2
        iexact H3
      iempintro) $$ [HO Hcs HatS]
  · isplitl [HO]; · iexact HO
    isplitl [Hcs]; · iexact Hcs
    iexact HatS
  iapply (sendw_step m K c 0 (by decide) _ sendSem1_eq (rowOf_credit _ _)) $$ [HSw]
  · isplitr; · iexact HR
    iexact HSw
  iintro HSw
  iapply (sendw_step m K c 1 (by decide) _ sendSem2_eq (rowOf_credit _ _)) $$ [HSw]
  · isplitr; · iexact HR
    iexact HSw
  iintro HSw
  iapply (sendw_step m K c 2 (by decide) _ sendSem3_eq (rowOf_credit _ _)) $$ [HSw]
  · isplitr; · iexact HR
    iexact HSw
  iintro HSw
  iapply (sendw_step m K c 3 (by decide) _ sendSem4_eq (rowOf_credit _ _)) $$ [HSw]
  · isplitr; · iexact HR
    iexact HSw
  iintro HSw
  iapply (sendw_step m K c 4 (by decide) _ sendSem5_eq (rowOf_credit _ _)) $$ [HSw]
  · isplitr; · iexact HR
    iexact HSw
  iintro HSw
  iapply (sendw_step m K c 5 (by decide) _ sendSem6_eq (rowOf_credit _ _)) $$ [HSw]
  · isplitr; · iexact HR
    iexact HSw
  iintro HSw
  iapply (sendw_step m K c 6 (by decide) _ sendSem7_eq (rowOf_credit _ _)) $$ [HSw]
  · isplitr; · iexact HR
    iexact HSw
  iintro HSw
  iapply (sendw_step m K c 7 (by decide) _ sendSem8_eq (rowOf_credit _ _)) $$ [HSw]
  · isplitr; · iexact HR
    iexact HSw
  iintro HSw
  iapply (sendw_step m K c 8 (by decide) _ sendSem9_eq (rowOf_credit _ _)) $$ [HSw]
  · isplitr; · iexact HR
    iexact HSw
  iintro HSw
  iapply (sendw_step m K c 9 (by decide) _ sendSem10_eq (rowOf_credit _ _)) $$ [HSw]
  · isplitr; · iexact HR
    iexact HSw
  iintro HSw
  iapply (sendw_step m K c 10 (by decide) _ sendSem11_eq (rowOf_credit _ _)) $$ [HSw]
  · isplitr; · iexact HR
    iexact HSw
  iintro HSw
  iapply (sendw_step m K c 11 (by decide) _ sendSem12_eq (rowOf_credit _ _)) $$ [HSw]
  · isplitr; · iexact HR
    iexact HSw
  iintro HSw
  iapply (sendw_step m K c 12 (by decide) _ sendSem13_eq (rowOf_credit _ _)) $$ [HSw]
  · isplitr; · iexact HR
    iexact HSw
  iintro HSw
  iapply (sendw_step m K c 13 (by decide) _ sendSem14_eq (rowOf_credit _ _)) $$ [HSw]
  · isplitr; · iexact HR
    iexact HSw
  iintro HSw
  iapply (sendw_step m K c 14 (by decide) _ sendSem15_eq (rowOf_credit _ _)) $$ [HSw]
  · isplitr; · iexact HR
    iexact HSw
  iintro HSw
  unfold SendWSt
  icases HSw with ⟨⟨%W4, HO⟩, -, Hback⟩
  ihave Hl := (show (bigSep (Finset.Ico (0 + 1) 16) fun k => iprop(rowPts c (peer c k).val fullShare (gathered m) ∗ atPos ER (recvCell c (peer c k).val) 1 ∅ 0))
      ⊢ iprop((bigSep (Finset.Ico (0 + 1) 16) fun k => rowPts c (peer c k).val fullShare (gathered m)) ∗ bigSep (Finset.Ico (0 + 1) 16) fun k => atPos ER (recvCell c (peer c k).val) 1 ∅ 0)
      from Entails.of_eq (bigSep_sep' _ _ _)) $$ Hlanded
  icases Hl with ⟨Hrowsin, HatV⟩
  ihave Hb := (show (bigSep (Finset.Ico 1 (14 + 1 + 1)) fun k => iprop(sendPay m c k ∗ atPos ER (sendCell c k) 1 ∅ 0))
      ⊢ iprop((bigSep (Finset.Ico 1 (15 + 1)) fun k => sendPay m c k) ∗ bigSep (Finset.Ico 1 16) fun k => atPos ER (sendCell c k) 1 ∅ 0)
      from Entails.of_eq (bigSep_sep' _ _ _)) $$ Hback
  icases Hb with ⟨Hshares, HatS⟩
  -- the own row whole again, the gather buffer whole again
  ihave Hown := (join_shares c (gathered m) 15) $$ [Hkeep Hshares]
  · unfold rowPts sendPay rowPts
    isplitl [Hkeep]; · iexact Hkeep
    iexact Hshares
  ihave Hscr0 := (Entails.of_eq (scr_rows c fullShare (gathered m)).symm) $$ [Hown Hrowsin]
  · isplitl [Hown]; · iexact Hown
    iexact Hrowsin
  -- the cells closed
  imod (close_sends m K c) $$ [HatS0 HatS] with HzS
  · isplitr; · iexact HR
    isplitl [HatS0]; · iexact HatS0
    iexact HatS
  imod (close_recvs m K c) $$ [HatV0 HatV] with HzV
  · isplitr; · iexact HR
    isplitl [HatV0]; · iexact HatV0
    iexact HatV
  -- the normalised block
  iapply (wp_load 𝒱₀ (c : Thread nD τ) none Set.univ (m := (PM : Memref sig .tc .vmem S16x512 .f32)) (Finset.subset_univ _)) $$ Hscr0; iintro Hscr0
  rw [read_p]
  iapply (wp_load 𝒱₀ (c : Thread nD τ) none Set.univ (m := Memref.whole cc0_scratch1) (Finset.subset_univ _)) $$ Hscr1; iintro Hscr1
  rw [read_y]
  iapply (wp_load 𝒱₀ (c : Thread nD τ) none Set.univ (m := Memref.whole cc0_stg2_0) (Finset.subset_univ _)) $$ Hout; iintro Hout
  iapply (wp_store 𝒱₀ (c : Thread nD τ) none Set.univ (m := Memref.whole cc0_stg2_0) (r := r0x) (Mk := Finset.univ) (Finset.subset_univ _)) $$ Hout; iintro Hout
  rw [write_out, wp_ret]; imodintro
  iapply Hk
  unfold bodyPost Φ₁ Dat.owesAt Pipeline.owesWithin scr0 scr1
  rw [show (dats m 0 c).owed t0_0.succ = 0 from rfl]
  isplitl [Hscr0 Hscr1 HzS HzV]
  · isplitl [Hscr0]; · iexact Hscr0
    isplitl [Hscr1]; · iexists _; iexact Hscr1
    isplitl [HzS]; · iexact HzS
    iexact HzV
  isplitl [HO]
  · iexists W4
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 8000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hgh⟩, HcB, HcV, Hlev⟩, Hs0, Hs1⟩, Ho, Hx, Hgm, Hout⟩
  iapply (sound_body m K c fun _ => bodyPost m c)
  unfold bodyPre
  isplitr []
  · isplitl [Hgh HcB HcV Hlev Hs0 Hs1]
    · isplitl [Hgh]; · iexact Hgh
      isplitl [HcB]; · iexact HcB
      isplitl [HcV]; · iexact HcV
      isplitl [Hlev]; · iexact Hlev
      isplitl [Hs0]; · iexact Hs0
      iexact Hs1
    isplitl [Ho]; · iexact Ho
    isplitl [Hx]; · iexact Hx
    isplitl [Hgm]; · iexact Hgm
    iexact Hout
  · iintro H; iexact H

/-- info: 'Cert.KernelIdeal.Coll.body_obligation' depends on axioms: [propext, Classical.choice, Quot.sound] -/
#guard_msgs in #print axioms body_obligation

end Body

end Cert.KernelIdeal.Coll

end
-- ==== Proof.LaunchAlloc.lean ====
/-
  The launch's ghost state: the cells of the protocol, the duty tokens, what the launch element deals each device,
  and the one global step that turns every device's semaphores at zero into the cells' invariants.

  The cells are, per device, the 33 of the indexing `kcell`: the barrier cell (the runtime's semaphore, not scoped
  to the launch) and the 32 own cells (16 send, 16 receive; scoped). The duty tokens are minted in the shape the
  devices hold them: device `c` gets, for `k = 1 … 15`, the token of duty `c` of the barrier cell of `peer c k`,
  the token of the one duty of receive cell `c` of `peer c k`, and the token of the one duty of its own send cell
  `k`. Every (cell, round, duty) of the schedule occurs exactly once: a barrier cell's duty `d ≠ p` at `c = d`,
  `k` the distance from `d` to `p`.
-/
import proofs.«900466_g7700000000000467_dist_rmsnorm_colshard_i_m512_n256_v7x_i16_bf16_1_alg».proof.Proof.Data

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index facts -/

/-- `k ↦ (peer c k).val` permutes `0 … 15`. -/
theorem peer_val_image (c : Dev nD) : (Finset.Ico 0 16).image (fun k => (peer c k).val) = Finset.Ico 0 16 := by
  have hc : c.val < 16 := c.isLt
  ext s
  simp only [Finset.mem_image, Finset.mem_Ico, peer_val]
  constructor
  · rintro ⟨k, _, rfl⟩
    exact ⟨Nat.zero_le _, Nat.mod_lt _ (by decide)⟩
  · rintro ⟨_, hs⟩
    exact ⟨(s + 16 - c.val) % 16, ⟨Nat.zero_le _, Nat.mod_lt _ (by decide)⟩, by omega⟩

theorem peerVal_injOn_launch (c : Dev nD) : Set.InjOn (fun k => (peer c k).val) ↑(Finset.Ico 0 16) := by
  intro a ha b hb h
  have hc : c.val < 16 := c.isLt
  rw [Finset.mem_coe, Finset.mem_Ico] at ha hb
  have h' : (c.val + a) % 16 = (c.val + b) % 16 := h
  omega

/-- A family over `Fin (n + 1)`, its member at 0 first. -/
theorem bigSep_fin_succ {M : Type} [URA M] {n : ℕ} (Φ : Fin (n + 1) → sProp M) :
    bigSep Finset.univ Φ = iprop(Φ 0 ∗ bigSep Finset.univ fun j : Fin n => Φ j.succ) := by
  rw [Fin.univ_succ, Finset.cons_eq_insert, bigSep_insert (by simp [Fin.succ_ne_zero]), bigSep_map]; rfl

theorem bigSep_fin3' {M : Type} [URA M] (Φ : Fin 3 → sProp M) : bigSep Finset.univ Φ = iprop(Φ 0 ∗ Φ 1 ∗ Φ 2) :=
  bigSep_univ_eq_bigSepL [0, 1, 2] (by decide) (by decide) Φ

/-- A family by number over `1 … 15`, as a family over `Fin 15`. -/
theorem bigSep_fin15 {M : Type} [URA M] (Ψ : ℕ → sProp M) :
    bigSep Finset.univ (fun i : Fin 15 => Ψ (i.val + 1)) = bigSep (Finset.Ico 1 16) Ψ := by
  have e : Finset.Ico 1 16 = (Finset.univ : Finset (Fin 15)).map ⟨fun i => i.val + 1, fun a b h => Fin.ext (Nat.add_right_cancel h)⟩ := by
    ext k
    simp only [Finset.mem_Ico, Finset.mem_map, Finset.mem_univ, true_and, Function.Embedding.coeFn_mk]
    constructor
    · rintro ⟨h1, h2⟩; exact ⟨⟨k - 1, by omega⟩, by show k - 1 + 1 = k; omega⟩
    · rintro ⟨i, hi⟩
      have h15 : i.val < 15 := i.isLt
      have hk : i.val + 1 = k := hi
      omega
  rw [e, bigSep_map]; rfl

/-! ## The kernel's own semaphores -/

/-- The kernel's own (scoped) semaphores, as the launch indexes them: cells 1 … 32 of `csem`, the 16 send semaphores
    then the 16 receive semaphores. The barrier semaphore (cell 0) is the runtime's. -/
def osem (j : Fin 32) : SemLoc sig := csem j.succ

theorem osem_eq (j : Fin 32) : osem j = if j.val < 16 then .dma (sendSem j.val) else .dma (recvSem (j.val - 16)) := by
  have hj := j.isLt
  have hv : (j.succ : Fin 33).val = j.val + 1 := Fin.val_succ j
  unfold osem csem
  rw [hv]
  by_cases h : j.val < 16
  · rw [if_neg (by omega), if_pos (by omega), if_pos h, show j.val + 1 - 1 = j.val by omega]
  · rw [if_neg (by omega), if_neg (by omega), if_neg h, show j.val + 1 - 17 = j.val - 16 by omega]

def oS (k : ℕ) : Fin 32 := ⟨k % 16, by have := Nat.mod_lt k (show 0 < 16 by decide); omega⟩
def oR (k : ℕ) : Fin 32 := ⟨16 + k % 16, by have := Nat.mod_lt k (show 0 < 16 by decide); omega⟩

theorem osem_oS (k : ℕ) : osem (oS k) = .dma (sendSem k) := by
  have hm := Nat.mod_lt k (show 0 < 16 by decide)
  rw [osem_eq, if_pos (show (oS k).val < 16 from hm)]
  exact congrArg SemLoc.dma (sendSem_mod k)

theorem osem_oR (k : ℕ) : osem (oR k) = .dma (recvSem k) := by
  have hm := Nat.mod_lt k (show 0 < 16 by decide)
  have h1 : ¬ (oR k).val < 16 := by show ¬ 16 + k % 16 < 16; omega
  have h2 : (oR k).val - 16 = k % 16 := by show 16 + k % 16 - 16 = k % 16; omega
  rw [osem_eq, if_neg h1, h2]
  exact congrArg SemLoc.dma (recvSem_mod k)

theorem univ32_eq : (Finset.univ : Finset (Fin 32)) = (Finset.Ico 0 16).image oS ∪ (Finset.Ico 0 16).image oR := by
  ext j
  have hj := j.isLt
  simp only [Finset.mem_univ, Finset.mem_union, Finset.mem_image, Finset.mem_Ico, true_iff]
  by_cases h : j.val < 16
  · exact Or.inl ⟨j.val, ⟨Nat.zero_le _, h⟩, Fin.ext (show j.val % 16 = j.val by omega)⟩
  · exact Or.inr ⟨j.val - 16, ⟨Nat.zero_le _, by omega⟩, Fin.ext (show 16 + (j.val - 16) % 16 = j.val by omega)⟩

theorem oS_oR_disjoint : Disjoint ((Finset.Ico 0 16).image oS) ((Finset.Ico 0 16).image oR) := by
  rw [Finset.disjoint_left]
  intro j h1 h2
  obtain ⟨a, _, rfl⟩ := Finset.mem_image.mp h1
  obtain ⟨b, _, hb⟩ := Finset.mem_image.mp h2
  have ha := Nat.mod_lt a (show 0 < 16 by decide)
  have h : 16 + b % 16 = a % 16 := congrArg Fin.val hb
  omega

theorem oS_injOn : Set.InjOn oS ↑(Finset.Ico 0 16) := by
  intro a ha b hb h
  rw [Finset.mem_coe, Finset.mem_Ico] at ha hb
  have h' : a % 16 = b % 16 := congrArg Fin.val h
  omega

theorem oR_injOn : Set.InjOn oR ↑(Finset.Ico 0 16) := by
  intro a ha b hb h
  rw [Finset.mem_coe, Finset.mem_Ico] at ha hb
  have h' : 16 + a % 16 = 16 + b % 16 := congrArg Fin.val h
  omega

/-- A family over a device's 32 own cells is the family over its 16 send cells and over its 16 receive cells, these
    taken in the order of the peers. -/
theorem own_split (c : Dev nD) (Ψ : GSem nD τ sig → sProp 𝕄) :
    bigSep Finset.univ (fun j : Fin 32 => Ψ ((c : Thread nD τ), osem j))
      = iprop((bigSep (Finset.Ico 0 16) fun k => Ψ (sendCell c k)) ∗ (bigSep (Finset.Ico 0 16) fun k => Ψ (recvCell c (peer c k).val))) := by
  have e1 : bigSep Finset.univ (fun j : Fin 32 => Ψ ((c : Thread nD τ), osem j))
      = iprop(bigSep (Finset.Ico 0 16) (fun k => Ψ ((c : Thread nD τ), osem (oS k))) ∗ bigSep (Finset.Ico 0 16) (fun k => Ψ ((c : Thread nD τ), osem (oR k)))) := by
    rw [univ32_eq, bigSep_union oS_oR_disjoint, bigSep_image_of_injOn oS_injOn, bigSep_image_of_injOn oR_injOn]; rfl
  have e2 : bigSep (Finset.Ico 0 16) (fun k => Ψ ((c : Thread nD τ), osem (oS k))) = bigSep (Finset.Ico 0 16) fun k => Ψ (sendCell c k) :=
    bigSep_congr fun k _ => by rw [osem_oS]
  have e3 : bigSep (Finset.Ico 0 16) (fun k => Ψ ((c : Thread nD τ), osem (oR k))) = bigSep (Finset.Ico 0 16) fun k => Ψ (recvCell c k) :=
    bigSep_congr fun k _ => by rw [osem_oR]
  have e4 : bigSep (Finset.Ico 0 16) (fun k => Ψ (recvCell c k)) = bigSep (Finset.Ico 0 16) fun k => Ψ (recvCell c (peer c k).val) := by
    have e := bigSep_image_of_injOn (peerVal_injOn_launch c) (fun s => Ψ (recvCell c s))
    rw [peer_val_image] at e; exact e
  rw [e1, e2, e3, e4]

/-- A family over a device's 33 cells: the barrier cell, the send cells, the receive cells. -/
theorem cells_split (c : Dev nD) (Ψ : GSem nD τ sig → sProp 𝕄) :
    bigSep Finset.univ (fun j : Fin 33 => Ψ (kcell (c, j)))
      = iprop(Ψ (barCell c) ∗ (bigSep (Finset.Ico 0 16) fun k => Ψ (sendCell c k)) ∗ (bigSep (Finset.Ico 0 16) fun k => Ψ (recvCell c (peer c k).val))) := by
  rw [bigSep_fin_succ (fun j : Fin 33 => Ψ (kcell (c, j)))]
  exact congrArg (fun X : sProp 𝕄 => iprop(Ψ (barCell c) ∗ X)) (own_split c Ψ)

theorem ownSemFacts : Pipeline.OwnSemFacts cfg0.spec osem := by decide

/-! ## The cells are pairwise distinct -/

def semCode : SemLoc sig → ℕ
  | .reg _ => 0
  | .dma q => 1 + q.val

theorem csem_injective : Function.Injective csem := by
  intro j j' h
  have hj := j.isLt
  have hj' := j'.isLt
  have hc := congrArg semCode h
  apply Fin.ext
  unfold csem at hc
  split_ifs at hc <;> simp only [semCode, sendSem, recvSem] at hc <;> omega

theorem kcell_injective : Function.Injective (kcell : Dev nD × Fin 33 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

def ringCells : Finset (GSem nD τ sig) := Finset.univ.map ⟨kcell, kcell_injective⟩

/-! ## The duty tokens, in the shape the devices hold them -/

/-- Device `c`'s three tokens towards `peer c (i + 1)`: 0 the peer's barrier duty `c`, 1 the peer's receive cell `c`'s duty,
    2 the duty of its own send cell `i + 1`. -/
def tokOf (x : Dev nD × Fin 3 × Fin 15) : GSem nD τ sig × ℕ × Dev nD :=
  if x.2.1.val = 0 then (barCell (peer x.1 (x.2.2.val + 1)), 0, x.1)
  else if x.2.1.val = 1 then (recvCell (peer x.1 (x.2.2.val + 1)) x.1.val, 0, 0)
  else (sendCell x.1 (x.2.2.val + 1), 0, 0)

def tokCode (x : GSem nD τ sig × ℕ × Dev nD) : ℕ × ℕ × ℕ := (x.1.1.1.val, semCode x.1.2, x.2.2.val)

theorem tokCode_tokOf (c : Dev nD) (j : Fin 3) (i : Fin 15) : tokCode (tokOf (c, j, i)) =
    if j.val = 0 then ((c.val + (i.val + 1)) % 16, 0, c.val)
    else if j.val = 1 then ((c.val + (i.val + 1)) % 16, 1 + (19 + c.val % 16), 0)
    else (c.val, 1 + (3 + (i.val + 1) % 16), 0) := by
  unfold tokOf; dsimp only; split_ifs <;> rfl

theorem tokOf_injective : Function.Injective tokOf := by
  rintro ⟨c, j, i⟩ ⟨c', j', i'⟩ h
  have hi : i.val < 15 := i.isLt
  have hi' : i'.val < 15 := i'.isLt
  have hc : c.val < 16 := c.isLt
  have hc' : c'.val < 16 := c'.isLt
  have hj : j.val < 3 := j.isLt
  have hj' : j'.val < 3 := j'.isLt
  have hk := congrArg tokCode h
  rw [tokCode_tokOf, tokCode_tokOf] at hk
  have hall : c.val = c'.val ∧ j.val = j'.val ∧ i.val = i'.val := by
    split_ifs at hk <;> simp only [Prod.mk.injEq] at hk <;> refine ⟨?_, ?_, ?_⟩ <;> omega
  obtain ⟨h1, h2, h3⟩ := hall
  obtain rfl := Fin.ext h1
  obtain rfl := Fin.ext h2
  obtain rfl := Fin.ext h3
  rfl

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The duty tokens device `c` pays with. -/
def toks (c : Dev nD) : sProp 𝕄 :=
  iprop((bigSep (Finset.Ico 1 16) fun k => dutyTok ER (barCell (peer c k)) 0 c)
    ∗ (bigSep (Finset.Ico 1 16) fun k => dutyTok ER (recvCell (peer c k) c.val) 0 (0 : Dev nD))
    ∗ (bigSep (Finset.Ico 1 16) fun k => dutyTok ER (sendCell c k) 0 (0 : Dev nD)))

theorem toks_eq (c : Dev nD) :
    bigSep Finset.univ (fun b : Fin 3 × Fin 15 => (dutyTok ER (tokOf (c, b)).1 (tokOf (c, b)).2.1 (tokOf (c, b)).2.2 : sProp 𝕄)) = toks c := by
  have e0 := bigSep_fin15 (fun k => (dutyTok ER (barCell (peer c k)) 0 c : sProp 𝕄))
  have e1 := bigSep_fin15 (fun k => (dutyTok ER (recvCell (peer c k) c.val) 0 (0 : Dev nD) : sProp 𝕄))
  have e2 := bigSep_fin15 (fun k => (dutyTok ER (sendCell c k) 0 (0 : Dev nD) : sProp 𝕄))
  unfold toks
  rw [← e0, ← e1, ← e2, bigSep_univ_prod, bigSep_fin3']
  rfl

/-- What the launch element deals device `c` (the theorem's `G`): its 33 cells' round states, positions and round-0
    marks, and the tokens it pays with. -/
def G (c : Dev nD) : sProp 𝕄 :=
  iprop((bigSep Finset.univ fun j : Fin 33 => roundState ER (sched m) (kcell (c, j)) 0)
    ∗ (bigSep Finset.univ fun j : Fin 33 => iprop(atPos ER (kcell (c, j)) 0 ∅ 0 ∗ reached ER (kcell (c, j)) 0)) ∗ toks c)

/-- What the global step makes of it (`G'`). -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 33 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 33 => semVal (kcell (c, j)) 0 : sProp 𝕄) := by
  have e : (bigSep Finset.univ fun j : Fin 33 => semVal (kcell (c, j)) 0 : sProp 𝕄)
      = iprop(semVal (barCell c) 0 ∗ Pipeline.ownSems0 (Ix := Unit) (Name := ℕ) (U := UU) (Lvl := ℕ) (Val := Elt F) (τ := τ) osem c) :=
    bigSep_fin_succ (fun j : Fin 33 => (semVal (kcell (c, j)) 0 : sProp 𝕄))
  rw [unscopedSems0_eq, e]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 33 => semVal (kcell (c, j)) 0) ∗ bigSep Finset.univ fun j : Fin 33 => roundState ER (sched m) (kcell (c, j)) 0)
      ⊢ (|={Set.univ}=> bigSep Finset.univ fun j : Fin 33 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties it pays. -/
def linear (c : Dev nD) : sProp 𝕄 :=
  iprop((bigSep Finset.univ fun j : Fin 33 => atPos ER (kcell (c, j)) 0 ∅ 0) ∗ toks c)

theorem ghost_intro (K : Dev nD × Fin 33 → ℕ) (c : Dev nD) : iprop(records m K ∗ linear c) ⊢ G' m c := by
  unfold linear toks G' ghost
  iintro ⟨#HR, Hat, HtB, HtV, HtS⟩
  ihave Hat' := (Entails.of_eq (cells_split (F := F) c (fun g => atPos ER g 0 ∅ 0))) $$ Hat
  icases Hat' with ⟨HaB, HaS, HaV⟩
  iexists K
  isplitr; · iexact HR
  isplitl [HaB]; · iexact HaB
  isplitl [HaS]; · iexact HaS
  isplitl [HaV]; · iexact HaV
  isplitl [HtB]; · iexact HtB
  isplitl [HtV]; · iexact HtV
  iexact HtS

theorem regroup :
    (bigSep Finset.univ fun c : Dev nD => iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 33 => (atPos ER (kcell (c, j)) 0 ∅ 0 : sProp 𝕄)) toks).symm).trans
      (bigSep_mono fun c _ => show _ ⊢ linear c from Entails.of_eq (by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Coll.glob' depends on axioms: [propext, Classical.choice, Quot.sound] -/
#guard_msgs in #print axioms glob

end Cert.KernelIdeal.Coll

end
-- ==== Proof.Launch.lean ====
/-
  The launch: what every device is owed at launch, the launch theorem's side conditions, the run of the whole
  program from every device's body, and the final arrays.

  Device `d` owes, for `k = 1 … 15`, one unit to the barrier cell of `peer d k` and one row credit to receive cell
  `d` of `peer d k`. Summed over the devices, the barrier cell of `c` is owed 15 units (one by every other device)
  and receive cell `s` of `c`, `s ≠ c`, one row credit (by device `s`): the credit tokens `c` waits with.
-/
import proofs.«900466_g7700000000000467_dist_rmsnorm_colshard_i_m512_n256_v7x_i16_bf16_1_alg».proof.Proof.LaunchAlloc

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices owe, as sums -/

theorem OR_eq (c : Dev nD) : ∀ j, j ≤ 15 → OR c j = ∑ k ∈ Finset.Ico (16 - j) 16, (tallyAt (recvCell (peer c k) c.val) () N : CellTallies nD τ sig Unit)
  | 0, _ => by rw [show 16 - 0 = 16 from rfl, Finset.Ico_self, Finset.sum_empty]; rfl
  | j + 1, h => by
    have ih := OR_eq c j (by omega)
    have e : Finset.Ico (16 - (j + 1)) 16 = Finset.Ico (15 - j) 16 := by rw [show 16 - (j + 1) = 15 - j by omega]
    rw [e, Ring.sum_Ico_succ (show 15 - j < 16 by omega), show 15 - j + 1 = 16 - j by omega, ← ih]
    show OR c j + tallyAt (recvCell (peer c (15 - j)) c.val) () N = _
    exact add_comm _ _

theorem OB_eq (c : Dev nD) : ∀ j, j ≤ 15 → OB c j = OR c 15 + ∑ k ∈ Finset.Ico (16 - j) 16, (tallyAt (barCell (peer c k)) () 1 : CellTallies nD τ sig Unit)
  | 0, _ => by rw [show 16 - 0 = 16 from rfl, Finset.Ico_self, Finset.sum_empty, add_zero]; rfl
  | j + 1, h => by
    have ih := OB_eq c j (by omega)
    have e : Finset.Ico (16 - (j + 1)) 16 = Finset.Ico (15 - j) 16 := by rw [show 16 - (j + 1) = 15 - j by omega]
    rw [e, Ring.sum_Ico_succ (show 15 - j < 16 by omega), show 15 - j + 1 = 16 - j by omega]
    show OB c j + tallyAt (barCell (peer c (15 - j))) () 1 = _
    rw [ih, add_assoc, add_comm (∑ k ∈ Finset.Ico (16 - j) 16, (tallyAt (barCell (peer c k)) () 1 : CellTallies nD τ sig Unit))]

theorem O₀_eq (c : Dev nD) : O₀ c = (∑ k ∈ Finset.Ico 1 16, (tallyAt (recvCell (peer c k) c.val) () N : CellTallies nD τ sig Unit))
    + ∑ k ∈ Finset.Ico 1 16, (tallyAt (barCell (peer c k)) () 1 : CellTallies nD τ sig Unit) := by
  have h := OB_eq c 15 le_rfl
  rw [OR_eq c 15 le_rfl] at h
  exact h

theorem sum_tallyAt_apply (s : Finset ℕ) (cell : ℕ → GSem nD τ sig) (n : ℕ) (g : GSem nD τ sig) :
    (∑ k ∈ s, (tallyAt (cell k) () n : CellTallies nD τ sig Unit)) g () = ∑ k ∈ s, if g = cell k then n else 0 := by
  rw [Finset.sum_apply, Finsupp.finsetSum_apply]
  refine Finset.sum_congr rfl fun k _ => ?_
  rw [tallyAt_apply]
  by_cases h : g = cell k
  · rw [if_pos ⟨h, rfl⟩, if_pos h]
  · rw [if_neg (fun h' => h h'.1), if_neg h]

theorem O₀_apply (d : Dev nD) (g : GSem nD τ sig) : O₀ d g () =
    (∑ k ∈ Finset.Ico 1 16, if g = recvCell (peer d k) d.val then N else 0) + ∑ k ∈ Finset.Ico 1 16, if g = barCell (peer d k) then 1 else 0 := by
  rw [O₀_eq, Pi.add_apply, Finsupp.add_apply,
    sum_tallyAt_apply (Finset.Ico 1 16) (fun k => recvCell (peer d k) d.val) N g,
    sum_tallyAt_apply (Finset.Ico 1 16) (fun k => barCell (peer d k)) 1 g]

/-- Among the places `1 … 15` after `p`, exactly one reaches `c ≠ p` and none reaches `p`. -/
theorem peer_count (p c : Dev nD) : (∑ k ∈ Finset.Ico 1 16, if peer p k = c then 1 else 0) = if c = p then 0 else 1 := by
  revert p c; decide +kernel

theorem peer_countN (p c : Dev nD) (n : ℕ) : (∑ k ∈ Finset.Ico 1 16, if peer p k = c then n else 0) = if c = p then 0 else n := by
  have h : ∀ k, (if peer p k = c then n else 0) = n * (if peer p k = c then 1 else 0) := fun k => by split <;> simp
  simp only [h]
  rw [← Finset.mul_sum, peer_count]
  split <;> simp

theorem bar_eq_iff {a b : Dev nD} : Iff (barCell a = barCell b) (a = b) :=
  ⟨fun h => Fin.ext (congrArg (fun g : GSem nD τ sig => g.1.1.val) h), fun h => h ▸ rfl⟩

theorem recv_eq_iff {a b : Dev nD} {s t : ℕ} (hs : s < 16) (ht : t < 16) : Iff (recvCell a s = recvCell b t) (a = b ∧ s = t) :=
  ⟨fun h => ⟨Fin.ext (congrArg (fun g : GSem nD τ sig => g.1.1.val) h), by
      have h1 : (SemLoc.dma (recvSem s) : SemLoc sig) = .dma (recvSem t) := congrArg Prod.snd h
      have h2 : 19 + s % 16 = 19 + t % 16 := congrArg Fin.val (SemLoc.dma.inj h1)
      omega⟩,
   fun ⟨h1, h2⟩ => by rw [h1, h2]⟩

/-- What device `d` owes device `c`'s barrier cell: one unit unless `c = d`. -/
theorem owed_bar (d c : Dev nD) : O₀ d (barCell c) () = if c = d then 0 else 1 := by
  have h1 : (∑ k ∈ Finset.Ico 1 16, if barCell c = recvCell (peer d k) d.val then N else 0) = 0 :=
    Finset.sum_eq_zero fun k _ => if_neg fun h => by have h' := congrArg Prod.snd h; cases h'
  have h2 : (∑ k ∈ Finset.Ico 1 16, if barCell c = barCell (peer d k) then 1 else 0) = ∑ k ∈ Finset.Ico 1 16, if peer d k = c then 1 else 0 :=
    Finset.sum_congr rfl fun k _ => if_congr ⟨fun h => (bar_eq_iff.mp h).symm, fun h => bar_eq_iff.mpr h.symm⟩ rfl rfl
  rw [O₀_apply, h1, h2, Nat.zero_add, peer_count]

/-- What device `d` owes receive cell `s` of device `c`: the row credit when `s = d` and `c ≠ d`. -/
theorem owed_recv (d c s : Dev nD) : O₀ d (recvCell c s.val) () = if s = d then (if c = d then 0 else N) else 0 := by
  have h2 : (∑ k ∈ Finset.Ico 1 16, if recvCell c s.val = barCell (peer d k) then 1 else 0) = 0 :=
    Finset.sum_eq_zero fun k _ => if_neg fun h => by have h' := congrArg Prod.snd h; cases h'
  rw [O₀_apply, h2, Nat.add_zero]
  by_cases hs : s = d
  · subst hs
    rw [if_pos rfl, ← peer_countN s c N]
    exact Finset.sum_congr rfl fun k _ =>
      if_congr ⟨fun h => ((recv_eq_iff s.isLt s.isLt).mp h).1.symm, fun h => (recv_eq_iff s.isLt s.isLt).mpr ⟨h.symm, rfl⟩⟩ rfl rfl
  · rw [if_neg hs]
    exact Finset.sum_eq_zero fun k _ => if_neg fun h => hs (Fin.ext ((recv_eq_iff s.isLt d.isLt).mp h).2)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (k : ℕ) (h1 : 1 ≤ k) (h2 : k ≤ 15) :
    tallyOn (recvCell c (peer c k).val) (launchCredit (Pipeline.owing O₀) 0 (recvCell c (peer c k).val))
      = (tallyAt (recvCell c (peer c k).val) () N : CellTallies nD τ sig Unit) := by
  unfold tallyAt; refine congrArg _ (Finsupp.ext fun u => ?_); cases u
  rw [Pipeline.launchCredit_owing, Finsupp.single_eq_same, Finset.sum_congr rfl fun d _ => owed_recv d c (peer c k),
    Finset.sum_ite_eq Finset.univ (peer c k) fun d => if c = d then 0 else N, if_pos (Finset.mem_univ _), if_neg (peer_ne c k h1 h2).symm]

theorem recvSem_peer_injOn (c : Dev nD) : Set.InjOn (fun k => (SemLoc.dma (recvSem (peer c k).val) : SemLoc sig)) ↑(Finset.Ico 1 16) := by
  intro a ha b hb h
  rw [Finset.mem_coe, Finset.mem_Ico] at ha hb
  have h0 : recvCell c (peer c a).val = recvCell c (peer c b).val := congrArg (Prod.mk (c : Thread nD τ)) h
  have h1 : (peer c a).val = (peer c b).val := ((recv_eq_iff (peer c a).isLt (peer c b).isLt).mp h0).2
  exact peer_inj c (by omega) (by omega) (Fin.ext h1)

theorem recv_sub (c : Dev nD) :
    (Finset.Ico 1 16).image (fun k => (SemLoc.dma (recvSem (peer c k).val) : SemLoc sig)) ⊆ Finset.univ.erase (SemLoc.reg barS) := by
  intro sm h
  obtain ⟨k, _, rfl⟩ := Finset.mem_image.mp h
  exact Finset.mem_erase.mpr ⟨(fun h' => by cases h'), Finset.mem_univ _⟩

theorem creds_bar (c : Dev nD) :
    (Pipeline.launchCred O₀ c : sProp 𝕄)
      ⊢ iprop(cred (tallyAt (barCell c) () 15) ∗ bigSep (Finset.univ.erase (SemLoc.reg barS)) fun sm : SemLoc sig =>
          cred (tallyOn ((c : Thread nD τ), sm) (launchCredit (Pipeline.owing O₀) 0 ((c : Thread nD τ), sm)))) := by
  unfold Pipeline.launchCred
  rw [bigSep_univ_at _ (SemLoc.reg barS), launch_bar]

theorem creds_recv (c : Dev nD) :
    (bigSep (Finset.univ.erase (SemLoc.reg barS)) fun sm : SemLoc sig =>
        cred (tallyOn ((c : Thread nD τ), sm) (launchCredit (Pipeline.owing O₀) 0 ((c : Thread nD τ), sm))) : sProp 𝕄)
      ⊢ bigSep (Finset.Ico 1 16) fun k => cred (tallyAt (recvCell c (peer c k).val) () N) := by
  have h3 : (bigSep (Finset.Ico 1 16) fun k => (cred (tallyOn (recvCell c (peer c k).val) (launchCredit (Pipeline.owing O₀) 0 (recvCell c (peer c k).val))) : sProp 𝕄))
      ⊢ bigSep (Finset.Ico 1 16) fun k => cred (tallyAt (recvCell c (peer c k).val) () N) :=
    bigSep_mono fun k hk => Entails.of_eq (congrArg cred (launch_recv c k (Finset.mem_Ico.mp hk).1 (Nat.le_of_lt_succ (Finset.mem_Ico.mp hk).2)))
  have h2 := bigSep_image_of_injOn (recvSem_peer_injOn c) (fun sm : SemLoc sig =>
    (cred (tallyOn ((c : Thread nD τ), sm) (launchCredit (Pipeline.owing O₀) 0 ((c : Thread nD τ), sm))) : sProp 𝕄))
  have hsub := recv_sub c
  generalize (Finset.Ico 1 16).image (fun k => (SemLoc.dma (recvSem (peer c k).val) : SemLoc sig)) = t at hsub h2
  exact (bigSep_subset hsub).trans ((Entails.of_eq h2).trans h3)

/-- The credit tokens the launch deals device `c`: its barrier cell's 15 units and each of its 15 receive cells' row credit. -/
theorem creds (c : Dev nD) :
    (Pipeline.launchCred O₀ c : sProp 𝕄)
      ⊢ iprop(cred (tallyAt (barCell c) () 15) ∗ bigSep (Finset.Ico 1 16) fun k => cred (tallyAt (recvCell c (peer c k).val) () N)) :=
  (creds_bar c).trans (sep_mono_right (creds_recv c))

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr0 scr1
  iintro ⟨Hs, -, ⟨%f, Hr⟩, ⟨%f', Hr'⟩⟩
  isplitl [Hs]; · iexact Hs
  isplitl [Hr]
  · iexists f; iexact Hr
  iexists f'; iexact Hr'

theorem phi1_exit (c : Dev nD) :
    (dats m 0 c).Φ (Fin.last cfg0.N) ⊢ iprop(emp ∗ Pipeline.ownSems0 osem c ∗ Pipeline.scopedRest cfg0.spec c) := by
  have e : (Pipeline.ownSems0 (Ix := Unit) (Name := ℕ) (U := UU) (Lvl := ℕ) (Val := Elt F) (τ := τ) osem c : sProp 𝕄)
      = iprop((bigSep (Finset.Ico 0 16) fun k => semVal (sendCell c k) 0) ∗ (bigSep (Finset.Ico 0 16) fun k => semVal (recvCell c (peer c k).val) 0)) :=
    own_split c (fun g => semVal g 0)
  rw [show (dats m 0 c).Φ (Fin.last cfg0.N) = Φ₁ m c from rfl, scopedRest0_eq, e]
  unfold Φ₁ scr0 scr1
  iintro ⟨Hr, ⟨%f, Hr'⟩, HzS, HzV⟩
  isplitr; · iempintro
  isplitl [HzS HzV]
  · isplitl [HzS] <;> iassumption
  isplitl [Hr]
  · iexists (gathered m); iexact Hr
  iexists f; iexact Hr'

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> first | rfl | decide) 15
    · rw [show (dats m 0 c).owed ⟨_ + 1, ht⟩ = 0 from rfl, MayWait_zero]; iintro -; iempintro

/-! ## The run -/

/-- Every device's window arrays at what the proof data says they hold after the last point. -/
def QC (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of 16 devices, for any float values, from any memory with zero counters: if every device's body
    meets its obligation, every weakly fair execution of the program terminates, and in every final state each device's
    window arrays hold what the proof data says. -/
theorem run_main_of (hbody : ∀ c, BodyObligation (dats (F := F) m 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_main_of' depends on axioms: [propext, Classical.choice, Quot.sound] -/
#guard_msgs in #print axioms run_main_of

/-! ## The final arrays -/

/-- The argument arrays after the run hold what they held. -/
theorem final_args (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(h c 0).trans ((dats m 0 c).arrAt_in 0 rfl _), (h c 1).trans ((dats m 0 c).arrAt_in 1 rfl _)⟩

/-- The result array of device `c` after the run holds its result: the one write-back writes the whole array. -/
theorem final_out (r : PUnit × MemSt nD τ sig (Elt F)) (h : QC m ρ r) (c : Dev nD) :
    r.2.mem ((c.tc : Thread nD τ).loc main_v1) = outAt m c := by
  have h2 := h c 2
  have hs := (dats m 0 c).arrAt_succ 2 t0_0
  rw [if_pos (flush0_2 t0_0)] at hs
  refine h2.trans (hs.trans ?_)
  exact Memref.write_access_unit_zero_univ (Elt F) main_v1 (funext fun a => Nat.zero_mul _) _ _ _

/-- info: 'Cert.KernelIdeal.Coll.final_out' depends on axioms: [propext, Classical.choice, Quot.sound] -/
#guard_msgs in #print axioms final_out

end Cert.KernelIdeal.Coll

end
-- ==== Proof.Run.lean ====
/-
  The run of the whole program on the mesh: every weakly fair execution of the sixteen devices terminates, nothing
  faults, each device's two argument buffers end unchanged and its result buffer ends holding the normalised block
  computed from its own blocks of `x` and `gamma` and from every device's block of `x`.
-/
import proofs.«900466_g7700000000000467_dist_rmsnorm_colshard_i_m512_n256_v7x_i16_bf16_1_alg».proof.Proof.Body
import proofs.«900466_g7700000000000467_dist_rmsnorm_colshard_i_m512_n256_v7x_i16_bf16_1_alg».proof.Proof.Launch

noncomputable section

namespace Cert.KernelIdeal.Coll

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The run, every window's array after it named. -/
theorem run_main : θ_run defs (onTc (τ := τ) (main (F := F))) (s₀ m ρ) (QC m ρ) :=
  run_main_of m ρ (body_obligation m)

/-- The run with the result named and the arguments unchanged. -/
theorem value_run : θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨final_out m ρ r h c, (final_args m ρ r h c).1, (final_args m ρ r h c).2⟩) (run_main m ρ)

/-- The run with the values dropped: the frame. -/
theorem frame_run : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (value_run m ρ)

/-- A device's block of `x`, and of `gamma`, as staged, is its argument buffer: the window is the whole array. -/
theorem xblk_eq (c : Dev nD) : xblk m c = m ((c.tc : Thread nD τ).loc main_arg0) := by
  unfold xblk iblk
  exact Memref.read_access_unit_zero (Elt F) main_arg0 (funext fun a => Nat.zero_mul _) _ _
theorem gblk_eq (c : Dev nD) : gblk m c = m ((c.tc : Thread nD τ).loc main_arg1) := by
  unfold gblk iblk
  exact Memref.read_access_unit_zero (Elt F) main_arg1 (funext fun a => Nat.zero_mul _) _ _

/-- info: 'Cert.KernelIdeal.Coll.value_run' depends on axioms: [propext, Classical.choice, Quot.sound] -/
#guard_msgs in #print axioms value_run

end Cert.KernelIdeal.Coll

end
-- ==== Proof.WRmsSpec.lean ====
import proofs.«900466_g7700000000000467_dist_rmsnorm_colshard_i_m512_n256_v7x_i16_bf16_1_alg».proof.Proof.Gen.Kernel.Skeleton
import Idealize.ShloMosaic.Lib.ValueIdx

/-!
# The distributed RMS norm as one pure term of the devices' blocks

Device `c` holds a block `x c` of 256 columns of a 512 × 4096 matrix and the matching 256 scale
factors. Every device forms, for each of its 512 rows, the sum of the squares of its 256 entries of
that row; the sixteen devices exchange these row sums, so that each ends up with the same 16 × 512
table `partials x` (row `d` = the row sums of device `d`). A device's result is then its scaled
block times the reciprocal square root of (the column sums of that table divided by 4096, plus a
small constant): `outOf x g c`.
-/

noncomputable section

namespace Cert.Kernel.RmsSpec

open Idealize.ShloMosaic Idealize.ShloMosaic.ValueIdx Cert.Kernel.Gen

variable {F : FTy → Type} [FloatOps F]

/-- The table of row sums after the exchange: its entry at row `d` (a device) and column `r` (a
    matrix row) is device `d`'s sum of squares over its 256 entries of matrix row `r`. -/
def partials (x : Dev nD → Vec F S512x256 .f32) : Vec F S16x512 .f32 :=
  fun i => k0_pay3 (x (i 0)) (ix2 (0 : Fin 1) (i 1))

/-- Device `c`'s result: its block scaled column by column by `g`, every row multiplied by the
    reciprocal square root of (the total of that row's sixteen partial sums, divided by 4096, plus
    the small constant). -/
def outOf (x : Dev nD → Vec F S512x256 .f32) (g : Vec F S256 .f32) (c : Dev nD) : FVec F S512x256 .bf16 :=
  k0_pay1 (k0_pay6 (partials x)) k0_pay7 (k0_pay5 (k0_pay4 (k0_pay2 (x c)) g))

end Cert.Kernel.RmsSpec
-- ==== Proof.WRows.lean ====
/-
  The geometry of the gather buffer: a 16 × 512 array whose row `d` holds device `d`'s vector of row sums of
  squares. Row `r` is the set of indices with first coordinate `r`; the printed row slices (a unit rectangle of
  size 1 × 512 at offsets `![r, 0]`, squeezed to a vector of 512) cover exactly that set; the sixteen rows are
  pairwise disjoint and cover the buffer. A copy from a view onto the same view of another device's buffer leaves,
  under the view, the source's contents; a store of the block's sums of squares through the row rectangle makes
  the row agree with the gathered array of the specification.
-/
import proofs.«900466_g7700000000000467_dist_rmsnorm_colshard_i_m512_n256_v7x_i16_bf16_1_alg».proof.Proof.Gen.Kernel.Skeleton
import proofs.«900466_g7700000000000467_dist_rmsnorm_colshard_i_m512_n256_v7x_i16_bf16_1_alg».proof.Proof.WRmsSpec
import Idealize.ShloMosaic.Lib.Pipeline.Value
import Idealize.ShloMosaic.Lib.ValueIdx

noncomputable section

namespace Cert.Kernel.Coll

open Cert.Kernel Cert.Kernel.Gen
open Idealize.ShloMosaic Idealize.ShloMosaic.TcCoe Idealize.ShloMosaic.ValueIdx

variable {F : FTy → Type} [FloatOps F]

/-- The gather buffer, whole. -/
abbrev PM : Memref sig .tc .vmem S16x512 .f32 := Memref.whole cc0_scratch0

/-- The indices of row `r` of the gather buffer. -/
def rowSet (r : ℕ) : Finset S16x512.Idx := Finset.univ.filter fun i => (i 0).val = r

theorem mem_rowSet {r : ℕ} {i : S16x512.Idx} : i ∈ rowSet r ↔ (i 0).val = r := by
  unfold rowSet; rw [Finset.mem_filter]; exact ⟨fun h => h.2, fun h => ⟨Finset.mem_univ _, h⟩⟩

/-- The unit rectangle of one row at offsets `![r, 0]` is row `r`. -/
theorem rowRect_set (off : Fin 2 → ℕ) (inb : ∀ a, off a + S1x512.size a ≤ S16x512.size a) (r : ℕ) (h : off = ![r, 0]) :
    (Rect.unit (s := S16x512) off S1x512.size inb).set = rowSet r := by
  subst h
  ext i
  rw [Rect.mem_set_unit, mem_rowSet, Fin.forall_fin_two]
  have h1 : ((i 1 : Fin 512) : ℕ) < 512 := (i 1).isLt
  constructor
  · rintro ⟨⟨h0, h0'⟩, -⟩
    have e0 : (![r, 0] : Fin 2 → ℕ) 0 = r := rfl
    have e1 : S1x512.size 0 = 1 := rfl
    rw [e0] at h0; rw [e0, e1] at h0'; omega
  · intro h
    have e0 : (![r, 0] : Fin 2 → ℕ) 0 = r := rfl
    have e1 : S1x512.size 0 = 1 := rfl
    have e2 : (![r, 0] : Fin 2 → ℕ) 1 = 0 := rfl
    have e3 : S1x512.size 1 = 512 := rfl
    refine ⟨⟨by rw [e0]; omega, by rw [e0, e1]; omega⟩, ⟨by rw [e2]; omega, by rw [e2, e3]; omega⟩⟩

/-- Rows are pairwise disjoint. -/
theorem rowSet_disjoint {r r' : ℕ} (h : r ≠ r') : Disjoint (rowSet r) (rowSet r') :=
  Finset.disjoint_left.mpr fun i hi hi' => h ((mem_rowSet.mp hi).symm.trans (mem_rowSet.mp hi'))

/-- The printed row slice of the gather buffer at offsets `off`, squeezed to a vector of 512. -/
abbrev rowOf (off : Fin 2 → ℕ) (inb : ∀ a, off a + S1x512.size a ≤ S16x512.size a) : Memref sig .tc .vmem S512 .f32 :=
  ((PM : Memref sig .tc .vmem S16x512 .f32).slice (Rect.unit (s := S16x512) off S1x512.size inb) (fun _ => rfl)).squeeze S512 squeezes_S1x512_S512

theorem rowOf_set (off : Fin 2 → ℕ) (inb : ∀ a, off a + S1x512.size a ≤ S16x512.size a) (r : ℕ) (h : off = ![r, 0]) :
    (rowOf off inb).view.set = rowSet r := by
  have h1 : (rowOf off inb).view.set = (Rect.unit (s := S16x512) off S1x512.size inb).set := by
    show (((View.whole cc0_scratch0 : View sig .tc _ _ _).slice (Rect.unit (s := S16x512) off S1x512.size inb)).reshape S512 _).set = _
    rw [View.set_reshape, View.set_slice_whole]
  exact h1.trans (rowRect_set off inb r h)

/-- A copy from a view onto the same view of another buffer leaves, under the view, the source's contents. -/
theorem write_read_same {sig' : RefSig} {κ : Kind} {sp : Space} {s : Shape} {e : EltTy} {Val : EltTy → Type}
    (v : View sig' κ sp s e) (fd fs : v.ty.Contents Val) :
    ∀ i ∈ v.set, v.write Val fd (v.read Val fs) Finset.univ i = fs i := by
  intro i hi
  obtain ⟨y, rfl⟩ := View.exists_emb_of_mem_set v hi
  rw [View.write_emb_of_mem _ _ (Finset.mem_univ y), View.read_apply, cast_cast, cast_eq]

end Cert.Kernel.Coll

end
-- ==== Proof.WProto.lean ====
/-
  The cross-device protocol of the distributed RMS-norm on 16 devices, under the rounds discipline.

  Every device `c` first signals the runtime's barrier semaphore of each of its 15 peers `peer c k`
  (`k = 1 … 15`), stores its own vector of row sums of squares into row `c` of its 16 × 512 gather buffer, and
  waits for 15 units on its own barrier semaphore. It then copies its row `c` into row `c` of every peer's
  gather buffer — the copy to `peer c k` completing on `c`'s send semaphore `k` and on the peer's receive
  semaphore `c` —, computes `gamma · x`, waits for the 15 rows coming in and for its 15 copies going out, and
  normalises.

  Cells and duties (one round, round 0; a duty is named by a device):
  * the barrier cell of `c` has the 15 duties `d ≠ c`, one unit each, duty `d` paid by device `d`'s signal;
    its payload is what `c` needs for its copy into `d`'s buffer: row `c` of `d`'s gather buffer, at any
    contents, and that `d`'s receive cell `c` has reached round 0;
  * the receive cell `s` of `c` (`s ≠ c`) has the one duty `0`, of the row's transfer credit, paid by device
    `s`'s copy; its payload is row `s` of `c`'s gather buffer holding the gathered array's row `s`;
  * the send cell `k` of `c` (`1 ≤ k ≤ 15`) has the one duty `0`, paid by `c`'s own copy number `k`; its
    payload gives back the share of row `c` the copy read through.
  A device waits on its barrier cell (level 1) while it still owes its peers' receive cells (level 2) only;
  on its receive and send cells it waits owing nothing. That is the whole deadlock argument.
-/
import proofs.«900466_g7700000000000467_dist_rmsnorm_colshard_i_m512_n256_v7x_i16_bf16_1_alg».proof.Proof.Gen.Kernel
import proofs.«900466_g7700000000000467_dist_rmsnorm_colshard_i_m512_n256_v7x_i16_bf16_1_alg».proof.Proof.Gen.Kernel.Skeleton
import proofs.«900466_g7700000000000467_dist_rmsnorm_colshard_i_m512_n256_v7x_i16_bf16_1_alg».proof.Proof.Gen.Kernel.Launch
import proofs.«900466_g7700000000000467_dist_rmsnorm_colshard_i_m512_n256_v7x_i16_bf16_1_alg».proof.Proof.Gen.Kernel.Points
import proofs.«900466_g7700000000000467_dist_rmsnorm_colshard_i_m512_n256_v7x_i16_bf16_1_alg».proof.Proof.Gen.Kernel.Frame
import proofs.«900466_g7700000000000467_dist_rmsnorm_colshard_i_m512_n256_v7x_i16_bf16_1_alg».proof.Proof.WRmsSpec
import proofs.«900466_g7700000000000467_dist_rmsnorm_colshard_i_m512_n256_v7x_i16_bf16_1_alg».proof.Proof.WRows
import Idealize.ShloMosaic.Lib.Pipeline.Launch
import Idealize.ShloMosaic.Lib.Pipeline.Kit
import Idealize.ShloMosaic.Lib.Ring
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices -/

/-- The device `k` places after `c` around the mesh. -/
def peer (c : Dev nD) (k : ℕ) : Dev nD := ⟨(c.val + k) % 16, Nat.mod_lt _ (by decide)⟩

theorem peer_val (c : Dev nD) (k : ℕ) : (peer c k).val = (c.val + k) % 16 := rfl

/-- Going `k` places on and then `16 - k` places on comes back. -/
theorem peer_peer (c : Dev nD) (k : ℕ) (hk : k ≤ 16) : peer (peer c k) (16 - k) = c := by
  apply Fin.ext; rw [peer_val, peer_val]; have h16 : c.val < 16 := c.isLt; omega

theorem peer_ne (c : Dev nD) (k : ℕ) (h1 : 1 ≤ k) (h2 : k ≤ 15) : peer c k ≠ c := by
  intro h; have := congrArg Fin.val h; rw [peer_val] at this; have h16 : c.val < 16 := c.isLt; omega

theorem peer_inj (c : Dev nD) {k k' : ℕ} (hk : k < 16) (hk' : k' < 16) (h : peer c k = peer c k') : k = k' := by
  have := congrArg Fin.val h; rw [peer_val, peer_val] at this; have h16 : c.val < 16 := c.isLt; omega

/-! ## Semaphores and cells -/

/-- The runtime's barrier semaphore of collective id 0 (unscoped). -/
abbrev barS : Sem sig := (SemArray.scalar (sig.barrier 0 rfl) : Sems sig S_).sem
/-- Send semaphore `k` and receive semaphore `k` (the two scratch arrays of 16 DMA semaphores), `k` read modulo 16. -/
def sendSem (k : ℕ) : DmaSem sig := ⟨3 + k % 16, by show 3 + k % 16 < 35; have := Nat.mod_lt k (show 0 < 16 by decide); omega⟩
def recvSem (k : ℕ) : DmaSem sig := ⟨19 + k % 16, by show 19 + k % 16 < 35; have := Nat.mod_lt k (show 0 < 16 by decide); omega⟩

abbrev barCell (c : Dev nD) : GSem nD τ sig := ((c : Thread nD τ), .reg barS)
abbrev sendCell (c : Dev nD) (k : ℕ) : GSem nD τ sig := ((c : Thread nD τ), .dma (sendSem k))
abbrev recvCell (c : Dev nD) (k : ℕ) : GSem nD τ sig := ((c : Thread nD τ), .dma (recvSem k))

/-- What a semaphore cell is in the protocol. -/
inductive CellClass where
  | bar | send (k : ℕ) | recv (s : ℕ) | other
deriving DecidableEq

def classOf : SemLoc sig → CellClass
  | .reg _ => .bar
  | .dma q => if q.val < 3 then .other else if q.val < 19 then .send (q.val - 3) else .recv (q.val - 19)

theorem classOf_bar : classOf (.reg barS : SemLoc sig) = .bar := rfl
theorem classOf_send (k : ℕ) (hk : k < 16) : classOf (.dma (sendSem k) : SemLoc sig) = .send k := by
  unfold classOf sendSem; dsimp only
  split_ifs with h1 h2
  · omega
  · congr 1; omega
  · omega
theorem classOf_recv (s : ℕ) (hs : s < 16) : classOf (.dma (recvSem s) : SemLoc sig) = .recv s := by
  unfold classOf recvSem; dsimp only
  split_ifs with h1 h2
  · omega
  · omega
  · congr 1; omega

/-- The transfer credit of one row of the gather buffer. -/
abbrev N : ℕ := (rowOf (k0_off3 (0 : Dev nD)) (k0_off3_inb 0)).view.dmaCredit
theorem N_pos : 0 < N := View.dmaCredit_pos _ (by decide)

/-! ## Contents -/

/-- Device `d`'s block of `x` and of `gamma`, as its staging buffers hold them. -/
def xblk (d : Dev nD) : Vec F S512x256 .f32 := iblk m d 0 t0_0
def gblk (d : Dev nD) : Vec F S256 .f32 := iblk m d 1 t0_0

/-- The gathered array: row `d` is device `d`'s vector of row sums of squares. The same on every device. -/
def gathered : Vec F S16x512 .f32 := RmsSpec.partials (fun d => xblk m d)

/-- Device `c`'s result. -/
def outAt (c : Dev nD) : FVec F S512x256 .bf16 := RmsSpec.outOf (fun d => xblk m d) (gblk m c) c

/-! ## Shares of the own row: copy `k` reads through `sndShare k`; after `k` copies `remShare k` is left -/

def remShare : ℕ → PosShare TreeShare
  | 0 => fullShare
  | k + 1 => (remShare k).right
def sndShare (k : ℕ) : PosShare TreeShare := (remShare (k - 1)).left

theorem share_split (k : ℕ) : remShare k ∈ sndShare (k + 1) ·? remShare (k + 1) := by
  show remShare k ∈ (remShare (k + 1 - 1)).left ·? (remShare k).right
  rw [Nat.add_sub_cancel]; exact PosShare.mem_left_op_right _

/-- Row `r` of device `c`'s gather buffer at contents `f`, held with share `q`. -/
def rowPts (c : Dev nD) (r : ℕ) (q : PosShare TreeShare) (f : Buf (Elt F) ((c : Thread nD τ).loc cc0_scratch0)) : sProp 𝕄 :=
  ((c : Thread nD τ).loc cc0_scratch0) ↦[rowSet r]{q} f

instance rowPts_storable (c : Dev nD) (r : ℕ) (q) (f) : BI.Storable (upEmb : UEmb _ 𝕄) (rowPts (F := F) c r q f) := by unfold rowPts; infer_instance

/-! ## The schedule -/

/-- What device `d`'s signal (duty `d` of `c`'s barrier cell) hands `c`. -/
def barPay (c d : Dev nD) : sProp 𝕄 := iprop((∃ f, rowPts d c.val fullShare f) ∗ reached ER (recvCell d c.val) 0)
/-- What the copy from device `s` hands `c`: row `s` at the gathered array. -/
def recvPay (c : Dev nD) (s : ℕ) : sProp 𝕄 := rowPts c s fullShare (gathered m)
/-- What `c`'s own copy `k` gives back: the share of row `c` it read through. -/
def sendPay (c : Dev nD) (k : ℕ) : sProp 𝕄 := rowPts c c.val (sndShare k) (gathered m)

def sched : Rounds.Schedule (GSem nD τ sig) (Dev nD) 𝕄 where
  duties g r :=
    if r = 0 ∧ g.1.2 = .tc then
      match classOf g.2 with
      | .bar => Finset.univ.erase g.1.1
      | .send k => if k = 0 then ∅ else {0}
      | .recv s => if s = g.1.1.val then ∅ else {0}
      | .other => ∅
    else ∅
  unitless _ := False
  amount g _ _ := match classOf g.2 with | .bar => 1 | _ => N
  payload g _ d := match classOf g.2 with
    | .bar => barPay g.1.1 d
    | .send k => sendPay m g.1.1 k
    | .recv s => recvPay m g.1.1 s
    | .other => iprop(emp)
  amount_pos g _ _ _ := by
    show 0 < (match classOf g.2 with | .bar => 1 | _ => N)
    split
    · exact Nat.one_pos
    · exact N_pos

instance sched_payload_storable (g : GSem nD τ sig) (r : ℕ) (d : Dev nD) :
    BI.Storable (upEmb : UEmb _ 𝕄) ((sched (F := F) m).payload g r d) := by
  show BI.Storable upEmb (match classOf g.2 with
    | .bar => barPay g.1.1 d
    | .send k => sendPay m g.1.1 k
    | .recv s => recvPay m g.1.1 s
    | .other => iprop(emp))
  unfold barPay recvPay sendPay
  split <;> infer_instance

section Sched
variable (c : Dev nD)

theorem duties_bar : (sched (F := F) m).duties (barCell c) 0 = Finset.univ.erase c := by
  dsimp only [sched]; rw [if_pos ⟨rfl, rfl⟩]; rfl
theorem duties_send (k : ℕ) (h1 : 1 ≤ k) (h2 : k ≤ 15) : (sched (F := F) m).duties (sendCell c k) 0 = {0} := by
  dsimp only [sched]; rw [if_pos ⟨rfl, rfl⟩, classOf_send k (by omega)]; dsimp only; rw [if_neg (by omega)]
theorem duties_recv (s : ℕ) (hs : s < 16) (hne : s ≠ c.val) : (sched (F := F) m).duties (recvCell c s) 0 = {0} := by
  dsimp only [sched]; rw [if_pos ⟨rfl, rfl⟩, classOf_recv s hs]; dsimp only; rw [if_neg hne]
theorem duties_later (g : GSem nD τ sig) : ∀ r, 1 ≤ r → (sched (F := F) m).duties g r = ∅ :=
  fun r hr => by dsimp only [sched]; rw [if_neg fun h => by omega]
/-- The two cells no copy uses: send cell 0 and the receive cell of the device's own number. -/
theorem duties_send_zero : ∀ r, 0 ≤ r → (sched (F := F) m).duties (sendCell c 0) r = ∅ := fun r _ => by
  dsimp only [sched]; split
  · rw [classOf_send 0 (by omega)]; rfl
  · rfl
theorem duties_recv_self : ∀ r, 0 ≤ r → (sched (F := F) m).duties (recvCell c c.val) r = ∅ := fun r _ => by
  dsimp only [sched]; split
  · rw [classOf_recv c.val c.isLt]; dsimp only; rw [if_pos rfl]
  · rfl

theorem amount_bar (d : Dev nD) : (sched (F := F) m).amount (barCell c) 0 d = 1 := rfl
theorem amount_send (k : ℕ) (hk : k < 16) (d : Dev nD) : (sched (F := F) m).amount (sendCell c k) 0 d = N := by
  dsimp only [sched]; rw [classOf_send k hk]
theorem amount_recv (s : ℕ) (hs : s < 16) (d : Dev nD) : (sched (F := F) m).amount (recvCell c s) 0 d = N := by
  dsimp only [sched]; rw [classOf_recv s hs]

theorem expect_bar : (sched (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (k : ℕ) (h1 : 1 ≤ k) (h2 : k ≤ 15) : (sched (F := F) m).expect (sendCell c k) 0 = N := by
  unfold Schedule.expect Schedule.amountOf; rw [duties_send m c k h1 h2, Finset.sum_singleton, amount_send m c k (by omega)]
theorem expect_recv (s : ℕ) (hs : s < 16) (hne : s ≠ c.val) : (sched (F := F) m).expect (recvCell c s) 0 = N := by
  unfold Schedule.expect Schedule.amountOf; rw [duties_recv m c s hs hne, Finset.sum_singleton, amount_recv m c s hs]

theorem payload_bar (d : Dev nD) : (sched (F := F) m).payload (barCell c) 0 d = barPay c d := rfl
theorem payload_send (k : ℕ) (hk : k < 16) (d : Dev nD) : (sched (F := F) m).payload (sendCell c k) 0 d = sendPay m c k := by
  dsimp only [sched]; rw [classOf_send k hk]
theorem payload_recv (s : ℕ) (hs : s < 16) (d : Dev nD) : (sched (F := F) m).payload (recvCell c s) 0 d = recvPay m c s := by
  dsimp only [sched]; rw [classOf_recv s hs]

theorem rest_send (k : ℕ) (h1 : 1 ≤ k) (h2 : k ≤ 15) :
    bigSep ((sched (F := F) m).duties (sendCell c k) 0 \ ∅) (fun d => (sched (F := F) m).payload (sendCell c k) 0 d) = sendPay m c k := by
  rw [Finset.sdiff_empty, duties_send m c k h1 h2, bigSep_singleton, payload_send m c k (by omega)]
theorem rest_recv (s : ℕ) (hs : s < 16) (hne : s ≠ c.val) :
    bigSep ((sched (F := F) m).duties (recvCell c s) 0 \ ∅) (fun d => (sched (F := F) m).payload (recvCell c s) 0 d) = recvPay m c s := by
  rw [Finset.sdiff_empty, duties_recv m c s hs hne, bigSep_singleton, payload_recv m c s hs]
/-- The barrier round's payloads: from every other device, the row of its buffer that `c` will write. -/
theorem rest_bar :
    bigSep ((sched (F := F) m).duties (barCell c) 0 \ ∅) (fun d => (sched (F := F) m).payload (barCell c) 0 d)
      = bigSep (Finset.univ.erase c) (fun d => barPay (F := F) c d) := by
  rw [Finset.sdiff_empty, duties_bar]; rfl

end Sched

/-! ## What each device owes at launch, in the order its body pays it; the levels -/

/-- The receive credits still owed when `j` copies remain: to `peer c (15 - j + 1) … peer c 15`. The next copy,
    number `16 - j`, peels the last summand. -/
def OR (c : Dev nD) : ℕ → CellTallies nD τ sig Unit
  | 0 => 0
  | j + 1 => OR c j + tallyAt (recvCell (peer c (15 - j)) c.val) () N
/-- The same with the barrier units still owed when `j` signals remain. -/
def OB (c : Dev nD) : ℕ → CellTallies nD τ sig Unit
  | 0 => OR c 15
  | j + 1 => OB c j + tallyAt (barCell (peer c (15 - j))) () 1
def O₀ (c : Dev nD) : CellTallies nD τ sig Unit := OB c 15

def L (g : GSem nD τ sig) : Finset Unit := if g.1.2 = .tc then {()} else ∅
/-- barrier cells at 1, receive cells at 2, everything else (staging, send) at 0. -/
def lv (g : GSem nD τ sig) (_ : Unit) : ℕ := match classOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- A cell owed something by `OR c j` is a receive cell of a peer. -/
theorem OR_pos {c : Dev nD} {j : ℕ} {g : GSem nD τ sig} {u : Unit} (h : 0 < OR c j g u) : ∃ p : Dev nD, g = recvCell p c.val := by
  induction j with
  | zero => exact absurd h (by simp [OR])
  | succ j ih =>
    unfold OR at h
    rw [Pi.add_apply, Finsupp.add_apply, tallyAt_apply] at h
    by_cases hg : g = recvCell (peer c (15 - j)) c.val ∧ u = ()
    · exact ⟨_, hg.1⟩
    · rw [if_neg hg, Nat.add_zero] at h; exact ih h

theorem OB_pos {c : Dev nD} {j : ℕ} {g : GSem nD τ sig} {u : Unit} (h : 0 < OB c j g u) :
    (∃ p : Dev nD, g = recvCell p c.val) ∨ ∃ p : Dev nD, g = barCell p := by
  induction j with
  | zero => exact Or.inl (OR_pos h)
  | succ j ih =>
    unfold OB at h
    rw [Pi.add_apply, Finsupp.add_apply, tallyAt_apply] at h
    by_cases hg : g = barCell (peer c (15 - j)) ∧ u = ()
    · exact Or.inr ⟨_, hg.1⟩
    · rw [if_neg hg, Nat.add_zero] at h; exact ih h

theorem lv_bar (p : Dev nD) (u : Unit) : lv (barCell p) u = 1 := rfl
theorem lv_recv (p : Dev nD) (s : ℕ) (hs : s < 16) (u : Unit) : lv (recvCell p s) u = 2 := by
  unfold lv; rw [classOf_recv s hs]

/-- Waits on cells below the barrier and receive levels (staging and send cells) are allowed whatever is owed. -/
theorem mayWait_low (c : Dev nD) (q : SemLoc sig) (hq : lv ((c : Thread nD τ), q) () = 0) (j : ℕ) :
    (levAts L lv : sProp 𝕄) ⊢ MayWait (c : Thread nD τ) q () (OB c j) :=
  MayOwe.of_cut (L := L) (lev := lv) 0 (fun p hp => by rw [Finset.mem_singleton.mp hp, L_tc]; exact Finset.mem_singleton_self _)
    (fun g u hg => by
      rcases OB_pos hg with ⟨p, rfl⟩ | ⟨p, rfl⟩ <;> exact Finset.mem_singleton_self _)
    (fun p hp => by rw [Finset.mem_singleton.mp hp]; exact Nat.le_of_eq hq)
    (fun g u hg => by
      rcases OB_pos hg with ⟨p, rfl⟩ | ⟨p, rfl⟩
      · rw [lv_recv p c.val c.isLt]; decide
      · rw [lv_bar]; decide)

/-- At its barrier wait a device owes receive credits only: receive cells, above its barrier cell. -/
theorem mayWait_bar (c : Dev nD) (j : ℕ) :
    (levAts L lv : sProp 𝕄) ⊢ MayWait (c : Thread nD τ) (.reg barS) () (OR c j) :=
  MayOwe.of_cut (L := L) (lev := lv) 1 (fun p hp => by rw [Finset.mem_singleton.mp hp, L_tc]; exact Finset.mem_singleton_self _)
    (fun g u hg => by obtain ⟨p, rfl⟩ := OR_pos hg; exact Finset.mem_singleton_self _)
    (fun p hp => by rw [Finset.mem_singleton.mp hp]; exact Nat.le_of_eq (lv_bar c ()))
    (fun g u hg => by obtain ⟨p, rfl⟩ := OR_pos hg; rw [lv_recv p c.val c.isLt]; decide)

end Cert.Kernel.Coll

end
-- ==== Proof.WData.lean ====
/-
  What each device holds during the protocol, and the pipeline's proof data.

  The protocol's cells are, per device, its barrier cell, its 16 send cells and its 16 receive cells (send cell 0 and
  the receive cell of the device's own number take part in no copy: they have no duty and are closed untouched).
  A device starts with every cell's invariant and round-0 mark, its own cells' positions, and the tokens of the
  duties IT pays: duty `c` of each peer's barrier cell, the one duty of each peer's receive cell `c`, and the one
  duty of each of its own send cells 1 … 15. It ends with its gather buffer holding the gathered array and all its
  own semaphores at zero.
-/
import proofs.«900466_g7700000000000467_dist_rmsnorm_colshard_i_m512_n256_v7x_i16_bf16_1_alg».proof.Proof.WProto

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed: 0 the barrier, 1 + k send cell k, 17 + s receive cell s -/

def csem (j : Fin 33) : SemLoc sig :=
  if j.val = 0 then .reg barS else if j.val ≤ 16 then .dma (sendSem (j.val - 1)) else .dma (recvSem (j.val - 17))
abbrev kcell (ck : Dev nD × Fin 33) : GSem nD τ sig := ((ck.1 : Thread nD τ), csem ck.2)

def ixBar : Fin 33 := ⟨0, by decide⟩
def ixSend (k : ℕ) : Fin 33 := ⟨1 + k % 16, by have := Nat.mod_lt k (show 0 < 16 by decide); omega⟩
def ixRecv (s : ℕ) : Fin 33 := ⟨17 + s % 16, by have := Nat.mod_lt s (show 0 < 16 by decide); omega⟩

theorem sendSem_mod (k : ℕ) : sendSem (k % 16) = sendSem k := by
  unfold sendSem; apply Fin.ext; show 3 + k % 16 % 16 = 3 + k % 16; omega
theorem recvSem_mod (k : ℕ) : recvSem (k % 16) = recvSem k := by
  unfold recvSem; apply Fin.ext; show 19 + k % 16 % 16 = 19 + k % 16; omega

theorem kcell_bar (c : Dev nD) : kcell (c, ixBar) = barCell c := rfl
theorem kcell_send (c : Dev nD) (k : ℕ) : kcell (c, ixSend k) = sendCell c k := by
  have hm := Nat.mod_lt k (show 0 < 16 by decide)
  show ((c : Thread nD τ), csem (ixSend k)) = _
  unfold csem ixSend; dsimp only
  rw [if_neg (by omega), if_pos (by omega), show 1 + k % 16 - 1 = k % 16 by omega, sendSem_mod]
theorem kcell_recv (c : Dev nD) (s : ℕ) : kcell (c, ixRecv s) = recvCell c s := by
  have hm := Nat.mod_lt s (show 0 < 16 by decide)
  show ((c : Thread nD τ), csem (ixRecv s)) = _
  unfold csem ixRecv; dsimp only
  rw [if_neg (by omega), if_neg (by omega), show 17 + s % 16 - 17 = s % 16 by omega, recvSem_mod]

/-- Every cell's invariant, under the names `K`, and that every cell has reached round 0. Persistent. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) :
    records m K ⊢ cellInv ER (sched m) (K ck) (kcell ck) := by
  unfold records; exact (BI.sep_and.trans and_elimL).trans (bigSep_elim (Finset.mem_univ ck))
theorem reached_at (K : Dev nD × Fin 33 → ℕ) (ck : Dev nD × Fin 33) :
    records m K ⊢ reached ER (kcell ck) 0 := by
  unfold records; exact (BI.sep_and.trans and_elimR).trans (bigSep_elim (Finset.mem_univ ck))

theorem inv_bar (K : Dev nD × Fin 33 → ℕ) (c : Dev nD) : records m K ⊢ cellInv ER (sched m) (K (c, ixBar)) (barCell c) := inv_at m K (c, ixBar)
theorem inv_send (K : Dev nD × Fin 33 → ℕ) (c : Dev nD) (k : ℕ) : records m K ⊢ cellInv ER (sched m) (K (c, ixSend k)) (sendCell c k) := by
  have h := inv_at m K (c, ixSend k); rw [kcell_send] at h; exact h
theorem inv_recv (K : Dev nD × Fin 33 → ℕ) (c : Dev nD) (s : ℕ) : records m K ⊢ cellInv ER (sched m) (K (c, ixRecv s)) (recvCell c s) := by
  have h := inv_at m K (c, ixRecv s); rw [kcell_recv] at h; exact h
theorem reached_bar (K : Dev nD × Fin 33 → ℕ) (c : Dev nD) : records m K ⊢ reached ER (barCell c) 0 := reached_at m K (c, ixBar)
theorem reached_send (K : Dev nD × Fin 33 → ℕ) (c : Dev nD) (k : ℕ) : records m K ⊢ reached ER (sendCell c k) 0 := by
  have h := reached_at m K (c, ixSend k); rw [kcell_send] at h; exact h
theorem reached_recv (K : Dev nD × Fin 33 → ℕ) (c : Dev nD) (s : ℕ) : records m K ⊢ reached ER (recvCell c s) 0 := by
  have h := reached_at m K (c, ixRecv s); rw [kcell_recv] at h; exact h

/-! ## What a device starts from -/

/-- The protocol's ghost state of device `c`: the records; its positions at round 0 of its barrier cell, its 16 send
    cells and its 16 receive cells (receive cell `(peer c k).val` for `k = 0 … 15`: `k = 0` is its own number's);
    and, for each peer `peer c k`, `k = 1 … 15`, the tokens of the three duties its signal and its copy to that peer pay. -/
def ghost (K : Dev nD × Fin 33 → ℕ) (c : Dev nD) : sProp 𝕄 :=
  iprop(records m K
    ∗ atPos ER (barCell c) 0 ∅ 0
    ∗ (bigSep (Finset.Ico 0 16) fun k => atPos ER (sendCell c k) 0 ∅ 0)
    ∗ (bigSep (Finset.Ico 0 16) fun k => atPos ER (recvCell c (peer c k).val) 0 ∅ 0)
    ∗ (bigSep (Finset.Ico 1 16) fun k => dutyTok ER (barCell (peer c k)) 0 c)
    ∗ (bigSep (Finset.Ico 1 16) fun k => dutyTok ER (recvCell (peer c k) c.val) 0 (0 : Dev nD))
    ∗ (bigSep (Finset.Ico 1 16) fun k => dutyTok ER (sendCell c k) 0 (0 : Dev nD)))

/-- What device `c`'s body starts from: that at some names; the credit tokens of its barrier cell's 15 units and of each
    of its 15 receive cells' row credit; the level facts. -/
def start (c : Dev nD) : sProp 𝕄 :=
  iprop((∃ K, ghost m K c) ∗ cred (tallyAt (barCell c) () 15)
    ∗ (bigSep (Finset.Ico 1 16) fun k => cred (tallyAt (recvCell c (peer c k).val) () N)) ∗ levAts L lv)

/-- The two scratch buffers, whole. -/
def scr0 (c : Dev nD) (f : Buf (Elt F) ((c : Thread nD τ).loc cc0_scratch0)) : sProp 𝕄 := ((c : Thread nD τ).loc cc0_scratch0) ↦{fullShare} f
def scr1 (c : Dev nD) (f : Buf (Elt F) ((c : Thread nD τ).loc cc0_scratch1)) : sProp 𝕄 := ((c : Thread nD τ).loc cc0_scratch1) ↦{fullShare} f

def Φ₀ (c : Dev nD) : sProp 𝕄 := iprop(start m c ∗ (∃ f, scr0 c f) ∗ ∃ f, scr1 c f)
/-- After the point: the gather buffer holds the gathered array, and the device's 32 own semaphores are at zero. -/
def Φ₁ (c : Dev nD) : sProp 𝕄 :=
  iprop(scr0 c (gathered m) ∗ (∃ f, scr1 c f)
    ∗ (bigSep (Finset.Ico 0 16) fun k => semVal (sendCell c k) 0)
    ∗ (bigSep (Finset.Ico 0 16) fun k => semVal (recvCell c (peer c k).val) 0))

/-! ## The pipeline's proof data -/

def dats (_ : Fin 1) (c : Dev nD) : Dat τ (Elt F) Unit ℕ UU ℕ cfg0 c where
  A w := V m c (Pipeline.arrRef spec0 w)
  after w _ := match w with
    | ⟨0, _⟩ => xblk m c
    | ⟨1, _⟩ => gblk m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Coll

end
-- ==== Proof.WRegions.lean ====
/-
  The gather buffer as its sixteen rows. Holding the whole buffer at contents `f` (with any share) is holding
  each row at `f`; seen from device `c`, the rows are its own row `c` and the rows of its fifteen peers
  `peer c k`, `k = 1 … 15`. A row's points-to depends on the contents only through the row.
-/
import proofs.«900466_g7700000000000467_dist_rmsnorm_colshard_i_m512_n256_v7x_i16_bf16_1_alg».proof.Proof.WProto

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rows below `n`. -/
def rowsBelow (n : ℕ) : Finset S16x512.Idx := Finset.univ.filter fun i => (i 0).val < n

theorem mem_rowsBelow {n : ℕ} {i : S16x512.Idx} : i ∈ rowsBelow n ↔ (i 0).val < n := by
  unfold rowsBelow; rw [Finset.mem_filter]; exact ⟨fun h => h.2, fun h => ⟨Finset.mem_univ _, h⟩⟩

theorem rowsBelow_succ (n : ℕ) : rowsBelow (n + 1) = rowsBelow n ∪ rowSet n := by
  ext i; rw [Finset.mem_union, mem_rowsBelow, mem_rowsBelow, mem_rowSet]; omega

theorem rowsBelow_disjoint (n : ℕ) : Disjoint (rowsBelow n) (rowSet n) :=
  Finset.disjoint_left.mpr fun i hi hi' => by rw [mem_rowsBelow] at hi; rw [mem_rowSet] at hi'; omega

theorem rowsBelow_one : rowsBelow 1 = rowSet 0 := by
  ext i; rw [mem_rowsBelow, mem_rowSet]; omega

theorem rowsBelow_all : rowsBelow 16 = Finset.univ := by
  ext i; rw [mem_rowsBelow]; exact ⟨fun _ => Finset.mem_univ _, fun _ => (i 0).isLt⟩

omit [FloatOps F] in
/-- A row's points-to depends on the contents through the row only. -/
theorem rowPts_congr (c : Dev nD) (r : ℕ) (q : PosShare TreeShare) {f g : Buf (Elt F) ((c : Thread nD τ).loc cc0_scratch0)}
    (h : ∀ i ∈ rowSet r, f i = g i) : rowPts (F := F) c r q f = rowPts c r q g := by
  unfold rowPts; exact pointsTo_congr h

omit [FloatOps F] in
/-- The rows below `n + 1`, one by one. -/
theorem rows_range (c : Dev nD) (q : PosShare TreeShare) (f : Buf (Elt F) ((c : Thread nD τ).loc cc0_scratch0)) (n : ℕ) :
    ((((c : Thread nD τ).loc cc0_scratch0) ↦[rowsBelow (n + 1)]{q} f : sProp 𝕄)) = bigSep (Finset.range (n + 1)) fun r => rowPts c r q f := by
  induction n with
  | zero =>
    rw [rowsBelow_one, Finset.range_one, bigSep_singleton]; rfl
  | succ n ih =>
    rw [rowsBelow_succ, Finset.range_add_one, bigSep_insert Finset.notMem_range_self, ← ih]
    have hu : ((((c : Thread nD τ).loc cc0_scratch0) ↦[rowsBelow (n + 1) ∪ rowSet (n + 1)]{q} f : sProp 𝕄))
        ⊣⊢ iprop((((c : Thread nD τ).loc cc0_scratch0) ↦[rowsBelow (n + 1)]{q} f) ∗ ((c : Thread nD τ).loc cc0_scratch0) ↦[rowSet (n + 1)]{q} f) :=
      pointsTo_union (rowsBelow_disjoint (n + 1))
    refine (equiv_iff.mp ⟨hu.1, hu.2⟩).trans ?_
    exact equiv_iff.mp ⟨BI.sep_comm, BI.sep_comm⟩

/-- Seen from device `c`, the sixteen row numbers are `c`'s own and its fifteen peers'. -/
theorem range_eq_peers (c : Dev nD) :
    Finset.range 16 = insert c.val ((Finset.Ico 1 16).image fun k => (peer c k).val) := by
  have hc : c.val < 16 := c.isLt
  ext x
  rw [Finset.mem_range, Finset.mem_insert, Finset.mem_image]
  constructor
  · intro hx
    by_cases h : x = c.val
    · exact Or.inl h
    · refine Or.inr ⟨(x + 16 - c.val) % 16, Finset.mem_Ico.mpr ⟨by omega, by omega⟩, ?_⟩
      rw [peer_val]; omega
  · rintro (h | ⟨k, hk, h⟩)
    · omega
    · rw [peer_val] at h; omega

theorem own_not_peer (c : Dev nD) : c.val ∉ (Finset.Ico 1 16).image fun k => (peer c k).val := by
  have hc : c.val < 16 := c.isLt
  intro h
  obtain ⟨k, hk, h⟩ := Finset.mem_image.mp h
  rw [Finset.mem_Ico] at hk; rw [peer_val] at h; omega

theorem peer_val_injOn (c : Dev nD) : Set.InjOn (fun k => (peer c k).val) (Finset.Ico 1 16 : Finset ℕ) := by
  have hc : c.val < 16 := c.isLt
  intro k hk k' hk' h
  rw [Finset.mem_coe, Finset.mem_Ico] at hk hk'
  simp only [peer_val] at h; omega

omit [FloatOps F] in
/-- A family over the sixteen rows, seen from `c`. -/
theorem bigSep_rows (c : Dev nD) (Φ : ℕ → sProp 𝕄) :
    bigSep (Finset.range 16) Φ = iprop(Φ c.val ∗ bigSep (Finset.Ico 1 16) fun k => Φ (peer c k).val) := by
  rw [range_eq_peers c, bigSep_insert (own_not_peer c), bigSep_image_of_injOn (peer_val_injOn c)]
  rfl

omit [FloatOps F] in
/-- The whole gather buffer is the own row and the fifteen peers' rows. -/
theorem scr_rows (c : Dev nD) (q : PosShare TreeShare) (f : Buf (Elt F) ((c : Thread nD τ).loc cc0_scratch0)) :
    ((((c : Thread nD τ).loc cc0_scratch0) ↦{q} f : sProp 𝕄))
      = iprop(rowPts c c.val q f ∗ bigSep (Finset.Ico 1 16) fun k => rowPts c (peer c k).val q f) := by
  rw [← bigSep_rows c (fun r => rowPts c r q f), ← rows_range c q f 15, rowsBelow_all]

end Cert.Kernel.Coll

end
-- ==== Proof.WSteps.lean ====
/-
  One thread's protocol steps, each stated once for a symbolic device and a symbolic step number.

  While signals remain the thread holds, for each peer still to be signalled, the token of its duty on that peer's
  barrier cell and the row of its own gather buffer that the peer will write. While copies remain it holds, for
  each peer still to be served, the tokens of the copy's two duties and what that peer's signal handed over; the
  share of its own row not yet lent to a copy; and the send credits of the copies already started. A receive wait
  turns a receive cell's credit and position into the landed row; a send wait gives back the share a copy read
  through. What is owed shrinks by one summand per signal and per copy, in program order.
-/
import proofs.«900466_g7700000000000467_dist_rmsnorm_colshard_i_m512_n256_v7x_i16_bf16_1_alg».proof.Proof.WData
import proofs.«900466_g7700000000000467_dist_rmsnorm_colshard_i_m512_n256_v7x_i16_bf16_1_alg».proof.Proof.WRegions

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Ring (bigSep_Ico_succ bigSep_Ico_one)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The printed device chains and semaphore slices -/

theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 1 := Fin.ext (k0_dev16_eq c)
theorem dev17_eq (c : Dev nD) : (⟨k0_dev17 c, k0_dev17_lt c⟩ : Dev nD) = peer c 2 := Fin.ext (k0_dev17_eq c)
theorem dev18_eq (c : Dev nD) : (⟨k0_dev18 c, k0_dev18_lt c⟩ : Dev nD) = peer c 3 := Fin.ext (k0_dev18_eq c)
theorem dev19_eq (c : Dev nD) : (⟨k0_dev19 c, k0_dev19_lt c⟩ : Dev nD) = peer c 4 := Fin.ext (k0_dev19_eq c)
theorem dev20_eq (c : Dev nD) : (⟨k0_dev20 c, k0_dev20_lt c⟩ : Dev nD) = peer c 5 := Fin.ext (k0_dev20_eq c)
theorem dev21_eq (c : Dev nD) : (⟨k0_dev21 c, k0_dev21_lt c⟩ : Dev nD) = peer c 6 := Fin.ext (k0_dev21_eq c)
theorem dev22_eq (c : Dev nD) : (⟨k0_dev22 c, k0_dev22_lt c⟩ : Dev nD) = peer c 7 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 9 := Fin.ext (k0_dev24_eq c)
theorem dev25_eq (c : Dev nD) : (⟨k0_dev25 c, k0_dev25_lt c⟩ : Dev nD) = peer c 10 := Fin.ext (k0_dev25_eq c)
theorem dev26_eq (c : Dev nD) : (⟨k0_dev26 c, k0_dev26_lt c⟩ : Dev nD) = peer c 11 := Fin.ext (k0_dev26_eq c)
theorem dev27_eq (c : Dev nD) : (⟨k0_dev27 c, k0_dev27_lt c⟩ : Dev nD) = peer c 12 := Fin.ext (k0_dev27_eq c)
theorem dev28_eq (c : Dev nD) : (⟨k0_dev28 c, k0_dev28_lt c⟩ : Dev nD) = peer c 13 := Fin.ext (k0_dev28_eq c)
theorem dev29_eq (c : Dev nD) : (⟨k0_dev29 c, k0_dev29_lt c⟩ : Dev nD) = peer c 14 := Fin.ext (k0_dev29_eq c)
theorem dev30_eq (c : Dev nD) : (⟨k0_dev30 c, k0_dev30_lt c⟩ : Dev nD) = peer c 15 := Fin.ext (k0_dev30_eq c)

theorem inb16 (j : Fin 16) : ∀ a, (![j.val] : Fin 1 → ℕ) a + S1.size a ≤ S16.size a := by revert j; decide

theorem send_sem_at : ∀ j : Fin 16,
    ((cc0_scratch2.slice (Rect.unit (s := S16) ![j.val] S1.size (inb16 j))).squeeze S_ squeezes_S1_S_).sem = sendSem j.val := by decide
theorem recv_sem_at : ∀ j : Fin 16,
    ((cc0_scratch3.slice (Rect.unit (s := S16) ![j.val] S1.size (inb16 j))).squeeze S_ squeezes_S1_S_).sem = recvSem j.val := by decide

theorem send_sem (off : Fin 1 → ℕ) (inb : ∀ a, off a + S1.size a ≤ S16.size a) (j : Fin 16) (h : off = ![j.val]) :
    ((cc0_scratch2.slice (Rect.unit (s := S16) off S1.size inb)).squeeze S_ squeezes_S1_S_).sem = sendSem j.val := by
  subst h; exact send_sem_at j
theorem recv_sem (off : Fin 1 → ℕ) (inb : ∀ a, off a + S1.size a ≤ S16.size a) (j : Fin 16) (h : off = ![j.val]) :
    ((cc0_scratch3.slice (Rect.unit (s := S16) off S1.size inb)).squeeze S_ squeezes_S1_S_).sem = recvSem j.val := by
  subst h; exact recv_sem_at j

theorem sendSem1_eq : ((cc0_scratch2.slice (Rect.unit (s := S16) ![1] S1.size inb_S16_S1_1)).squeeze S_ squeezes_S1_S_).sem = sendSem 1 := send_sem _ _ ⟨1, by decide⟩ rfl
theorem sendSem2_eq : ((cc0_scratch2.slice (Rect.unit (s := S16) ![2] S1.size inb_S16_S1_2)).squeeze S_ squeezes_S1_S_).sem = sendSem 2 := send_sem _ _ ⟨2, by decide⟩ rfl
theorem sendSem3_eq : ((cc0_scratch2.slice (Rect.unit (s := S16) ![3] S1.size inb_S16_S1_3)).squeeze S_ squeezes_S1_S_).sem = sendSem 3 := send_sem _ _ ⟨3, by decide⟩ rfl
theorem sendSem4_eq : ((cc0_scratch2.slice (Rect.unit (s := S16) ![4] S1.size inb_S16_S1_4)).squeeze S_ squeezes_S1_S_).sem = sendSem 4 := send_sem _ _ ⟨4, by decide⟩ rfl
theorem sendSem5_eq : ((cc0_scratch2.slice (Rect.unit (s := S16) ![5] S1.size inb_S16_S1_5)).squeeze S_ squeezes_S1_S_).sem = sendSem 5 := send_sem _ _ ⟨5, by decide⟩ rfl
theorem sendSem6_eq : ((cc0_scratch2.slice (Rect.unit (s := S16) ![6] S1.size inb_S16_S1_6)).squeeze S_ squeezes_S1_S_).sem = sendSem 6 := send_sem _ _ ⟨6, by decide⟩ rfl
theorem sendSem7_eq : ((cc0_scratch2.slice (Rect.unit (s := S16) ![7] S1.size inb_S16_S1_7)).squeeze S_ squeezes_S1_S_).sem = sendSem 7 := send_sem _ _ ⟨7, by decide⟩ rfl
theorem sendSem8_eq : ((cc0_scratch2.slice (Rect.unit (s := S16) ![8] S1.size inb_S16_S1_8)).squeeze S_ squeezes_S1_S_).sem = sendSem 8 := send_sem _ _ ⟨8, by decide⟩ rfl
theorem sendSem9_eq : ((cc0_scratch2.slice (Rect.unit (s := S16) ![9] S1.size inb_S16_S1_9)).squeeze S_ squeezes_S1_S_).sem = sendSem 9 := send_sem _ _ ⟨9, by decide⟩ rfl
theorem sendSem10_eq : ((cc0_scratch2.slice (Rect.unit (s := S16) ![10] S1.size inb_S16_S1_10)).squeeze S_ squeezes_S1_S_).sem = sendSem 10 := send_sem _ _ ⟨10, by decide⟩ rfl
theorem sendSem11_eq : ((cc0_scratch2.slice (Rect.unit (s := S16) ![11] S1.size inb_S16_S1_11)).squeeze S_ squeezes_S1_S_).sem = sendSem 11 := send_sem _ _ ⟨11, by decide⟩ rfl
theorem sendSem12_eq : ((cc0_scratch2.slice (Rect.unit (s := S16) ![12] S1.size inb_S16_S1_12)).squeeze S_ squeezes_S1_S_).sem = sendSem 12 := send_sem _ _ ⟨12, by decide⟩ rfl
theorem sendSem13_eq : ((cc0_scratch2.slice (Rect.unit (s := S16) ![13] S1.size inb_S16_S1_13)).squeeze S_ squeezes_S1_S_).sem = sendSem 13 := send_sem _ _ ⟨13, by decide⟩ rfl
theorem sendSem14_eq : ((cc0_scratch2.slice (Rect.unit (s := S16) ![14] S1.size inb_S16_S1_14)).squeeze S_ squeezes_S1_S_).sem = sendSem 14 := send_sem _ _ ⟨14, by decide⟩ rfl
theorem sendSem15_eq : ((cc0_scratch2.slice (Rect.unit (s := S16) ![15] S1.size inb_S16_S1_15)).squeeze S_ squeezes_S1_S_).sem = sendSem 15 := send_sem _ _ ⟨15, by decide⟩ rfl

/-- The receive semaphore a copy from `c` completes on at its peer: number `c`. -/
theorem recvSemOwn_eq (c : Dev nD) :
    ((cc0_scratch3.slice (Rect.unit (s := S16) (k0_off2 c) S1.size (k0_off2_inb c))).squeeze S_ squeezes_S1_S_).sem = recvSem c.val :=
  recv_sem _ _ c (k0_off2_eq c)

/-- The receive semaphore of the wait number `r`: the number of the device `15 - r` places on. -/
theorem recvSemWait_eq (c : Dev nD) (r : Fin 15) :
    ((cc0_scratch3.slice (Rect.unit (s := S16) (k0_off4 c (BitVec.ofNat 32 (1 + r.val))) S1.size (k0_off4_inb c r))).squeeze S_ squeezes_S1_S_).sem
      = recvSem (peer c (15 - r.val)).val := by
  have h := k0_off4_eq c r
  have hc : c.val < 16 := c.isLt
  have hr : r.val < 15 := r.isLt
  have e : ((c.val + 15) - r.val) % 16 = (peer c (15 - r.val)).val := by rw [peer_val]; omega
  rw [e] at h
  exact recv_sem _ _ (peer c (15 - r.val)) h

/-! ## Runs over consecutive numbers, the last one set apart -/

omit [FloatOps F] in
theorem bigSep_Ico_last {a b : ℕ} (h : a ≤ b) (A : ℕ → sProp 𝕄) :
    bigSep (Finset.Ico a (b + 1)) A = iprop(bigSep (Finset.Ico a b) A ∗ A b) := by
  have e : Finset.Ico a (b + 1) = insert b (Finset.Ico a b) := by
    ext x; simp only [Finset.mem_Ico, Finset.mem_insert]; omega
  rw [e, bigSep_insert (by simp)]
  exact equiv_iff.mp ⟨BI.sep_comm, BI.sep_comm⟩

/-! ## The signals -/

/-- While `i` signals remain (to `peer c (16 - i)` … `peer c 15`). -/
def SigSt (c : Dev nD) (i : ℕ) (W : Waits sig Unit) (f : Buf (Elt F) ((c : Thread nD τ).loc cc0_scratch0)) : sProp 𝕄 :=
  iprop(owes (c : Thread nD τ) (OB c i) W
    ∗ bigSep (Finset.Ico (16 - i) 16) fun k => iprop(dutyTok ER (barCell (peer c k)) 0 c ∗ rowPts c (peer c k).val fullShare f))

/-- The signal to `peer c (15 - i)`, duty `c` of that peer's barrier cell: it hands over row `(peer c (15 - i)).val` of
    the signaller's gather buffer and that the signaller's receive cell of that number has reached round 0. -/
theorem sig_step (K : Dev nD × Fin 33 → ℕ) (c : Dev nD) (i : ℕ) (hi : i ≤ 14) (n : Dev nD) (hn : n = peer c (15 - i))
    (W : Waits sig Unit) (f : Buf (Elt F) ((c : Thread nD τ).loc cc0_scratch0))
    {α : Type} {Q : α → sProp 𝕄} {k : PUnit → Prog (TpuEff nD τ sig (Elt F) Λ₀ .tc) α} :
    iprop(records m K ∗ SigSt c (i + 1) W f)
      ⊢ iprop((SigSt c i W f -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold SigSt
  have e1 : 16 - (i + 1) = 15 - i := by omega
  have e2 : 15 - i + 1 = 16 - i := by omega
  rw [e1, bigSep_Ico_succ (by omega : 15 - i < 16), e2]
  iintro ⟨#HR, HO, ⟨Htok, Hrow⟩, Hrest⟩ Hk
  iapply (Rounds.wp_signal 𝒱₀ ER (sched m) (c : Thread nD τ) none (dst := (peer c (15 - i) : Thread nD τ)) (κ := K (peer c (15 - i), ixBar))
      (d := c) (by rw [duties_bar]; exact Finset.mem_erase.mpr ⟨(peer_ne c (15 - i) (by omega) (by omega)).symm, Finset.mem_univ _⟩)
      (amount_bar m (peer c (15 - i)) c) () (OB c i) rfl) $$ [HO Htok Hrow]
  · isplitr; · iapply (inv_bar m K (peer c (15 - i))); iexact HR
    isplitl [HO]; · iexact HO
    isplitl [Htok]; · iexact Htok
    isplitl [Hrow]
    · rw [payload_bar]; unfold barPay
      isplitl [Hrow]; · iexists f; iexact Hrow
      iapply (reached_recv m K c (peer c (15 - i)).val); iexact HR
    · iapply (reached_bar m K (peer c (15 - i))); iexact HR
  iintro HO
  iapply Hk
  isplitl [HO]; · iexact HO
  iexact Hrest

/-! ## The barrier wait -/

/-- The peers of `c` are the other fifteen devices. -/
theorem erase_eq_peers (c : Dev nD) : Finset.univ.erase c = (Finset.Ico 1 16).image (peer c) := by
  have hc : c.val < 16 := c.isLt
  ext x
  rw [Finset.mem_erase, Finset.mem_image]
  constructor
  · rintro ⟨hne, -⟩
    have hx : x.val < 16 := x.isLt
    have hxc : x.val ≠ c.val := fun h => hne (Fin.ext h)
    refine ⟨(x.val + 16 - c.val) % 16, Finset.mem_Ico.mpr ⟨by omega, by omega⟩, Fin.ext ?_⟩
    rw [peer_val]; omega
  · rintro ⟨k, hk, rfl⟩
    rw [Finset.mem_Ico] at hk
    exact ⟨peer_ne c k hk.1 (by omega), Finset.mem_univ _⟩

theorem peer_injOn (c : Dev nD) : Set.InjOn (peer c) (Finset.Ico 1 16 : Finset ℕ) := by
  intro k hk k' hk' h
  rw [Finset.mem_coe, Finset.mem_Ico] at hk hk'
  exact peer_inj c (by omega) (by omega) h

/-- The wait for 15 units on the own barrier cell, owing receive credits only: every peer's payload comes with it. -/
theorem bar_wait (K : Dev nD × Fin 33 → ℕ) (c : Dev nD) (W : Waits sig Unit)
    {α : Type} {Q : α → sProp 𝕄} {k : PUnit → Prog (TpuEff nD τ sig (Elt F) Λ₀ .tc) α} :
    iprop(records m K ∗ levAts L lv ∗ cred (tallyAt (barCell c) () 15) ∗ owes (c : Thread nD τ) (OR c 15) W ∗ atPos ER (barCell c) 0 ∅ 0)
      ⊢ iprop(((owes (c : Thread nD τ) (OR c 15) (insert (SemLoc.reg barS, ()) W) ∗ atPos ER (barCell c) 1 ∅ 0
              ∗ bigSep (Finset.Ico 1 16) fun k => barPay (F := F) c (peer c k))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, #Hlev, Hc, HO, Hat⟩ Hk
  iapply (Rounds.wp_wait_rest_token 𝒱₀ ER (sched m) (c : Thread nD τ) none (κ := K (c, ixBar))
      (wpE_semWait_eq 𝒱₀ (c : Thread nD τ) none Set.univ) (Set.mem_univ _) () (O := OR c 15) (W := W) (R := 0) (m := 0) (T := ∅)
      (by rw [expect_bar m c])) $$ [Hc HO Hat]
  · isplitr; · iapply (inv_bar m K c); iexact HR
    isplitl [Hc]; · iexact Hc
    isplitl [HO]; · iexact HO
    isplitr; · iapply (mayWait_bar (F := F) c 15); iexact Hlev
    iexact Hat
  iintro ⟨HO, Hat, -, Hpay⟩
  ihave Hp := (Entails.of_eq ((rest_bar m c).trans (by rw [erase_eq_peers c, bigSep_image_of_injOn (peer_injOn c)]))) $$ Hpay
  iapply Hk
  isplitl [HO]; · iexact HO
  isplitl [Hat]; · iexact Hat
  iexact Hp

/-! ## The copies -/

/-- The own row, as every copy's source and (on the peer) destination. -/
abbrev ownRow (c : Dev nD) : Memref sig .tc .vmem S512 .f32 := rowOf (k0_off3 c) (k0_off3_inb c)
theorem ownRow_set (c : Dev nD) : (ownRow c).view.set = rowSet c.val := rowOf_set _ _ _ (k0_off3_eq c)

/-- While `i` copies remain (to `peer c (16 - i)` … `peer c 15`). -/
def SendSt (c : Dev nD) (i : ℕ) (W : Waits sig Unit) : sProp 𝕄 :=
  iprop(owes (c : Thread nD τ) (OR c i) W
    ∗ rowPts c c.val (remShare (15 - i)) (gathered m)
    ∗ (bigSep (Finset.Ico (16 - i) 16) fun k => iprop(dutyTok ER (sendCell c k) 0 (0 : Dev nD) ∗ dutyTok ER (recvCell (peer c k) c.val) 0 (0 : Dev nD) ∗ barPay (F := F) c (peer c k)))
    ∗ (bigSep (Finset.Ico 1 (16 - i)) fun k => cred (tallyAt (sendCell c k) () N)))

/-- The copy to `peer c (15 - i)`: it reads the own row through the next share and writes the peer's row `c`, which the
    peer's signal handed over; the peer's receive cell `c` is paid the gathered array's row, the own send cell the share. -/
theorem send_step (K : Dev nD × Fin 33 → ℕ) (c : Dev nD) (i : ℕ) (hi : i ≤ 14) (n : Dev nD) (hn : n = peer c (15 - i))
    (sS sR : SemLoc sig) (hsS : sS = .dma (sendSem (15 - i))) (hsR : sR = .dma (recvSem c.val)) (W : Waits sig Unit)
    {hsc : (ownRow c : Memref sig (Dev.tc n : Thread nD τ).2.kind .vmem S512 .f32).view.ref.isScScratch = false}
    {hsrc : (ownRow c).view.WordExact} {hdst : (ownRow c).view.WordExact}
    {hsem : DmaTarget.Typed .vmem sR (.remote (Dev.tc n : Thread nD τ) (ownRow c) sS hsc)}
    {α : Type} {Q : α → sProp 𝕄} {k : PUnit → Prog (TpuEff nD τ sig (Elt F) Λ₀ .tc) α} :
    iprop(records m K ∗ SendSt m c (i + 1) W)
      ⊢ iprop((SendSt m c i W -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownRow c) (.remote (Dev.tc n : Thread nD τ) (ownRow c) sS hsc) sR hsrc hdst hsem) k) Q) := by
  subst hn; subst hsS; subst hsR
  unfold SendSt
  have hc : c.val < 16 := c.isLt
  have e1 : 16 - (i + 1) = 15 - i := by omega
  have e2 : 15 - i + 1 = 16 - i := by omega
  have e3 : 15 - (i + 1) = 14 - i := by omega
  have hne : c.val ≠ (peer c (15 - i)).val := by rw [peer_val]; omega
  have hshare : remShare (14 - i) ∈ sndShare (15 - i) ·? remShare (15 - i) := by
    have h := share_split (14 - i); rwa [show 14 - i + 1 = 15 - i by omega] at h
  have hset := ownRow_set c
  rw [e1, bigSep_Ico_succ (by omega : 15 - i < 16), e2, e3]
  iintro ⟨#HR, HO, Hrow, ⟨⟨HtS, HtR, Hbp⟩, Hrest⟩, Hcr⟩ Hk
  unfold barPay
  icases Hbp with ⟨⟨%fd, Hdst⟩, #Hrch⟩
  unfold rowPts
  ihave Hsp := (pointsTo_share hshare).1 $$ Hrow
  icases Hsp with ⟨Hlend, Hkeep⟩
  have hrule := Rounds.wp_send_pointsTo (defs := defs₀ (F := F)) (Γ := .empty) 𝒱₀ ER (sched m) (c : Thread nD τ) none (c' := (peer c (15 - i) : Thread nD τ))
    (src := ownRow c) (dst := ownRow c) (hsc := hsc) (hsrc := hsrc) (hdst := hdst) (hsem := hsem) (k := k) (Q := Q)
    (q := sndShare (15 - i)) (fs := gathered m) (fd := fd)
    (κ₁ := K (c, ixSend (15 - i))) (κ₂ := K (peer c (15 - i), ixRecv c.val)) (r₁ := 0) (r₂ := 0) (d₁ := (0 : Dev nD)) (d₂ := (0 : Dev nD))
    (by rw [duties_send m c (15 - i) (by omega) (by omega)]; exact Finset.mem_singleton_self _)
    (by rw [duties_recv m (peer c (15 - i)) c.val hc hne]; exact Finset.mem_singleton_self _)
    () () N rfl (amount_send m c (15 - i) (by omega) 0) (amount_recv m (peer c (15 - i)) c.val hc 0) (OR c i) rfl (W := W) (Es := Set.univ)
    (by rw [payload_send m c (15 - i) (by omega), hset]; exact BI.Entails.refl _)
    (by
      rw [payload_recv m (peer c (15 - i)) c.val hc, hset]
      unfold recvPay rowPts
      exact Entails.of_eq (pointsTo_congr fun j hj => write_read_same (ownRow c).view fd (gathered m) j (hset ▸ hj)))
  rw [hset] at hrule
  iapply hrule $$ [HO HtS HtR Hdst Hlend]
  · isplitr; · iapply (inv_send m K c (15 - i)); iexact HR
    isplitr; · iapply (inv_recv m K (peer c (15 - i)) c.val); iexact HR
    isplitl [Hlend]; · iexact Hlend
    isplitl [Hdst]; · iexact Hdst
    isplitl [HO]; · iexact HO
    isplitl [HtS]; · iexact HtS
    isplitr; · iapply (reached_send m K c (15 - i)); iexact HR
    isplitl [HtR]; · iexact HtR
    iexact Hrch
  iintro ⟨Hc, HO⟩
  iapply Hk
  isplitl [HO]; · iexact HO
  isplitl [Hkeep]; · iexact Hkeep
  isplitl [Hrest]; · iexact Hrest
  have e5 : 16 - i = (15 - i) + 1 := by omega
  rw [e5, bigSep_Ico_last (by omega : 1 ≤ 15 - i)]
  isplitl [Hcr]; · iexact Hcr
  iexact Hc

/-! ## The receive waits -/

/-- While the receive waits on the cells of `peer c 1` … `peer c j` remain (the next one is `peer c j`'s). -/
def RecvSt (c : Dev nD) (j : ℕ) : sProp 𝕄 :=
  iprop((∃ W, owes (c : Thread nD τ) 0 W)
    ∗ (bigSep (Finset.Ico 1 (j + 1)) fun k => iprop(cred (tallyAt (recvCell c (peer c k).val) () N) ∗ atPos ER (recvCell c (peer c k).val) 0 ∅ 0))
    ∗ (bigSep (Finset.Ico (j + 1) 16) fun k => iprop(rowPts c (peer c k).val fullShare (gathered m) ∗ atPos ER (recvCell c (peer c k).val) 1 ∅ 0)))

/-- The wait on the receive cell of `peer c (j + 1)`'s number: the row that device copied is there. -/
theorem recv_step (K : Dev nD × Fin 33 → ℕ) (c : Dev nD) (j : ℕ) (hj : j ≤ 14) (q : DmaSem sig) (hq : q = recvSem (peer c (j + 1)).val)
    {sp sp' : Space} {s s' : Shape} {e e' : EltTy} {src : Memref sig .tc sp' s' e'} {dst : Memref sig .tc sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ RecvSt m c (j + 1))
      ⊢ iprop((RecvSt m c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold RecvSt
  have hc : c.val < 16 := c.isLt
  have hp : (peer c (j + 1)).val < 16 := (peer c (j + 1)).isLt
  have hne : (peer c (j + 1)).val ≠ c.val := by rw [peer_val]; omega
  rw [bigSep_Ico_last (by omega : 1 ≤ j + 1)]
  iintro ⟨#HR, ⟨%W, HO⟩, ⟨Hwait, ⟨Hc, Hat⟩⟩, Hdone⟩ Hk
  iapply (Rounds.wp_wait_rest_token 𝒱₀ ER (sched m) (c : Thread nD τ) none (κ := K (c, ixRecv (peer c (j + 1)).val))
      (wpE_waitDma2_eq 𝒱₀ (c : Thread nD τ) none Set.univ) (Set.mem_univ _) () (O := 0) (W := W) (R := 0) (m := 0) (T := ∅)
      (by rw [Nat.zero_add, expect_recv m c _ hp hne, hcr])) $$ [Hc HO Hat]
  · isplitr; · iapply (inv_recv m K c (peer c (j + 1)).val); iexact HR
    isplitl [Hc]; · rw [hcr]; iexact Hc
    isplitl [HO]; · iexact HO
    isplitr; · rw [MayWait_zero]; iempintro
    iexact Hat
  iintro ⟨HO, Hat, -, Hpay⟩
  ihave Hrow := (Entails.of_eq (rest_recv m c _ hp hne)) $$ Hpay
  iapply Hk
  isplitl [HO]; · iexists _; iexact HO
  isplitl [Hwait]; · iexact Hwait
  rw [bigSep_Ico_succ (by omega : j + 1 < 16) (fun k => iprop(rowPts c (peer c k).val fullShare (gathered m) ∗ atPos ER (recvCell c (peer c k).val) 1 ∅ 0))]
  isplitl [Hrow Hat]
  · isplitl [Hrow]; · unfold recvPay; iexact Hrow
    iexact Hat
  iexact Hdone

/-! ## The send waits -/

/-- After the send waits on the own send cells 1 … j. -/
def SendWSt (c : Dev nD) (j : ℕ) : sProp 𝕄 :=
  iprop((∃ W, owes (c : Thread nD τ) 0 W)
    ∗ (bigSep (Finset.Ico (j + 1) 16) fun k => iprop(cred (tallyAt (sendCell c k) () N) ∗ atPos ER (sendCell c k) 0 ∅ 0))
    ∗ (bigSep (Finset.Ico 1 (j + 1)) fun k => iprop(sendPay m c k ∗ atPos ER (sendCell c k) 1 ∅ 0)))

/-- The wait on the own send cell `j + 1`: the share copy `j + 1` read through comes back. -/
theorem sendw_step (K : Dev nD × Fin 33 → ℕ) (c : Dev nD) (j : ℕ) (hj : j ≤ 14) (q : DmaSem sig) (hq : q = sendSem (j + 1))
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ SendWSt m c j)
      ⊢ iprop((SendWSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold SendWSt
  rw [bigSep_Ico_succ (by omega : j + 1 < 16)]
  iintro ⟨#HR, ⟨%W, HO⟩, ⟨⟨Hc, Hat⟩, Hwait⟩, Hdone⟩ Hk
  iapply (Rounds.wp_wait_rest_token 𝒱₀ ER (sched m) (c : Thread nD τ) none (κ := K (c, ixSend (j + 1)))
      (wpE_waitDma2_eq 𝒱₀ (c : Thread nD τ) none Set.univ) (Set.mem_univ _) () (O := 0) (W := W) (R := 0) (m := 0) (T := ∅)
      (by rw [Nat.zero_add, expect_send m c (j + 1) (by omega) (by omega), hcr])) $$ [Hc HO Hat]
  · isplitr; · iapply (inv_send m K c (j + 1)); iexact HR
    isplitl [Hc]; · rw [hcr]; iexact Hc
    isplitl [HO]; · iexact HO
    isplitr; · rw [MayWait_zero]; iempintro
    iexact Hat
  iintro ⟨HO, Hat, -, Hpay⟩
  ihave Hrow := (Entails.of_eq (rest_send m c (j + 1) (by omega) (by omega))) $$ Hpay
  iapply Hk
  isplitl [HO]; · iexists _; iexact HO
  isplitl [Hwait]; · iexact Hwait
  rw [bigSep_Ico_last (by omega : 1 ≤ j + 1) (fun k => iprop(sendPay m c k ∗ atPos ER (sendCell c k) 1 ∅ 0))]
  isplitl [Hdone]; · iexact Hdone
  isplitl [Hrow]; · iexact Hrow
  iexact Hat

end Cert.Kernel.Coll

end
-- ==== Proof.WClose.lean ====
/-
  The end of the protocol on one device: the shares of the own row lent to the fifteen copies, all back, are the
  row whole again; the fifteen used send cells and the fifteen used receive cells, each past its one round, and the
  two cells that took part in nothing, close with their counters at zero. And its beginning: the row a device
  stores its sums of squares into then agrees with the gathered array.
-/
import proofs.«900466_g7700000000000467_dist_rmsnorm_colshard_i_m512_n256_v7x_i16_bf16_1_alg».proof.Proof.WSteps

noncomputable section

namespace Cert.Kernel.Coll

open Cert.Kernel Cert.Kernel.Gen

open Idealize.ShloMosaic
open Idealize.ShloMosaic.TcCoe Idealize.ShloMosaic.ValueIdx
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Ring (bigSep_Ico_succ bigSep_Ico_one)

variable {F : FTy → Type} [FloatOps F]

local notation "𝕄" => MT nD τ sig Unit (Elt F) ℕ UU ℕ

variable (m : (ℓ : Loc nD τ sig) → Buf (Elt F) ℓ)

/-! ## The shares rejoined -/

omit [FloatOps F] in
/-- What is left after `n` copies and the shares those copies read through make the row whole. -/
theorem join_shares (c : Dev nD) (f : Buf (Elt F) ((c : Thread nD τ).loc cc0_scratch0)) : ∀ n : ℕ,
    iprop(rowPts c c.val (remShare n) f ∗ bigSep (Finset.Ico 1 (n + 1)) fun k => rowPts c c.val (sndShare k) f)
      ⊢ (rowPts c c.val fullShare f : sProp 𝕄)
  | 0 => by
    rw [show Finset.Ico 1 (0 + 1) = (∅ : Finset ℕ) by decide, bigSep_empty]
    iintro ⟨H, -⟩; iexact H
  | n + 1 => by
    rw [bigSep_Ico_last (by omega : 1 ≤ n + 1) (fun k => rowPts c c.val (sndShare k) f)]
    have hj : iprop(rowPts c c.val (sndShare (n + 1)) f ∗ rowPts c c.val (remShare (n + 1)) f) ⊢ (rowPts c c.val (remShare n) f : sProp 𝕄) := by
      unfold rowPts; exact (pointsTo_share (share_split n)).2
    iintro ⟨Hrem, Hrest, Hlast⟩
    ihave H := hj $$ [Hlast Hrem]
    · isplitl [Hlast]; · iexact Hlast
      iexact Hrem
    iapply (join_shares c f n)
    isplitl [H]; · iexact H
    iexact Hrest

/-! ## The cells closed -/

/-- A send cell past its one round closes. -/
theorem close_send (K : Dev nD × Fin 33 → ℕ) (c : Dev nD) (k : ℕ) :
    iprop(records m K ∗ atPos ER (sendCell c k) 1 ∅ 0) ⊢ (|={Set.univ}=> semVal (sendCell c k) 0 : sProp 𝕄) :=
  (sep_mono_left (inv_send m K c k)).trans
    (Rounds.cell_close ER (sched m) (Set.mem_univ _) (fun h => h) (R := 1) (duties_later m (sendCell c k)))
theorem close_recv (K : Dev nD × Fin 33 → ℕ) (c : Dev nD) (s : ℕ) :
    iprop(records m K ∗ atPos ER (recvCell c s) 1 ∅ 0) ⊢ (|={Set.univ}=> semVal (recvCell c s) 0 : sProp 𝕄) :=
  (sep_mono_left (inv_recv m K c s)).trans
    (Rounds.cell_close ER (sched m) (Set.mem_univ _) (fun h => h) (R := 1) (duties_later m (recvCell c s)))
/-- The two cells that took part in nothing close at round 0. -/
theorem close_send_zero (K : Dev nD × Fin 33 → ℕ) (c : Dev nD) :
    iprop(records m K ∗ atPos ER (sendCell c 0) 0 ∅ 0) ⊢ (|={Set.univ}=> semVal (sendCell c 0) 0 : sProp 𝕄) :=
  (sep_mono_left (inv_send m K c 0)).trans
    (Rounds.cell_close ER (sched m) (Set.mem_univ _) (fun h => h) (R := 0) (duties_send_zero m c))
theorem close_recv_self (K : Dev nD × Fin 33 → ℕ) (c : Dev nD) :
    iprop(records m K ∗ atPos ER (recvCell c c.val) 0 ∅ 0) ⊢ (|={Set.univ}=> semVal (recvCell c c.val) 0 : sProp 𝕄) :=
  (sep_mono_left (inv_recv m K c c.val)).trans
    (Rounds.cell_close ER (sched m) (Set.mem_univ _) (fun h => h) (R := 0) (duties_recv_self m c))

theorem peer_zero (c : Dev nD) : (peer c 0).val = c.val := by
  rw [peer_val]; have := c.isLt; have h16 : c.val < 16 := c.isLt; omega

/-- All sixteen send cells close. -/
theorem close_sends (K : Dev nD × Fin 33 → ℕ) (c : Dev nD) :
    iprop(records m K ∗ atPos ER (sendCell c 0) 0 ∅ 0 ∗ bigSep (Finset.Ico 1 16) fun k => atPos ER (sendCell c k) 1 ∅ 0)
      ⊢ (|={Set.univ}=> bigSep (Finset.Ico 0 16) fun k => semVal (sendCell c k) 0 : sProp 𝕄) := by
  iintro ⟨#HR, H0, Hr⟩
  imod (close_send_zero m K c) $$ [H0] with Hz
  · isplitr; · iexact HR
    iexact H0
  imod ((bigSep_with_persistent (R := records m K) fun k _ => close_send m K c k).trans (bigSep_fupd _ _)) $$ [Hr] with Hs
  · isplitr; · iexact HR
    iexact Hr
  imodintro
  rw [bigSep_Ico_succ (by omega : 0 < 16) (fun k => semVal (sendCell c k) 0)]
  isplitl [Hz]; · iexact Hz
  iexact Hs

/-- All sixteen receive cells close (receive cell `(peer c k).val`, `k = 0 … 15`: `k = 0` is the own number's). -/
theorem close_recvs (K : Dev nD × Fin 33 → ℕ) (c : Dev nD) :
    iprop(records m K ∗ atPos ER (recvCell c (peer c 0).val) 0 ∅ 0 ∗ bigSep (Finset.Ico 1 16) fun k => atPos ER (recvCell c (peer c k).val) 1 ∅ 0)
      ⊢ (|={Set.univ}=> bigSep (Finset.Ico 0 16) fun k => semVal (recvCell c (peer c k).val) 0 : sProp 𝕄) := by
  rw [bigSep_Ico_succ (by omega : 0 < 16) (fun k => semVal (recvCell c (peer c k).val) 0), peer_zero c]
  iintro ⟨#HR, H0, Hr⟩
  imod (close_recv_self m K c) $$ [H0] with Hz
  · isplitr; · iexact HR
    iexact H0
  imod ((bigSep_with_persistent (R := records m K) fun k _ => close_recv m K c (peer c k).val).trans (bigSep_fupd _ _)) $$ [Hr] with Hs
  · isplitr; · iexact HR
    iexact Hr
  imodintro
  isplitl [Hz]; · iexact Hz
  iexact Hs

/-! ## The stored row -/

/-- The rectangle a device stores its sums of squares through. -/
abbrev storeRect (c : Dev nD) : Rect S16x512 := Rect.unit (s := S16x512) (k0_off1 c) S1x512.size (k0_off1_inb c)

theorem storeRect_set (c : Dev nD) : (storeRect c).set = rowSet c.val := rowRect_set _ _ _ (k0_off1_eq c)

/-- After the store, row `c` of device `c`'s buffer agrees with the gathered array. -/
theorem gathered_apply (i : S16x512.Idx) : gathered m i = k0_pay3 (xblk m (i 0)) (ix2 (0 : Fin 1) (i 1)) := rfl

theorem stored_row (c : Dev nD) (f : Buf (Elt F) ((c : Thread nD τ).loc cc0_scratch0)) :
    ∀ i ∈ rowSet c.val,
      (((PM : Memref sig .tc .vmem S16x512 .f32).access (storeRect c) : View sig .tc _ _ _).write (Elt F) f (k0_pay3 (xblk m c)) Finset.univ) i
        = gathered m i := by
  intro i hi
  have hset : ((PM : Memref sig .tc .vmem S16x512 .f32).access (storeRect c) : View sig .tc _ _ _).set = rowSet c.val := by
    show ((View.whole cc0_scratch0 : View sig .tc _ _ _).slice (storeRect c)).set = _
    rw [View.set_slice_whole]; exact storeRect_set c
  obtain ⟨y, rfl⟩ := View.exists_emb_of_mem_set _ (hset ▸ hi)
  rw [View.write_emb_of_mem _ _ (Finset.mem_univ y)]
  have h0 : (((PM : Memref sig .tc .vmem S16x512 .f32).access (storeRect c) : View sig .tc _ _ _).emb y) 0 = c := Fin.ext (mem_rowSet.mp hi)
  have hsz : (storeRect c).shape.size 0 = 1 := rfl
  have hy0 : ((y 0) : ℕ) = 0 := by have := (y 0).isLt; omega
  have h1 : ((((PM : Memref sig .tc .vmem S16x512 .f32).access (storeRect c) : View sig .tc _ _ _).emb y) 1 : ℕ) = (y 1 : ℕ) := by
    show (k0_off1 c) 1 + 1 * (y 1 : ℕ) = _
    rw [k0_off1_eq c]; show 0 + 1 * (y 1 : ℕ) = _; omega
  have hyy : (ix2 (0 : Fin 1) ((((PM : Memref sig .tc .vmem S16x512 .f32).access (storeRect c) : View sig .tc _ _ _).emb y) 1 : Fin 512) : S1x512.Idx) = y := by
    funext a
    match a with
    | ⟨0, _⟩ => exact Fin.ext hy0.symm
    | ⟨1, _⟩ => exact Fin.ext h1
  refine (cast_eq _ _).trans ?_
  rw [gathered_apply, h0]
  exact congrArg (k0_pay3 (xblk m c)) hyy.symm

end Cert.Kernel.Coll

end
-- ==== Proof.WBody.lean ====
/-
  One thread's body, stepped through the protocol from what the launch hands the device to what the pipeline takes
  back: the fifteen signals, the block's sums of squares stored into the own row, the barrier wait, the fifteen
  copies, `gamma · x` stored, the fifteen receive waits and the fifteen send waits, the cells closed, the gather
  buffer reassembled from its sixteen rows, and the normalised block stored into the result's staging buffer.
-/
import proofs.«900466_g7700000000000467_dist_rmsnorm_colshard_i_m512_n256_v7x_i16_bf16_1_alg».proof.Proof.WClose

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Ring (bigSep_Ico_succ bigSep_Ico_one)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 33 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 15)
      ∗ (bigSep (Finset.Ico 1 16) fun k => cred (tallyAt (recvCell c (peer c k).val) () N)) ∗ levAts L lv
      ∗ (∃ f, scr0 c f) ∗ ∃ f, scr1 c f)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xblk m c) ∗ stg c cc0_stg1_0 (gblk m c) ∗ stg c cc0_stg2_0 (outAt m c))

abbrev r0x : Rect S512x256 := Rect.unit (s := S512x256) ![0, 0] S512x256.size inb_S512x256_S512x256_0_0
abbrev r0g : Rect S256 := Rect.unit (s := S256) ![0] S256.size inb_S256_S256_0
abbrev r0p : Rect S16x512 := Rect.unit (s := S16x512) ![0, 0] S16x512.size inb_S16x512_S16x512_0_0

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
theorem read_x (f : (cc0_stg0_0 : Ref sig .tc).ty.Contents (Elt F)) :
    (Memref.whole cc0_stg0_0 : Memref sig .tc .vmem S512x256 .f32).view.readAt (Elt F) r0x.toLoadRect f = f :=
  Memref.readAt_unit_zero (Elt F) cc0_stg0_0 hz2 _ f
omit [FloatOps F] in
theorem read_g (f : (cc0_stg1_0 : Ref sig .tc).ty.Contents (Elt F)) :
    (Memref.whole cc0_stg1_0 : Memref sig .tc .vmem S256 .f32).view.readAt (Elt F) r0g.toLoadRect f = f :=
  Memref.readAt_unit_zero (Elt F) cc0_stg1_0 hz1 _ f
omit [FloatOps F] in
theorem read_y (f : (cc0_scratch1 : Ref sig .tc).ty.Contents (Elt F)) :
    (Memref.whole cc0_scratch1 : Memref sig .tc .vmem S512x256 .f32).view.readAt (Elt F) r0x.toLoadRect f = f :=
  Memref.readAt_unit_zero (Elt F) cc0_scratch1 hz2 _ f
omit [FloatOps F] in
theorem read_p (f : (cc0_scratch0 : Ref sig .tc).ty.Contents (Elt F)) :
    (Memref.whole cc0_scratch0 : Memref sig .tc .vmem S16x512 .f32).view.readAt (Elt F) r0p.toLoadRect f = f :=
  Memref.readAt_unit_zero (Elt F) cc0_scratch0 hz2 _ f
omit [FloatOps F] in
theorem write_y (f w : (cc0_scratch1 : Ref sig .tc).ty.Contents (Elt F)) :
    (((Memref.whole cc0_scratch1 : Memref sig .tc .vmem S512x256 .f32).access r0x : View sig .tc _ _ _).write (Elt F) f w Finset.univ) = w :=
  Memref.write_access_unit_zero_univ (Elt F) cc0_scratch1 hz2 _ f w
omit [FloatOps F] in
theorem write_out (f w : (cc0_stg2_0 : Ref sig .tc).ty.Contents (Elt F)) :
    (((Memref.whole cc0_stg2_0 : Memref sig .tc .vmem S512x256 .bf16).access r0x : View sig .tc _ _ _).write (Elt F) f w Finset.univ) = w :=
  Memref.write_access_unit_zero_univ (Elt F) cc0_stg2_0 hz2 _ f w

theorem storeView_set (c : Dev nD) :
    ((PM : Memref sig .tc .vmem S16x512 .f32).access (storeRect c) : View sig .tc _ _ _).set = rowSet c.val := by
  show ((View.whole cc0_scratch0 : View sig .tc _ _ _).slice (storeRect c)).set = _
  rw [View.set_slice_whole]; exact storeRect_set c

/-- Every row slice of the gather buffer has the same transfer credit. -/
theorem rowOf_credit (off : Fin 2 → ℕ) (inb : ∀ a, off a + S1x512.size a ≤ S16x512.size a) : (rowOf off inb).view.dmaCredit = N := rfl

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyPre ghost
  iintro ⟨⟨⟨⟨#HR, HatB, HatS, HatV, HtB, HtR, HtS⟩, HcB, HcV, #Hlev, ⟨%f0, Hscr0⟩, ⟨%f1, Hscr1⟩⟩, Ho, ⟨%d0, %g0, %hg0, Hx⟩, ⟨%d1, %g1, %hg1, Hg⟩, ⟨%d2, %g2, %hg2, Hout⟩⟩, Hk⟩
  have hx : g0 = xblk m c := by
    rw [hg0]; unfold Dat.before; rw [if_pos (fetch0_0 t0_0)]; rfl
  have hg : g1 = gblk m c := by
    rw [hg1]; unfold Dat.before; rw [if_pos (fetch0_1 t0_0)]; rfl
  subst hx; subst hg
  unfold Dat.owesAt Pipeline.owesWithin
  icases Ho with ⟨%W, %hW, HO⟩
  rw [show (dats m 0 c).owed t0_0.castSucc = O₀ c from rfl]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c]
  -- the gather buffer by rows: the own row kept, each peer's row to go with the signal to that peer
  unfold scr0
  ihave Hrows := (Entails.of_eq (scr_rows c fullShare f0)) $$ Hscr0
  icases Hrows with ⟨Hown, Hpeers⟩
  ihave HSig := (show iprop(owes (c : Thread nD τ) (O₀ c) W ∗ (bigSep (Finset.Ico 1 16) fun k => dutyTok ER (barCell (peer c k)) 0 c)
        ∗ (bigSep (Finset.Ico 1 16) fun k => rowPts c (peer c k).val fullShare f0)) ⊢ SigSt c 15 W f0 from by
      unfold SigSt O₀; rw [bigSep_sep']) $$ [HO HtB Hpeers]
  · isplitl [HO]; · iexact HO
    isplitl [HtB]; · iexact HtB
    iexact Hpeers
  -- the fifteen signals
  iapply (sig_step m K c 14 (by decide) _ rfl W f0) $$ [HSig]
  · isplitr; · iexact HR
    iexact HSig
  iintro HSig
  iapply (sig_step m K c 13 (by decide) _ rfl W f0) $$ [HSig]
  · isplitr; · iexact HR
    iexact HSig
  iintro HSig
  iapply (sig_step m K c 12 (by decide) _ rfl W f0) $$ [HSig]
  · isplitr; · iexact HR
    iexact HSig
  iintro HSig
  iapply (sig_step m K c 11 (by decide) _ rfl W f0) $$ [HSig]
  · isplitr; · iexact HR
    iexact HSig
  iintro HSig
  iapply (sig_step m K c 10 (by decide) _ rfl W f0) $$ [HSig]
  · isplitr; · iexact HR
    iexact HSig
  iintro HSig
  iapply (sig_step m K c 9 (by decide) _ rfl W f0) $$ [HSig]
  · isplitr; · iexact HR
    iexact HSig
  iintro HSig
  iapply (sig_step m K c 8 (by decide) _ rfl W f0) $$ [HSig]
  · isplitr; · iexact HR
    iexact HSig
  iintro HSig
  iapply (sig_step m K c 7 (by decide) _ rfl W f0) $$ [HSig]
  · isplitr; · iexact HR
    iexact HSig
  iintro HSig
  iapply (sig_step m K c 6 (by decide) _ rfl W f0) $$ [HSig]
  · isplitr; · iexact HR
    iexact HSig
  iintro HSig
  iapply (sig_step m K c 5 (by decide) _ rfl W f0) $$ [HSig]
  · isplitr; · iexact HR
    iexact HSig
  iintro HSig
  iapply (sig_step m K c 4 (by decide) _ rfl W f0) $$ [HSig]
  · isplitr; · iexact HR
    iexact HSig
  iintro HSig
  iapply (sig_step m K c 3 (by decide) _ rfl W f0) $$ [HSig]
  · isplitr; · iexact HR
    iexact HSig
  iintro HSig
  iapply (sig_step m K c 2 (by decide) _ rfl W f0) $$ [HSig]
  · isplitr; · iexact HR
    iexact HSig
  iintro HSig
  iapply (sig_step m K c 1 (by decide) _ rfl W f0) $$ [HSig]
  · isplitr; · iexact HR
    iexact HSig
  iintro HSig
  iapply (sig_step m K c 0 (by decide) _ rfl W f0) $$ [HSig]
  · isplitr; · iexact HR
    iexact HSig
  iintro HSig
  unfold SigSt
  icases HSig with ⟨HO, -⟩
  rw [show OB c 0 = OR c 15 from rfl]
  -- the block's sums of squares into the own row
  iapply (wp_load 𝒱₀ (c : Thread nD τ) none Set.univ (m := Memref.whole cc0_stg0_0) (Finset.subset_univ _)) $$ Hx; iintro Hx
  rw [read_x]
  unfold rowPts
  iapply (wp_load_rect 𝒱₀ (c : Thread nD τ) none Set.univ (m := (PM : Memref sig .tc .vmem S16x512 .f32)) (r := storeRect c) (S := rowSet c.val)
    (subset_of_eq (storeView_set c))) $$ Hown; iintro Hown
  iapply (wp_store 𝒱₀ (c : Thread nD τ) none Set.univ (m := (PM : Memref sig .tc .vmem S16x512 .f32)) (r := storeRect c) (Mk := Finset.univ) (S := rowSet c.val)
    (subset_of_eq (storeView_set c))) $$ Hown; iintro Hown
  ihave Hown := (Entails.of_eq (pointsTo_congr (stored_row m c f0))) $$ Hown
  -- the barrier wait: every peer's row `c` comes with it
  iapply (bar_wait m K c W) $$ [HcB HO HatB]
  · isplitr; · iexact HR
    isplitr; · iexact Hlev
    isplitl [HcB]; · iexact HcB
    isplitl [HO]; · iexact HO
    iexact HatB
  iintro ⟨HO, HatB, Hbp⟩
  ihave HSend := (show iprop(owes (c : Thread nD τ) (OR c 15) (insert (SemLoc.reg barS, ()) W)
        ∗ (((c : Thread nD τ).loc cc0_scratch0) ↦[rowSet c.val]{fullShare} gathered m)
        ∗ (bigSep (Finset.Ico 1 16) fun k => dutyTok ER (sendCell c k) 0 (0 : Dev nD))
        ∗ (bigSep (Finset.Ico 1 16) fun k => dutyTok ER (recvCell (peer c k) c.val) 0 (0 : Dev nD))
        ∗ (bigSep (Finset.Ico 1 16) fun k => barPay (F := F) c (peer c k))) ⊢ SendSt m c 15 (insert (SemLoc.reg barS, ()) W) from by
      unfold SendSt rowPts
      rw [bigSep_sep', bigSep_sep', show Finset.Ico 1 (16 - 15) = (∅ : Finset ℕ) from by decide, bigSep_empty]
      iintro ⟨H1, H2, H3, H4, H5⟩
      isplitl [H1]; · iexact H1
      isplitl [H2]; · iexact H2
      isplitl [H3 H4 H5]
      · isplitl [H3]; · iexact H3
        isplitl [H4]; · iexact H4
        iexact H5
      iempintro) $$ [HO Hown HtS HtR Hbp]
  · isplitl [HO]; · iexact HO
    isplitl [Hown]; · iexact Hown
    isplitl [HtS]; · iexact HtS
    isplitl [HtR]; · iexact HtR
    iexact Hbp
  -- the fifteen copies
  iapply (send_step m K c 14 (by decide) _ (dev16_eq c) _ _ (congrArg SemLoc.dma sendSem1_eq) (congrArg SemLoc.dma (recvSemOwn_eq c)) _) $$ [HSend]
  · isplitr; · iexact HR
    iexact HSend
  iintro HSend
  iapply (send_step m K c 13 (by decide) _ (dev17_eq c) _ _ (congrArg SemLoc.dma sendSem2_eq) (congrArg SemLoc.dma (recvSemOwn_eq c)) _) $$ [HSend]
  · isplitr; · iexact HR
    iexact HSend
  iintro HSend
  iapply (send_step m K c 12 (by decide) _ (dev18_eq c) _ _ (congrArg SemLoc.dma sendSem3_eq) (congrArg SemLoc.dma (recvSemOwn_eq c)) _) $$ [HSend]
  · isplitr; · iexact HR
    iexact HSend
  iintro HSend
  iapply (send_step m K c 11 (by decide) _ (dev19_eq c) _ _ (congrArg SemLoc.dma sendSem4_eq) (congrArg SemLoc.dma (recvSemOwn_eq c)) _) $$ [HSend]
  · isplitr; · iexact HR
    iexact HSend
  iintro HSend
  iapply (send_step m K c 10 (by decide) _ (dev20_eq c) _ _ (congrArg SemLoc.dma sendSem5_eq) (congrArg SemLoc.dma (recvSemOwn_eq c)) _) $$ [HSend]
  · isplitr; · iexact HR
    iexact HSend
  iintro HSend
  iapply (send_step m K c 9 (by decide) _ (dev21_eq c) _ _ (congrArg SemLoc.dma sendSem6_eq) (congrArg SemLoc.dma (recvSemOwn_eq c)) _) $$ [HSend]
  · isplitr; · iexact HR
    iexact HSend
  iintro HSend
  iapply (send_step m K c 8 (by decide) _ (dev22_eq c) _ _ (congrArg SemLoc.dma sendSem7_eq) (congrArg SemLoc.dma (recvSemOwn_eq c)) _) $$ [HSend]
  · isplitr; · iexact HR
    iexact HSend
  iintro HSend
  iapply (send_step m K c 7 (by decide) _ (dev23_eq c) _ _ (congrArg SemLoc.dma sendSem8_eq) (congrArg SemLoc.dma (recvSemOwn_eq c)) _) $$ [HSend]
  · isplitr; · iexact HR
    iexact HSend
  iintro HSend
  iapply (send_step m K c 6 (by decide) _ (dev24_eq c) _ _ (congrArg SemLoc.dma sendSem9_eq) (congrArg SemLoc.dma (recvSemOwn_eq c)) _) $$ [HSend]
  · isplitr; · iexact HR
    iexact HSend
  iintro HSend
  iapply (send_step m K c 5 (by decide) _ (dev25_eq c) _ _ (congrArg SemLoc.dma sendSem10_eq) (congrArg SemLoc.dma (recvSemOwn_eq c)) _) $$ [HSend]
  · isplitr; · iexact HR
    iexact HSend
  iintro HSend
  iapply (send_step m K c 4 (by decide) _ (dev26_eq c) _ _ (congrArg SemLoc.dma sendSem11_eq) (congrArg SemLoc.dma (recvSemOwn_eq c)) _) $$ [HSend]
  · isplitr; · iexact HR
    iexact HSend
  iintro HSend
  iapply (send_step m K c 3 (by decide) _ (dev27_eq c) _ _ (congrArg SemLoc.dma sendSem12_eq) (congrArg SemLoc.dma (recvSemOwn_eq c)) _) $$ [HSend]
  · isplitr; · iexact HR
    iexact HSend
  iintro HSend
  iapply (send_step m K c 2 (by decide) _ (dev28_eq c) _ _ (congrArg SemLoc.dma sendSem13_eq) (congrArg SemLoc.dma (recvSemOwn_eq c)) _) $$ [HSend]
  · isplitr; · iexact HR
    iexact HSend
  iintro HSend
  iapply (send_step m K c 1 (by decide) _ (dev29_eq c) _ _ (congrArg SemLoc.dma sendSem14_eq) (congrArg SemLoc.dma (recvSemOwn_eq c)) _) $$ [HSend]
  · isplitr; · iexact HR
    iexact HSend
  iintro HSend
  iapply (send_step m K c 0 (by decide) _ (dev30_eq c) _ _ (congrArg SemLoc.dma sendSem15_eq) (congrArg SemLoc.dma (recvSemOwn_eq c)) _) $$ [HSend]
  · isplitr; · iexact HR
    iexact HSend
  iintro HSend
  unfold SendSt
  icases HSend with ⟨HO, Hkeep, -, Hcs⟩
  rw [show OR c 0 = (0 : CellTallies nD τ sig Unit) from rfl]
  -- gamma · x into the second scratch buffer
  iapply (wp_load 𝒱₀ (c : Thread nD τ) none Set.univ (m := Memref.whole cc0_stg1_0) (Finset.subset_univ _)) $$ Hg; iintro Hg
  rw [read_g]
  unfold scr1
  iapply (wp_load 𝒱₀ (c : Thread nD τ) none Set.univ (m := Memref.whole cc0_scratch1) (Finset.subset_univ _)) $$ Hscr1; iintro Hscr1
  iapply (wp_store 𝒱₀ (c : Thread nD τ) none Set.univ (m := Memref.whole cc0_scratch1) (r := r0x) (Mk := Finset.univ) (Finset.subset_univ _)) $$ Hscr1; iintro Hscr1
  rw [write_y]
  -- the fifteen receive waits
  ihave HatV' := (Entails.of_eq (bigSep_Ico_succ (by decide : 0 < 16) (fun k => atPos ER (recvCell c (peer c k).val) 0 ∅ 0))) $$ HatV
  icases HatV' with ⟨HatV0, HatV⟩
  ihave HRecv := (show iprop(owes (c : Thread nD τ) 0 (insert (SemLoc.reg barS, ()) W)
        ∗ (bigSep (Finset.Ico 1 16) fun k => cred (tallyAt (recvCell c (peer c k).val) () N))
        ∗ (bigSep (Finset.Ico (0 + 1) 16) fun k => atPos ER (recvCell c (peer c k).val) 0 ∅ 0)) ⊢ RecvSt m c 15 from by
      unfold RecvSt
      rw [bigSep_sep', show Finset.Ico (15 + 1) 16 = (∅ : Finset ℕ) from by decide, bigSep_empty]
      iintro ⟨H1, H2, H3⟩
      isplitl [H1]; · iexists _; iexact H1
      isplitl [H2 H3]
      · isplitl [H2]; · iexact H2
        iexact H3
      iempintro) $$ [HO HcV HatV]
  · isplitl [HO]; · iexact HO
    isplitl [HcV]; · iexact HcV
    iexact HatV
  iapply (recv_step m K c 14 (by decide) _ (recvSemWait_eq c 0) (rowOf_credit _ _)) $$ [HRecv]
  · isplitr; · iexact HR
    iexact HRecv
  iintro HRecv
  iapply (recv_step m K c 13 (by decide) _ (recvSemWait_eq c 1) (rowOf_credit _ _)) $$ [HRecv]
  · isplitr; · iexact HR
    iexact HRecv
  iintro HRecv
  iapply (recv_step m K c 12 (by decide) _ (recvSemWait_eq c 2) (rowOf_credit _ _)) $$ [HRecv]
  · isplitr; · iexact HR
    iexact HRecv
  iintro HRecv
  iapply (recv_step m K c 11 (by decide) _ (recvSemWait_eq c 3) (rowOf_credit _ _)) $$ [HRecv]
  · isplitr; · iexact HR
    iexact HRecv
  iintro HRecv
  iapply (recv_step m K c 10 (by decide) _ (recvSemWait_eq c 4) (rowOf_credit _ _)) $$ [HRecv]
  · isplitr; · iexact HR
    iexact HRecv
  iintro HRecv
  iapply (recv_step m K c 9 (by decide) _ (recvSemWait_eq c 5) (rowOf_credit _ _)) $$ [HRecv]
  · isplitr; · iexact HR
    iexact HRecv
  iintro HRecv
  iapply (recv_step m K c 8 (by decide) _ (recvSemWait_eq c 6) (rowOf_credit _ _)) $$ [HRecv]
  · isplitr; · iexact HR
    iexact HRecv
  iintro HRecv
  iapply (recv_step m K c 7 (by decide) _ (recvSemWait_eq c 7) (rowOf_credit _ _)) $$ [HRecv]
  · isplitr; · iexact HR
    iexact HRecv
  iintro HRecv
  iapply (recv_step m K c 6 (by decide) _ (recvSemWait_eq c 8) (rowOf_credit _ _)) $$ [HRecv]
  · isplitr; · iexact HR
    iexact HRecv
  iintro HRecv
  iapply (recv_step m K c 5 (by decide) _ (recvSemWait_eq c 9) (rowOf_credit _ _)) $$ [HRecv]
  · isplitr; · iexact HR
    iexact HRecv
  iintro HRecv
  iapply (recv_step m K c 4 (by decide) _ (recvSemWait_eq c 10) (rowOf_credit _ _)) $$ [HRecv]
  · isplitr; · iexact HR
    iexact HRecv
  iintro HRecv
  iapply (recv_step m K c 3 (by decide) _ (recvSemWait_eq c 11) (rowOf_credit _ _)) $$ [HRecv]
  · isplitr; · iexact HR
    iexact HRecv
  iintro HRecv
  iapply (recv_step m K c 2 (by decide) _ (recvSemWait_eq c 12) (rowOf_credit _ _)) $$ [HRecv]
  · isplitr; · iexact HR
    iexact HRecv
  iintro HRecv
  iapply (recv_step m K c 1 (by decide) _ (recvSemWait_eq c 13) (rowOf_credit _ _)) $$ [HRecv]
  · isplitr; · iexact HR
    iexact HRecv
  iintro HRecv
  iapply (recv_step m K c 0 (by decide) _ (recvSemWait_eq c 14) (rowOf_credit _ _)) $$ [HRecv]
  · isplitr; · iexact HR
    iexact HRecv
  iintro HRecv
  unfold RecvSt
  icases HRecv with ⟨⟨%W3, HO⟩, -, Hlanded⟩
  -- the fifteen send waits
  ihave HatS' := (Entails.of_eq (bigSep_Ico_succ (by decide : 0 < 16) (fun k => atPos ER (sendCell c k) 0 ∅ 0))) $$ HatS
  icases HatS' with ⟨HatS0, HatS⟩
  ihave HSw := (show iprop(owes (c : Thread nD τ) 0 W3
        ∗ (bigSep (Finset.Ico 1 (16 - 0)) fun k => cred (tallyAt (sendCell c k) () N))
        ∗ (bigSep (Finset.Ico (0 + 1) 16) fun k => atPos ER (sendCell c k) 0 ∅ 0)) ⊢ SendWSt m c 0 from by
      unfold SendWSt
      rw [bigSep_sep', show Finset.Ico 1 (0 + 1) = (∅ : Finset ℕ) from by decide, bigSep_empty]
      iintro ⟨H1, H2, H3⟩
      isplitl [H1]; · iexists _; iexact H1
      isplitl [H2 H3]
      · isplitl [H2]; · iexact H2
        iexact H3
      iempintro) $$ [HO Hcs HatS]
  · isplitl [HO]; · iexact HO
    isplitl [Hcs]; · iexact Hcs
    iexact HatS
  iapply (sendw_step m K c 0 (by decide) _ sendSem1_eq (rowOf_credit _ _)) $$ [HSw]
  · isplitr; · iexact HR
    iexact HSw
  iintro HSw
  iapply (sendw_step m K c 1 (by decide) _ sendSem2_eq (rowOf_credit _ _)) $$ [HSw]
  · isplitr; · iexact HR
    iexact HSw
  iintro HSw
  iapply (sendw_step m K c 2 (by decide) _ sendSem3_eq (rowOf_credit _ _)) $$ [HSw]
  · isplitr; · iexact HR
    iexact HSw
  iintro HSw
  iapply (sendw_step m K c 3 (by decide) _ sendSem4_eq (rowOf_credit _ _)) $$ [HSw]
  · isplitr; · iexact HR
    iexact HSw
  iintro HSw
  iapply (sendw_step m K c 4 (by decide) _ sendSem5_eq (rowOf_credit _ _)) $$ [HSw]
  · isplitr; · iexact HR
    iexact HSw
  iintro HSw
  iapply (sendw_step m K c 5 (by decide) _ sendSem6_eq (rowOf_credit _ _)) $$ [HSw]
  · isplitr; · iexact HR
    iexact HSw
  iintro HSw
  iapply (sendw_step m K c 6 (by decide) _ sendSem7_eq (rowOf_credit _ _)) $$ [HSw]
  · isplitr; · iexact HR
    iexact HSw
  iintro HSw
  iapply (sendw_step m K c 7 (by decide) _ sendSem8_eq (rowOf_credit _ _)) $$ [HSw]
  · isplitr; · iexact HR
    iexact HSw
  iintro HSw
  iapply (sendw_step m K c 8 (by decide) _ sendSem9_eq (rowOf_credit _ _)) $$ [HSw]
  · isplitr; · iexact HR
    iexact HSw
  iintro HSw
  iapply (sendw_step m K c 9 (by decide) _ sendSem10_eq (rowOf_credit _ _)) $$ [HSw]
  · isplitr; · iexact HR
    iexact HSw
  iintro HSw
  iapply (sendw_step m K c 10 (by decide) _ sendSem11_eq (rowOf_credit _ _)) $$ [HSw]
  · isplitr; · iexact HR
    iexact HSw
  iintro HSw
  iapply (sendw_step m K c 11 (by decide) _ sendSem12_eq (rowOf_credit _ _)) $$ [HSw]
  · isplitr; · iexact HR
    iexact HSw
  iintro HSw
  iapply (sendw_step m K c 12 (by decide) _ sendSem13_eq (rowOf_credit _ _)) $$ [HSw]
  · isplitr; · iexact HR
    iexact HSw
  iintro HSw
  iapply (sendw_step m K c 13 (by decide) _ sendSem14_eq (rowOf_credit _ _)) $$ [HSw]
  · isplitr; · iexact HR
    iexact HSw
  iintro HSw
  iapply (sendw_step m K c 14 (by decide) _ sendSem15_eq (rowOf_credit _ _)) $$ [HSw]
  · isplitr; · iexact HR
    iexact HSw
  iintro HSw
  unfold SendWSt
  icases HSw with ⟨⟨%W4, HO⟩, -, Hback⟩
  ihave Hl := (show (bigSep (Finset.Ico (0 + 1) 16) fun k => iprop(rowPts c (peer c k).val fullShare (gathered m) ∗ atPos ER (recvCell c (peer c k).val) 1 ∅ 0))
      ⊢ iprop((bigSep (Finset.Ico (0 + 1) 16) fun k => rowPts c (peer c k).val fullShare (gathered m)) ∗ bigSep (Finset.Ico (0 + 1) 16) fun k => atPos ER (recvCell c (peer c k).val) 1 ∅ 0)
      from Entails.of_eq (bigSep_sep' _ _ _)) $$ Hlanded
  icases Hl with ⟨Hrowsin, HatV⟩
  ihave Hb := (show (bigSep (Finset.Ico 1 (14 + 1 + 1)) fun k => iprop(sendPay m c k ∗ atPos ER (sendCell c k) 1 ∅ 0))
      ⊢ iprop((bigSep (Finset.Ico 1 (15 + 1)) fun k => sendPay m c k) ∗ bigSep (Finset.Ico 1 16) fun k => atPos ER (sendCell c k) 1 ∅ 0)
      from Entails.of_eq (bigSep_sep' _ _ _)) $$ Hback
  icases Hb with ⟨Hshares, HatS⟩
  -- the own row whole again, the gather buffer whole again
  ihave Hown := (join_shares c (gathered m) 15) $$ [Hkeep Hshares]
  · unfold rowPts sendPay rowPts
    isplitl [Hkeep]; · iexact Hkeep
    iexact Hshares
  ihave Hscr0 := (Entails.of_eq (scr_rows c fullShare (gathered m)).symm) $$ [Hown Hrowsin]
  · isplitl [Hown]; · iexact Hown
    iexact Hrowsin
  -- the cells closed
  imod (close_sends m K c) $$ [HatS0 HatS] with HzS
  · isplitr; · iexact HR
    isplitl [HatS0]; · iexact HatS0
    iexact HatS
  imod (close_recvs m K c) $$ [HatV0 HatV] with HzV
  · isplitr; · iexact HR
    isplitl [HatV0]; · iexact HatV0
    iexact HatV
  -- the normalised block
  iapply (wp_load 𝒱₀ (c : Thread nD τ) none Set.univ (m := (PM : Memref sig .tc .vmem S16x512 .f32)) (Finset.subset_univ _)) $$ Hscr0; iintro Hscr0
  rw [read_p]
  iapply (wp_load 𝒱₀ (c : Thread nD τ) none Set.univ (m := Memref.whole cc0_scratch1) (Finset.subset_univ _)) $$ Hscr1; iintro Hscr1
  rw [read_y]
  iapply (wp_load 𝒱₀ (c : Thread nD τ) none Set.univ (m := Memref.whole cc0_stg2_0) (Finset.subset_univ _)) $$ Hout; iintro Hout
  iapply (wp_store 𝒱₀ (c : Thread nD τ) none Set.univ (m := Memref.whole cc0_stg2_0) (r := r0x) (Mk := Finset.univ) (Finset.subset_univ _)) $$ Hout; iintro Hout
  rw [write_out, wp_ret]; imodintro
  iapply Hk
  unfold bodyPost Φ₁ Dat.owesAt Pipeline.owesWithin scr0 scr1
  rw [show (dats m 0 c).owed t0_0.succ = 0 from rfl]
  isplitl [Hscr0 Hscr1 HzS HzV]
  · isplitl [Hscr0]; · iexact Hscr0
    isplitl [Hscr1]; · iexists _; iexact Hscr1
    isplitl [HzS]; · iexact HzS
    iexact HzV
  isplitl [HO]
  · iexists W4
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 8000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hgh⟩, HcB, HcV, Hlev⟩, Hs0, Hs1⟩, Ho, Hx, Hgm, Hout⟩
  iapply (sound_body m K c fun _ => bodyPost m c)
  unfold bodyPre
  isplitr []
  · isplitl [Hgh HcB HcV Hlev Hs0 Hs1]
    · isplitl [Hgh]; · iexact Hgh
      isplitl [HcB]; · iexact HcB
      isplitl [HcV]; · iexact HcV
      isplitl [Hlev]; · iexact Hlev
      isplitl [Hs0]; · iexact Hs0
      iexact Hs1
    isplitl [Ho]; · iexact Ho
    isplitl [Hx]; · iexact Hx
    isplitl [Hgm]; · iexact Hgm
    iexact Hout
  · iintro H; iexact H

/-- info: 'Cert.Kernel.Coll.body_obligation' depends on axioms: [propext, Classical.choice, Quot.sound] -/
#guard_msgs in #print axioms body_obligation

end Body

end Cert.Kernel.Coll

end
-- ==== Proof.WLaunchAlloc.lean ====
/-
  The launch's ghost state: the cells of the protocol, the duty tokens, what the launch element deals each device,
  and the one global step that turns every device's semaphores at zero into the cells' invariants.

  The cells are, per device, the 33 of the indexing `kcell`: the barrier cell (the runtime's semaphore, not scoped
  to the launch) and the 32 own cells (16 send, 16 receive; scoped). The duty tokens are minted in the shape the
  devices hold them: device `c` gets, for `k = 1 … 15`, the token of duty `c` of the barrier cell of `peer c k`,
  the token of the one duty of receive cell `c` of `peer c k`, and the token of the one duty of its own send cell
  `k`. Every (cell, round, duty) of the schedule occurs exactly once: a barrier cell's duty `d ≠ p` at `c = d`,
  `k` the distance from `d` to `p`.
-/
import proofs.«900466_g7700000000000467_dist_rmsnorm_colshard_i_m512_n256_v7x_i16_bf16_1_alg».proof.Proof.WData

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index facts -/

/-- `k ↦ (peer c k).val` permutes `0 … 15`. -/
theorem peer_val_image (c : Dev nD) : (Finset.Ico 0 16).image (fun k => (peer c k).val) = Finset.Ico 0 16 := by
  have hc : c.val < 16 := c.isLt
  ext s
  simp only [Finset.mem_image, Finset.mem_Ico, peer_val]
  constructor
  · rintro ⟨k, _, rfl⟩
    exact ⟨Nat.zero_le _, Nat.mod_lt _ (by decide)⟩
  · rintro ⟨_, hs⟩
    exact ⟨(s + 16 - c.val) % 16, ⟨Nat.zero_le _, Nat.mod_lt _ (by decide)⟩, by omega⟩

theorem peerVal_injOn_launch (c : Dev nD) : Set.InjOn (fun k => (peer c k).val) ↑(Finset.Ico 0 16) := by
  intro a ha b hb h
  have hc : c.val < 16 := c.isLt
  rw [Finset.mem_coe, Finset.mem_Ico] at ha hb
  have h' : (c.val + a) % 16 = (c.val + b) % 16 := h
  omega

/-- A family over `Fin (n + 1)`, its member at 0 first. -/
theorem bigSep_fin_succ {M : Type} [URA M] {n : ℕ} (Φ : Fin (n + 1) → sProp M) :
    bigSep Finset.univ Φ = iprop(Φ 0 ∗ bigSep Finset.univ fun j : Fin n => Φ j.succ) := by
  rw [Fin.univ_succ, Finset.cons_eq_insert, bigSep_insert (by simp [Fin.succ_ne_zero]), bigSep_map]; rfl

theorem bigSep_fin3' {M : Type} [URA M] (Φ : Fin 3 → sProp M) : bigSep Finset.univ Φ = iprop(Φ 0 ∗ Φ 1 ∗ Φ 2) :=
  bigSep_univ_eq_bigSepL [0, 1, 2] (by decide) (by decide) Φ

/-- A family by number over `1 … 15`, as a family over `Fin 15`. -/
theorem bigSep_fin15 {M : Type} [URA M] (Ψ : ℕ → sProp M) :
    bigSep Finset.univ (fun i : Fin 15 => Ψ (i.val + 1)) = bigSep (Finset.Ico 1 16) Ψ := by
  have e : Finset.Ico 1 16 = (Finset.univ : Finset (Fin 15)).map ⟨fun i => i.val + 1, fun a b h => Fin.ext (Nat.add_right_cancel h)⟩ := by
    ext k
    simp only [Finset.mem_Ico, Finset.mem_map, Finset.mem_univ, true_and, Function.Embedding.coeFn_mk]
    constructor
    · rintro ⟨h1, h2⟩; exact ⟨⟨k - 1, by omega⟩, by show k - 1 + 1 = k; omega⟩
    · rintro ⟨i, hi⟩
      have h15 : i.val < 15 := i.isLt
      have hk : i.val + 1 = k := hi
      omega
  rw [e, bigSep_map]; rfl

/-! ## The kernel's own semaphores -/

/-- The kernel's own (scoped) semaphores, as the launch indexes them: cells 1 … 32 of `csem`, the 16 send semaphores
    then the 16 receive semaphores. The barrier semaphore (cell 0) is the runtime's. -/
def osem (j : Fin 32) : SemLoc sig := csem j.succ

theorem osem_eq (j : Fin 32) : osem j = if j.val < 16 then .dma (sendSem j.val) else .dma (recvSem (j.val - 16)) := by
  have hj := j.isLt
  have hv : (j.succ : Fin 33).val = j.val + 1 := Fin.val_succ j
  unfold osem csem
  rw [hv]
  by_cases h : j.val < 16
  · rw [if_neg (by omega), if_pos (by omega), if_pos h, show j.val + 1 - 1 = j.val by omega]
  · rw [if_neg (by omega), if_neg (by omega), if_neg h, show j.val + 1 - 17 = j.val - 16 by omega]

def oS (k : ℕ) : Fin 32 := ⟨k % 16, by have := Nat.mod_lt k (show 0 < 16 by decide); omega⟩
def oR (k : ℕ) : Fin 32 := ⟨16 + k % 16, by have := Nat.mod_lt k (show 0 < 16 by decide); omega⟩

theorem osem_oS (k : ℕ) : osem (oS k) = .dma (sendSem k) := by
  have hm := Nat.mod_lt k (show 0 < 16 by decide)
  rw [osem_eq, if_pos (show (oS k).val < 16 from hm)]
  exact congrArg SemLoc.dma (sendSem_mod k)

theorem osem_oR (k : ℕ) : osem (oR k) = .dma (recvSem k) := by
  have hm := Nat.mod_lt k (show 0 < 16 by decide)
  have h1 : ¬ (oR k).val < 16 := by show ¬ 16 + k % 16 < 16; omega
  have h2 : (oR k).val - 16 = k % 16 := by show 16 + k % 16 - 16 = k % 16; omega
  rw [osem_eq, if_neg h1, h2]
  exact congrArg SemLoc.dma (recvSem_mod k)

theorem univ32_eq : (Finset.univ : Finset (Fin 32)) = (Finset.Ico 0 16).image oS ∪ (Finset.Ico 0 16).image oR := by
  ext j
  have hj := j.isLt
  simp only [Finset.mem_univ, Finset.mem_union, Finset.mem_image, Finset.mem_Ico, true_iff]
  by_cases h : j.val < 16
  · exact Or.inl ⟨j.val, ⟨Nat.zero_le _, h⟩, Fin.ext (show j.val % 16 = j.val by omega)⟩
  · exact Or.inr ⟨j.val - 16, ⟨Nat.zero_le _, by omega⟩, Fin.ext (show 16 + (j.val - 16) % 16 = j.val by omega)⟩

theorem oS_oR_disjoint : Disjoint ((Finset.Ico 0 16).image oS) ((Finset.Ico 0 16).image oR) := by
  rw [Finset.disjoint_left]
  intro j h1 h2
  obtain ⟨a, _, rfl⟩ := Finset.mem_image.mp h1
  obtain ⟨b, _, hb⟩ := Finset.mem_image.mp h2
  have ha := Nat.mod_lt a (show 0 < 16 by decide)
  have h : 16 + b % 16 = a % 16 := congrArg Fin.val hb
  omega

theorem oS_injOn : Set.InjOn oS ↑(Finset.Ico 0 16) := by
  intro a ha b hb h
  rw [Finset.mem_coe, Finset.mem_Ico] at ha hb
  have h' : a % 16 = b % 16 := congrArg Fin.val h
  omega

theorem oR_injOn : Set.InjOn oR ↑(Finset.Ico 0 16) := by
  intro a ha b hb h
  rw [Finset.mem_coe, Finset.mem_Ico] at ha hb
  have h' : 16 + a % 16 = 16 + b % 16 := congrArg Fin.val h
  omega

/-- A family over a device's 32 own cells is the family over its 16 send cells and over its 16 receive cells, these
    taken in the order of the peers. -/
theorem own_split (c : Dev nD) (Ψ : GSem nD τ sig → sProp 𝕄) :
    bigSep Finset.univ (fun j : Fin 32 => Ψ ((c : Thread nD τ), osem j))
      = iprop((bigSep (Finset.Ico 0 16) fun k => Ψ (sendCell c k)) ∗ (bigSep (Finset.Ico 0 16) fun k => Ψ (recvCell c (peer c k).val))) := by
  have e1 : bigSep Finset.univ (fun j : Fin 32 => Ψ ((c : Thread nD τ), osem j))
      = iprop(bigSep (Finset.Ico 0 16) (fun k => Ψ ((c : Thread nD τ), osem (oS k))) ∗ bigSep (Finset.Ico 0 16) (fun k => Ψ ((c : Thread nD τ), osem (oR k)))) := by
    rw [univ32_eq, bigSep_union oS_oR_disjoint, bigSep_image_of_injOn oS_injOn, bigSep_image_of_injOn oR_injOn]; rfl
  have e2 : bigSep (Finset.Ico 0 16) (fun k => Ψ ((c : Thread nD τ), osem (oS k))) = bigSep (Finset.Ico 0 16) fun k => Ψ (sendCell c k) :=
    bigSep_congr fun k _ => by rw [osem_oS]
  have e3 : bigSep (Finset.Ico 0 16) (fun k => Ψ ((c : Thread nD τ), osem (oR k))) = bigSep (Finset.Ico 0 16) fun k => Ψ (recvCell c k) :=
    bigSep_congr fun k _ => by rw [osem_oR]
  have e4 : bigSep (Finset.Ico 0 16) (fun k => Ψ (recvCell c k)) = bigSep (Finset.Ico 0 16) fun k => Ψ (recvCell c (peer c k).val) := by
    have e := bigSep_image_of_injOn (peerVal_injOn_launch c) (fun s => Ψ (recvCell c s))
    rw [peer_val_image] at e; exact e
  rw [e1, e2, e3, e4]

/-- A family over a device's 33 cells: the barrier cell, the send cells, the receive cells. -/
theorem cells_split (c : Dev nD) (Ψ : GSem nD τ sig → sProp 𝕄) :
    bigSep Finset.univ (fun j : Fin 33 => Ψ (kcell (c, j)))
      = iprop(Ψ (barCell c) ∗ (bigSep (Finset.Ico 0 16) fun k => Ψ (sendCell c k)) ∗ (bigSep (Finset.Ico 0 16) fun k => Ψ (recvCell c (peer c k).val))) := by
  rw [bigSep_fin_succ (fun j : Fin 33 => Ψ (kcell (c, j)))]
  exact congrArg (fun X : sProp 𝕄 => iprop(Ψ (barCell c) ∗ X)) (own_split c Ψ)

theorem ownSemFacts : Pipeline.OwnSemFacts cfg0.spec osem := by decide

/-! ## The cells are pairwise distinct -/

def semCode : SemLoc sig → ℕ
  | .reg _ => 0
  | .dma q => 1 + q.val

theorem csem_injective : Function.Injective csem := by
  intro j j' h
  have hj := j.isLt
  have hj' := j'.isLt
  have hc := congrArg semCode h
  apply Fin.ext
  unfold csem at hc
  split_ifs at hc <;> simp only [semCode, sendSem, recvSem] at hc <;> omega

theorem kcell_injective : Function.Injective (kcell : Dev nD × Fin 33 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

def ringCells : Finset (GSem nD τ sig) := Finset.univ.map ⟨kcell, kcell_injective⟩

/-! ## The duty tokens, in the shape the devices hold them -/

/-- Device `c`'s three tokens towards `peer c (i + 1)`: 0 the peer's barrier duty `c`, 1 the peer's receive cell `c`'s duty,
    2 the duty of its own send cell `i + 1`. -/
def tokOf (x : Dev nD × Fin 3 × Fin 15) : GSem nD τ sig × ℕ × Dev nD :=
  if x.2.1.val = 0 then (barCell (peer x.1 (x.2.2.val + 1)), 0, x.1)
  else if x.2.1.val = 1 then (recvCell (peer x.1 (x.2.2.val + 1)) x.1.val, 0, 0)
  else (sendCell x.1 (x.2.2.val + 1), 0, 0)

def tokCode (x : GSem nD τ sig × ℕ × Dev nD) : ℕ × ℕ × ℕ := (x.1.1.1.val, semCode x.1.2, x.2.2.val)

theorem tokCode_tokOf (c : Dev nD) (j : Fin 3) (i : Fin 15) : tokCode (tokOf (c, j, i)) =
    if j.val = 0 then ((c.val + (i.val + 1)) % 16, 0, c.val)
    else if j.val = 1 then ((c.val + (i.val + 1)) % 16, 1 + (19 + c.val % 16), 0)
    else (c.val, 1 + (3 + (i.val + 1) % 16), 0) := by
  unfold tokOf; dsimp only; split_ifs <;> rfl

theorem tokOf_injective : Function.Injective tokOf := by
  rintro ⟨c, j, i⟩ ⟨c', j', i'⟩ h
  have hi : i.val < 15 := i.isLt
  have hi' : i'.val < 15 := i'.isLt
  have hc : c.val < 16 := c.isLt
  have hc' : c'.val < 16 := c'.isLt
  have hj : j.val < 3 := j.isLt
  have hj' : j'.val < 3 := j'.isLt
  have hk := congrArg tokCode h
  rw [tokCode_tokOf, tokCode_tokOf] at hk
  have hall : c.val = c'.val ∧ j.val = j'.val ∧ i.val = i'.val := by
    split_ifs at hk <;> simp only [Prod.mk.injEq] at hk <;> refine ⟨?_, ?_, ?_⟩ <;> omega
  obtain ⟨h1, h2, h3⟩ := hall
  obtain rfl := Fin.ext h1
  obtain rfl := Fin.ext h2
  obtain rfl := Fin.ext h3
  rfl

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The duty tokens device `c` pays with. -/
def toks (c : Dev nD) : sProp 𝕄 :=
  iprop((bigSep (Finset.Ico 1 16) fun k => dutyTok ER (barCell (peer c k)) 0 c)
    ∗ (bigSep (Finset.Ico 1 16) fun k => dutyTok ER (recvCell (peer c k) c.val) 0 (0 : Dev nD))
    ∗ (bigSep (Finset.Ico 1 16) fun k => dutyTok ER (sendCell c k) 0 (0 : Dev nD)))

theorem toks_eq (c : Dev nD) :
    bigSep Finset.univ (fun b : Fin 3 × Fin 15 => (dutyTok ER (tokOf (c, b)).1 (tokOf (c, b)).2.1 (tokOf (c, b)).2.2 : sProp 𝕄)) = toks c := by
  have e0 := bigSep_fin15 (fun k => (dutyTok ER (barCell (peer c k)) 0 c : sProp 𝕄))
  have e1 := bigSep_fin15 (fun k => (dutyTok ER (recvCell (peer c k) c.val) 0 (0 : Dev nD) : sProp 𝕄))
  have e2 := bigSep_fin15 (fun k => (dutyTok ER (sendCell c k) 0 (0 : Dev nD) : sProp 𝕄))
  unfold toks
  rw [← e0, ← e1, ← e2, bigSep_univ_prod, bigSep_fin3']
  rfl

/-- What the launch element deals device `c` (the theorem's `G`): its 33 cells' round states, positions and round-0
    marks, and the tokens it pays with. -/
def G (c : Dev nD) : sProp 𝕄 :=
  iprop((bigSep Finset.univ fun j : Fin 33 => roundState ER (sched m) (kcell (c, j)) 0)
    ∗ (bigSep Finset.univ fun j : Fin 33 => iprop(atPos ER (kcell (c, j)) 0 ∅ 0 ∗ reached ER (kcell (c, j)) 0)) ∗ toks c)

/-- What the global step makes of it (`G'`). -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 33 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 33 => semVal (kcell (c, j)) 0 : sProp 𝕄) := by
  have e : (bigSep Finset.univ fun j : Fin 33 => semVal (kcell (c, j)) 0 : sProp 𝕄)
      = iprop(semVal (barCell c) 0 ∗ Pipeline.ownSems0 (Ix := Unit) (Name := ℕ) (U := UU) (Lvl := ℕ) (Val := Elt F) (τ := τ) osem c) :=
    bigSep_fin_succ (fun j : Fin 33 => (semVal (kcell (c, j)) 0 : sProp 𝕄))
  rw [unscopedSems0_eq, e]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 33 => semVal (kcell (c, j)) 0) ∗ bigSep Finset.univ fun j : Fin 33 => roundState ER (sched m) (kcell (c, j)) 0)
      ⊢ (|={Set.univ}=> bigSep Finset.univ fun j : Fin 33 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties it pays. -/
def linear (c : Dev nD) : sProp 𝕄 :=
  iprop((bigSep Finset.univ fun j : Fin 33 => atPos ER (kcell (c, j)) 0 ∅ 0) ∗ toks c)

theorem ghost_intro (K : Dev nD × Fin 33 → ℕ) (c : Dev nD) : iprop(records m K ∗ linear c) ⊢ G' m c := by
  unfold linear toks G' ghost
  iintro ⟨#HR, Hat, HtB, HtV, HtS⟩
  ihave Hat' := (Entails.of_eq (cells_split (F := F) c (fun g => atPos ER g 0 ∅ 0))) $$ Hat
  icases Hat' with ⟨HaB, HaS, HaV⟩
  iexists K
  isplitr; · iexact HR
  isplitl [HaB]; · iexact HaB
  isplitl [HaS]; · iexact HaS
  isplitl [HaV]; · iexact HaV
  isplitl [HtB]; · iexact HtB
  isplitl [HtV]; · iexact HtV
  iexact HtS

theorem regroup :
    (bigSep Finset.univ fun c : Dev nD => iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 33 => (atPos ER (kcell (c, j)) 0 ∅ 0 : sProp 𝕄)) toks).symm).trans
      (bigSep_mono fun c _ => show _ ⊢ linear c from Entails.of_eq (by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Coll.glob' depends on axioms: [propext, Classical.choice, Quot.sound] -/
#guard_msgs in #print axioms glob

end Cert.Kernel.Coll

end
-- ==== Proof.WLaunch.lean ====
/-
  The launch: what every device is owed at launch, the launch theorem's side conditions, the run of the whole
  program from every device's body, and the final arrays.

  Device `d` owes, for `k = 1 … 15`, one unit to the barrier cell of `peer d k` and one row credit to receive cell
  `d` of `peer d k`. Summed over the devices, the barrier cell of `c` is owed 15 units (one by every other device)
  and receive cell `s` of `c`, `s ≠ c`, one row credit (by device `s`): the credit tokens `c` waits with.
-/
import proofs.«900466_g7700000000000467_dist_rmsnorm_colshard_i_m512_n256_v7x_i16_bf16_1_alg».proof.Proof.WLaunchAlloc

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices owe, as sums -/

theorem OR_eq (c : Dev nD) : ∀ j, j ≤ 15 → OR c j = ∑ k ∈ Finset.Ico (16 - j) 16, (tallyAt (recvCell (peer c k) c.val) () N : CellTallies nD τ sig Unit)
  | 0, _ => by rw [show 16 - 0 = 16 from rfl, Finset.Ico_self, Finset.sum_empty]; rfl
  | j + 1, h => by
    have ih := OR_eq c j (by omega)
    have e : Finset.Ico (16 - (j + 1)) 16 = Finset.Ico (15 - j) 16 := by rw [show 16 - (j + 1) = 15 - j by omega]
    rw [e, Ring.sum_Ico_succ (show 15 - j < 16 by omega), show 15 - j + 1 = 16 - j by omega, ← ih]
    show OR c j + tallyAt (recvCell (peer c (15 - j)) c.val) () N = _
    exact add_comm _ _

theorem OB_eq (c : Dev nD) : ∀ j, j ≤ 15 → OB c j = OR c 15 + ∑ k ∈ Finset.Ico (16 - j) 16, (tallyAt (barCell (peer c k)) () 1 : CellTallies nD τ sig Unit)
  | 0, _ => by rw [show 16 - 0 = 16 from rfl, Finset.Ico_self, Finset.sum_empty, add_zero]; rfl
  | j + 1, h => by
    have ih := OB_eq c j (by omega)
    have e : Finset.Ico (16 - (j + 1)) 16 = Finset.Ico (15 - j) 16 := by rw [show 16 - (j + 1) = 15 - j by omega]
    rw [e, Ring.sum_Ico_succ (show 15 - j < 16 by omega), show 15 - j + 1 = 16 - j by omega]
    show OB c j + tallyAt (barCell (peer c (15 - j))) () 1 = _
    rw [ih, add_assoc, add_comm (∑ k ∈ Finset.Ico (16 - j) 16, (tallyAt (barCell (peer c k)) () 1 : CellTallies nD τ sig Unit))]

theorem O₀_eq (c : Dev nD) : O₀ c = (∑ k ∈ Finset.Ico 1 16, (tallyAt (recvCell (peer c k) c.val) () N : CellTallies nD τ sig Unit))
    + ∑ k ∈ Finset.Ico 1 16, (tallyAt (barCell (peer c k)) () 1 : CellTallies nD τ sig Unit) := by
  have h := OB_eq c 15 le_rfl
  rw [OR_eq c 15 le_rfl] at h
  exact h

theorem sum_tallyAt_apply (s : Finset ℕ) (cell : ℕ → GSem nD τ sig) (n : ℕ) (g : GSem nD τ sig) :
    (∑ k ∈ s, (tallyAt (cell k) () n : CellTallies nD τ sig Unit)) g () = ∑ k ∈ s, if g = cell k then n else 0 := by
  rw [Finset.sum_apply, Finsupp.finsetSum_apply]
  refine Finset.sum_congr rfl fun k _ => ?_
  rw [tallyAt_apply]
  by_cases h : g = cell k
  · rw [if_pos ⟨h, rfl⟩, if_pos h]
  · rw [if_neg (fun h' => h h'.1), if_neg h]

theorem O₀_apply (d : Dev nD) (g : GSem nD τ sig) : O₀ d g () =
    (∑ k ∈ Finset.Ico 1 16, if g = recvCell (peer d k) d.val then N else 0) + ∑ k ∈ Finset.Ico 1 16, if g = barCell (peer d k) then 1 else 0 := by
  rw [O₀_eq, Pi.add_apply, Finsupp.add_apply,
    sum_tallyAt_apply (Finset.Ico 1 16) (fun k => recvCell (peer d k) d.val) N g,
    sum_tallyAt_apply (Finset.Ico 1 16) (fun k => barCell (peer d k)) 1 g]

/-- Among the places `1 … 15` after `p`, exactly one reaches `c ≠ p` and none reaches `p`. -/
theorem peer_count (p c : Dev nD) : (∑ k ∈ Finset.Ico 1 16, if peer p k = c then 1 else 0) = if c = p then 0 else 1 := by
  revert p c; decide +kernel

theorem peer_countN (p c : Dev nD) (n : ℕ) : (∑ k ∈ Finset.Ico 1 16, if peer p k = c then n else 0) = if c = p then 0 else n := by
  have h : ∀ k, (if peer p k = c then n else 0) = n * (if peer p k = c then 1 else 0) := fun k => by split <;> simp
  simp only [h]
  rw [← Finset.mul_sum, peer_count]
  split <;> simp

theorem bar_eq_iff {a b : Dev nD} : Iff (barCell a = barCell b) (a = b) :=
  ⟨fun h => Fin.ext (congrArg (fun g : GSem nD τ sig => g.1.1.val) h), fun h => h ▸ rfl⟩

theorem recv_eq_iff {a b : Dev nD} {s t : ℕ} (hs : s < 16) (ht : t < 16) : Iff (recvCell a s = recvCell b t) (a = b ∧ s = t) :=
  ⟨fun h => ⟨Fin.ext (congrArg (fun g : GSem nD τ sig => g.1.1.val) h), by
      have h1 : (SemLoc.dma (recvSem s) : SemLoc sig) = .dma (recvSem t) := congrArg Prod.snd h
      have h2 : 19 + s % 16 = 19 + t % 16 := congrArg Fin.val (SemLoc.dma.inj h1)
      omega⟩,
   fun ⟨h1, h2⟩ => by rw [h1, h2]⟩

/-- What device `d` owes device `c`'s barrier cell: one unit unless `c = d`. -/
theorem owed_bar (d c : Dev nD) : O₀ d (barCell c) () = if c = d then 0 else 1 := by
  have h1 : (∑ k ∈ Finset.Ico 1 16, if barCell c = recvCell (peer d k) d.val then N else 0) = 0 :=
    Finset.sum_eq_zero fun k _ => if_neg fun h => by have h' := congrArg Prod.snd h; cases h'
  have h2 : (∑ k ∈ Finset.Ico 1 16, if barCell c = barCell (peer d k) then 1 else 0) = ∑ k ∈ Finset.Ico 1 16, if peer d k = c then 1 else 0 :=
    Finset.sum_congr rfl fun k _ => if_congr ⟨fun h => (bar_eq_iff.mp h).symm, fun h => bar_eq_iff.mpr h.symm⟩ rfl rfl
  rw [O₀_apply, h1, h2, Nat.zero_add, peer_count]

/-- What device `d` owes receive cell `s` of device `c`: the row credit when `s = d` and `c ≠ d`. -/
theorem owed_recv (d c s : Dev nD) : O₀ d (recvCell c s.val) () = if s = d then (if c = d then 0 else N) else 0 := by
  have h2 : (∑ k ∈ Finset.Ico 1 16, if recvCell c s.val = barCell (peer d k) then 1 else 0) = 0 :=
    Finset.sum_eq_zero fun k _ => if_neg fun h => by have h' := congrArg Prod.snd h; cases h'
  rw [O₀_apply, h2, Nat.add_zero]
  by_cases hs : s = d
  · subst hs
    rw [if_pos rfl, ← peer_countN s c N]
    exact Finset.sum_congr rfl fun k _ =>
      if_congr ⟨fun h => ((recv_eq_iff s.isLt s.isLt).mp h).1.symm, fun h => (recv_eq_iff s.isLt s.isLt).mpr ⟨h.symm, rfl⟩⟩ rfl rfl
  · rw [if_neg hs]
    exact Finset.sum_eq_zero fun k _ => if_neg fun h => hs (Fin.ext ((recv_eq_iff s.isLt d.isLt).mp h).2)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (k : ℕ) (h1 : 1 ≤ k) (h2 : k ≤ 15) :
    tallyOn (recvCell c (peer c k).val) (launchCredit (Pipeline.owing O₀) 0 (recvCell c (peer c k).val))
      = (tallyAt (recvCell c (peer c k).val) () N : CellTallies nD τ sig Unit) := by
  unfold tallyAt; refine congrArg _ (Finsupp.ext fun u => ?_); cases u
  rw [Pipeline.launchCredit_owing, Finsupp.single_eq_same, Finset.sum_congr rfl fun d _ => owed_recv d c (peer c k),
    Finset.sum_ite_eq Finset.univ (peer c k) fun d => if c = d then 0 else N, if_pos (Finset.mem_univ _), if_neg (peer_ne c k h1 h2).symm]

theorem recvSem_peer_injOn (c : Dev nD) : Set.InjOn (fun k => (SemLoc.dma (recvSem (peer c k).val) : SemLoc sig)) ↑(Finset.Ico 1 16) := by
  intro a ha b hb h
  rw [Finset.mem_coe, Finset.mem_Ico] at ha hb
  have h0 : recvCell c (peer c a).val = recvCell c (peer c b).val := congrArg (Prod.mk (c : Thread nD τ)) h
  have h1 : (peer c a).val = (peer c b).val := ((recv_eq_iff (peer c a).isLt (peer c b).isLt).mp h0).2
  exact peer_inj c (by omega) (by omega) (Fin.ext h1)

theorem recv_sub (c : Dev nD) :
    (Finset.Ico 1 16).image (fun k => (SemLoc.dma (recvSem (peer c k).val) : SemLoc sig)) ⊆ Finset.univ.erase (SemLoc.reg barS) := by
  intro sm h
  obtain ⟨k, _, rfl⟩ := Finset.mem_image.mp h
  exact Finset.mem_erase.mpr ⟨(fun h' => by cases h'), Finset.mem_univ _⟩

theorem creds_bar (c : Dev nD) :
    (Pipeline.launchCred O₀ c : sProp 𝕄)
      ⊢ iprop(cred (tallyAt (barCell c) () 15) ∗ bigSep (Finset.univ.erase (SemLoc.reg barS)) fun sm : SemLoc sig =>
          cred (tallyOn ((c : Thread nD τ), sm) (launchCredit (Pipeline.owing O₀) 0 ((c : Thread nD τ), sm)))) := by
  unfold Pipeline.launchCred
  rw [bigSep_univ_at _ (SemLoc.reg barS), launch_bar]

theorem creds_recv (c : Dev nD) :
    (bigSep (Finset.univ.erase (SemLoc.reg barS)) fun sm : SemLoc sig =>
        cred (tallyOn ((c : Thread nD τ), sm) (launchCredit (Pipeline.owing O₀) 0 ((c : Thread nD τ), sm))) : sProp 𝕄)
      ⊢ bigSep (Finset.Ico 1 16) fun k => cred (tallyAt (recvCell c (peer c k).val) () N) := by
  have h3 : (bigSep (Finset.Ico 1 16) fun k => (cred (tallyOn (recvCell c (peer c k).val) (launchCredit (Pipeline.owing O₀) 0 (recvCell c (peer c k).val))) : sProp 𝕄))
      ⊢ bigSep (Finset.Ico 1 16) fun k => cred (tallyAt (recvCell c (peer c k).val) () N) :=
    bigSep_mono fun k hk => Entails.of_eq (congrArg cred (launch_recv c k (Finset.mem_Ico.mp hk).1 (Nat.le_of_lt_succ (Finset.mem_Ico.mp hk).2)))
  have h2 := bigSep_image_of_injOn (recvSem_peer_injOn c) (fun sm : SemLoc sig =>
    (cred (tallyOn ((c : Thread nD τ), sm) (launchCredit (Pipeline.owing O₀) 0 ((c : Thread nD τ), sm))) : sProp 𝕄))
  have hsub := recv_sub c
  generalize (Finset.Ico 1 16).image (fun k => (SemLoc.dma (recvSem (peer c k).val) : SemLoc sig)) = t at hsub h2
  exact (bigSep_subset hsub).trans ((Entails.of_eq h2).trans h3)

/-- The credit tokens the launch deals device `c`: its barrier cell's 15 units and each of its 15 receive cells' row credit. -/
theorem creds (c : Dev nD) :
    (Pipeline.launchCred O₀ c : sProp 𝕄)
      ⊢ iprop(cred (tallyAt (barCell c) () 15) ∗ bigSep (Finset.Ico 1 16) fun k => cred (tallyAt (recvCell c (peer c k).val) () N)) :=
  (creds_bar c).trans (sep_mono_right (creds_recv c))

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr0 scr1
  iintro ⟨Hs, -, ⟨%f, Hr⟩, ⟨%f', Hr'⟩⟩
  isplitl [Hs]; · iexact Hs
  isplitl [Hr]
  · iexists f; iexact Hr
  iexists f'; iexact Hr'

theorem phi1_exit (c : Dev nD) :
    (dats m 0 c).Φ (Fin.last cfg0.N) ⊢ iprop(emp ∗ Pipeline.ownSems0 osem c ∗ Pipeline.scopedRest cfg0.spec c) := by
  have e : (Pipeline.ownSems0 (Ix := Unit) (Name := ℕ) (U := UU) (Lvl := ℕ) (Val := Elt F) (τ := τ) osem c : sProp 𝕄)
      = iprop((bigSep (Finset.Ico 0 16) fun k => semVal (sendCell c k) 0) ∗ (bigSep (Finset.Ico 0 16) fun k => semVal (recvCell c (peer c k).val) 0)) :=
    own_split c (fun g => semVal g 0)
  rw [show (dats m 0 c).Φ (Fin.last cfg0.N) = Φ₁ m c from rfl, scopedRest0_eq, e]
  unfold Φ₁ scr0 scr1
  iintro ⟨Hr, ⟨%f, Hr'⟩, HzS, HzV⟩
  isplitr; · iempintro
  isplitl [HzS HzV]
  · isplitl [HzS] <;> iassumption
  isplitl [Hr]
  · iexists (gathered m); iexact Hr
  iexists f; iexact Hr'

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> first | rfl | decide) 15
    · rw [show (dats m 0 c).owed ⟨_ + 1, ht⟩ = 0 from rfl, MayWait_zero]; iintro -; iempintro

/-! ## The run -/

/-- Every device's window arrays at what the proof data says they hold after the last point. -/
def QC (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of 16 devices, for any float values, from any memory with zero counters: if every device's body
    meets its obligation, every weakly fair execution of the program terminates, and in every final state each device's
    window arrays hold what the proof data says. -/
theorem run_main_of (hbody : ∀ c, BodyObligation (dats (F := F) m 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_main_of' depends on axioms: [propext, Classical.choice, Quot.sound] -/
#guard_msgs in #print axioms run_main_of

/-! ## The final arrays -/

/-- The argument arrays after the run hold what they held. -/
theorem final_args (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(h c 0).trans ((dats m 0 c).arrAt_in 0 rfl _), (h c 1).trans ((dats m 0 c).arrAt_in 1 rfl _)⟩

/-- The result array of device `c` after the run holds its result: the one write-back writes the whole array. -/
theorem final_out (r : PUnit × MemSt nD τ sig (Elt F)) (h : QC m ρ r) (c : Dev nD) :
    r.2.mem ((c.tc : Thread nD τ).loc main_v1) = outAt m c := by
  have h2 := h c 2
  have hs := (dats m 0 c).arrAt_succ 2 t0_0
  rw [if_pos (flush0_2 t0_0)] at hs
  refine h2.trans (hs.trans ?_)
  exact Memref.write_access_unit_zero_univ (Elt F) main_v1 (funext fun a => Nat.zero_mul _) _ _ _

/-- info: 'Cert.Kernel.Coll.final_out' depends on axioms: [propext, Classical.choice, Quot.sound] -/
#guard_msgs in #print axioms final_out

end Cert.Kernel.Coll

end
-- ==== Proof.WRun.lean ====
/-
  The run of the whole program on the mesh: every weakly fair execution of the sixteen devices terminates, nothing
  faults, each device's two argument buffers end unchanged and its result buffer ends holding the normalised block
  computed from its own blocks of `x` and `gamma` and from every device's block of `x`.
-/
import proofs.«900466_g7700000000000467_dist_rmsnorm_colshard_i_m512_n256_v7x_i16_bf16_1_alg».proof.Proof.WBody
import proofs.«900466_g7700000000000467_dist_rmsnorm_colshard_i_m512_n256_v7x_i16_bf16_1_alg».proof.Proof.WLaunch

noncomputable section

namespace Cert.Kernel.Coll

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The run, every window's array after it named. -/
theorem run_main : θ_run defs (onTc (τ := τ) (main (F := F))) (s₀ m ρ) (QC m ρ) :=
  run_main_of m ρ (body_obligation m)

/-- The run with the result named and the arguments unchanged. -/
theorem value_run : θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨final_out m ρ r h c, (final_args m ρ r h c).1, (final_args m ρ r h c).2⟩) (run_main m ρ)

/-- The run with the values dropped: the frame. -/
theorem frame_run : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (value_run m ρ)

/-- A device's block of `x`, and of `gamma`, as staged, is its argument buffer: the window is the whole array. -/
theorem xblk_eq (c : Dev nD) : xblk m c = m ((c.tc : Thread nD τ).loc main_arg0) := by
  unfold xblk iblk
  exact Memref.read_access_unit_zero (Elt F) main_arg0 (funext fun a => Nat.zero_mul _) _ _
theorem gblk_eq (c : Dev nD) : gblk m c = m ((c.tc : Thread nD τ).loc main_arg1) := by
  unfold gblk iblk
  exact Memref.read_access_unit_zero (Elt F) main_arg1 (funext fun a => Nat.zero_mul _) _ _

/-- info: 'Cert.Kernel.Coll.value_run' depends on axioms: [propext, Classical.choice, Quot.sound] -/
#guard_msgs in #print axioms value_run

end Cert.Kernel.Coll

end
-- ==== Proof.RmsPay.lean ====
import proofs.«900466_g7700000000000467_dist_rmsnorm_colshard_i_m512_n256_v7x_i16_bf16_1_alg».proof.Proof.RmsSpec
import Idealize.ShloMosaic.Lib.ValueIdx
import Idealize.ShloMosaic.Lib.ValueLayout
import Idealize.ShloMosaic.Lib.Pipeline.Value
import Idealize.ShloMosaic.PureOps.Ideal.Laws

/-!
# A device's result, entry by entry

Read at row `r` and column `j` of a device's 512 × 256 block, every layout step of the device's
arithmetic lands on the coordinates `(r, j)`, `(r, k)`, `r` or `j`, and the two reductions are
finite sums: over the 256 columns of a block (a device's row sum of squares) and over the 16
devices (the total of the exchanged row sums).
-/

noncomputable section

open scoped BigOperators

namespace Cert.KernelIdeal.RmsValue

open Idealize.ShloMosaic Idealize.ShloMosaic.ValueIdx Cert.KernelIdeal Cert.KernelIdeal.Gen Cert.KernelIdeal.RmsSpec

/-! ## Two layout steps by coordinates -/

/-- A vector of `a` entries viewed as a column `[a, 1]` reads, at `(r, u)`, the entry `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` spread over `b` columns reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## The pieces of the arithmetic at an index -/

/-- A device's row sums of squares: at row `r`, the sum over the block's 256 columns. -/
theorem pay3_apply (x : Vec Ideal S512x256 .f32) (r : Fin 512) :
    k0_pay3 (F := Ideal) x (ix2 (0 : Fin 1) r) = ∑ k : Fin 256, x (ix2 r k) * x (ix2 r k) := by
  unfold k0_pay3 k0_pay2
  dsimp only
  refine (shapeCast_a_1a_apply _ _ 0 r).trans ?_
  refine (Ideal.multiReduction_add_single _ _ _ _ _ (ix1 r)).trans ?_
  refine Finset.sum_congr rfl fun k _ => ?_
  rw [shapeCast_self]
  exact congrArg (fun i => x i * x i) (funext fun a => Fin.ext (by match a with | ⟨0, _⟩ => rfl | ⟨1, _⟩ => rfl))

/-- The exchanged table at (device `d`, row `r`). -/
theorem partials_apply (x : Dev nD → Vec Ideal S512x256 .f32) (d : Fin 16) (r : Fin 512) :
    partials (F := Ideal) x (ix2 d r) = ∑ k : Fin 256, x d (ix2 r k) * x d (ix2 r k) :=
  pay3_apply (x d) r

/-- The mean of the squares of row `r`: the total over the 16 devices of the table's column `r`, divided
    by the word written for 4096. -/
theorem pay6_apply (P : Vec Ideal S16x512 .f32) (r : Fin 512) :
    k0_pay6 (F := Ideal) P (ix1 r) = Ideal.div (∑ d : Fin 16, P (ix2 d r)) (Ideal.ofBits .f32 0x45800000#32) := by
  unfold k0_pay6
  dsimp only
  show Ideal.div _ _ = _
  refine congrArg (Ideal.div · _) ?_
  refine (Ideal.multiReduction_add_single _ _ _ _ _ (ix1 r)).trans ?_
  refine Finset.sum_congr rfl fun d _ => ?_
  exact congrArg P (funext fun a => Fin.ext (by match a with | ⟨0, _⟩ => rfl | ⟨1, _⟩ => rfl))

/-- The small constant, at every row. -/
theorem pay7_apply (r : Fin 512) : k0_pay7 (F := Ideal) (ix1 r) = Ideal.ofBits .f32 0x3727C5AC#32 := rfl

/-- The scaled block at `(r, j)`. -/
theorem pay4_apply (x : Vec Ideal S512x256 .f32) (g : Vec Ideal S256 .f32) (r : Fin 512) (j : Fin 256) :
    k0_pay5 (F := Ideal) (k0_pay4 (k0_pay2 x) g) (ix2 r j) = g (ix1 j) * x (ix2 r j) := by
  unfold k0_pay5 k0_pay4 k0_pay2
  dsimp only
  rw [shapeCast_self, shapeCast_self, shapeCast_self]
  show broadcastTo S512x256 _ _ (ix2 r j) * x (ix2 r j) = _
  refine congrArg (· * x (ix2 r j)) ?_
  refine (broadcastTo_1b_ab_apply _ _ r j).trans ?_
  exact shapeCast_a_1a_apply _ _ 0 j

/-- The last step at `(r, j)`: the scaled entry times the reciprocal square root at row `r`. -/
theorem pay1_apply (v518 v519 : FVec Ideal S512 .f32) (y : Vec Ideal S512x256 .f32) (r : Fin 512) (j : Fin 256) :
    k0_pay1 (F := Ideal) v518 v519 y (ix2 r j) = y (ix2 r j) * Ideal.rsqrt (v518 (ix1 r) + v519 (ix1 r)) := by
  unfold k0_pay1
  show y (ix2 r j) * broadcastTo S512x256 _ _ (ix2 r j) = _
  refine congrArg (y (ix2 r j) * ·) ?_
  refine (broadcastTo_a1_ab_apply _ _ r j).trans ?_
  exact shapeCast_a_a1_apply _ _ r 0

/-- A device's result at `(r, j)`. -/
theorem outOf_apply (x : Dev nD → Vec Ideal S512x256 .f32) (g : Vec Ideal S256 .f32) (c : Dev nD) (r : Fin 512) (j : Fin 256) :
    outOf (F := Ideal) x g c (ix2 r j)
      = (g (ix1 j) * x c (ix2 r j))
        * Ideal.rsqrt (Ideal.div (∑ d : Fin 16, ∑ k : Fin 256, x d (ix2 r k) * x d (ix2 r k)) (Ideal.ofBits .f32 0x45800000#32)
            + Ideal.ofBits .f32 0x3727C5AC#32) := by
  unfold outOf
  rw [pay1_apply, pay4_apply, pay6_apply, pay7_apply]
  simp only [partials_apply]

end Cert.KernelIdeal.RmsValue
-- ==== Proof.RmsRef.lean ====
import proofs.«900466_g7700000000000467_dist_rmsnorm_colshard_i_m512_n256_v7x_i16_bf16_1_alg».proof.Proof.Gen.ReferenceIdeal.Read
import Idealize.ShloMosaic.Lib.ValueIdx
import Idealize.ShloMosaic.PureOps.Ideal.Laws

/-!
# The reference as one function of its two arrays

For a 512 × 4096 matrix `X` and 4096 scale factors `Gam`, the reference's result at row `r` and
column `J` is the scaled entry `Gam J * X r J` divided by the square root of (the mean of the squares
of row `r`, plus a small constant): the mean is the row's sum of squares divided by the constant the
program writes for 4096. Both constants are kept as the words the program writes.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- The sum of the squares of row `r` of `X`. -/
def rowSq (X : FVec Ideal S512x4096 .f32) (r : Fin 512) : EReal :=
  ∑ k : Fin 4096, X (ix2 r k) * X (ix2 r k)

/-- The result at row `r`, column `J`. -/
def Gat (X : FVec Ideal S512x4096 .f32) (Gam : FVec Ideal S4096 .f32) (r : Fin 512) (J : Fin 4096) : EReal :=
  Ideal.div (Gam (ix1 J) * X (ix2 r J))
    (Ideal.sqrt (Ideal.div (rowSq X r) (Ideal.ofBits .f32 0x45800000#32) + Ideal.ofBits .f32 0x3727C5AC#32))

/-- The reference's whole result array. -/
def G (X : FVec Ideal S512x4096 .f32) (Gam : FVec Ideal S4096 .f32) : FVec Ideal S512x4096 .bf16 :=
  fun i => Gat X Gam (i 0) (i 1)

theorem G_apply (X : FVec Ideal S512x4096 .f32) (Gam : FVec Ideal S4096 .f32) (r : Fin 512) (J : Fin 4096) :
    G X Gam (ix2 r J) = Gat X Gam r J := rfl

/-- The program's last stage is `G`: read index by index, every layout operation lands on the
    coordinates `(r, J)`, `(r, k)` and `J`, and the initial value of the sum is zero. -/
theorem ref_eq (X : FVec Ideal S512x4096 .f32) (Gam : FVec Ideal S4096 .f32) :
    val_main_v13 (F := Ideal) X Gam = G X Gam := by
  funext i
  obtain ⟨r, J, rfl⟩ : ∃ (r : Fin 512) (J : Fin 4096), i = ix2 r J := ⟨i 0, i 1, eq_ix2 i⟩
  have e1 : ∀ k : Fin 4096, idx_main_v1 (idx_main_v2 (idx_main_v11 (ix2 r J))) k = ix2 r k := fun k =>
    funext fun a => Fin.ext (by match a with | ⟨0, _⟩ => rfl | ⟨1, _⟩ => rfl)
  have e2 : idx_main_v8 (idx_main_v9 (ix2 r J)) = ix1 J :=
    funext fun a => Fin.ext (by match a with | ⟨0, _⟩ => rfl)
  rw [val_main_v13_apply, val_main_v12_apply, val_main_v10_apply, val_main_v9_apply, val_main_v8_apply,
    val_main_v11_apply, val_main_v7_apply, val_main_v6_apply, val_main_v4_apply, val_main_v5_apply,
    val_main_cst_1_apply, val_main_v2_apply, val_main_v3_apply, val_main_cst_0_apply, val_main_v1_apply,
    val_main_cst_apply]
  simp only [val_main_v0_apply, e1, e2, Ideal.truncf_def, Ideal.hostDivf_def, Ideal.mulf_def, Ideal.addf_def,
    Ideal.hostUnary_sqrt_def, Ideal.ofBits_def, Ideal.ofBits_zero_f32, zero_add]
  rfl

end Cert.ReferenceIdeal.RefValue
-- ==== Proof.RmsLaw.lean ====
import Idealize.ShloMosaic.PureOps.Ideal
import Idealize.ShloMosaic.PureOps.Ideal.Laws

/-!
# The two laws that join the sharded RMS norm to the whole one

* A sum over 4096 columns is the sum over 16 blocks of the sums over each block's 256 columns.
* For an extended real `S ≥ 0` (a sum of squares), a positive real divisor `n` and a positive real `e`,
  multiplying by the reciprocal square root of `S / n + e` is dividing by its square root: when `S` is a
  real number, `S / n + e` is a positive real `v` and both sides are the product with `(√v)⁻¹`; when `S` is
  `+∞` both sides are the product with `0`.
-/

noncomputable section

open scoped BigOperators

namespace Cert.RmsLaw

open Idealize.ShloMosaic

/-- A sum over `m * n` positions, block by block. -/
theorem sum_blocks {M : Type*} [AddCommMonoid M] (m n : Nat) (f : Fin (m * n) → M) :
    ∑ K : Fin (m * n), f K
      = ∑ d : Fin m, ∑ k : Fin n, f ⟨d.val * n + k.val, by
          calc d.val * n + k.val < d.val * n + n := Nat.add_lt_add_left k.isLt _
            _ = (d.val + 1) * n := (Nat.succ_mul _ _).symm
            _ ≤ m * n := Nat.mul_le_mul_right _ d.isLt⟩ := by
  rw [← Equiv.sum_comp finProdFinEquiv f, Fintype.sum_prod_type]
  refine Finset.sum_congr rfl fun d _ => Finset.sum_congr rfl fun k _ => congrArg f (Fin.ext ?_)
  show k.val + n * d.val = d.val * n + k.val
  rw [Nat.mul_comm, Nat.add_comm]

/-- The 4096 columns as 16 blocks of 256. -/
theorem sum_4096 {M : Type*} [AddCommMonoid M] (f : Fin 4096 → M) :
    ∑ K : Fin 4096, f K = ∑ d : Fin 16, ∑ k : Fin 256, f ⟨d.val * 256 + k.val, by omega⟩ :=
  sum_blocks 16 256 f

/-- A square is not negative on the extended reals, the infinities included. -/
theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A sum of squares is not negative. -/
theorem sum_sq_nonneg {ι : Type*} (s : Finset ι) (x : ι → EReal) : 0 ≤ ∑ k ∈ s, x k * x k :=
  Finset.sum_nonneg fun k _ => mul_self_nonneg' (x k)

/-- The word the programs write for 4096 denotes a positive real. -/
theorem ofBits_n_pos : ∃ n : ℝ, 0 < n ∧ Ideal.ofBits .f32 0x45800000#32 = (n : EReal) := by
  refine ⟨_, ?_, by simp [Ideal.ofBits, Ideal.ieee]; rfl⟩
  positivity

/-- The word the programs write for the small constant denotes a positive real. -/
theorem ofBits_eps_pos : ∃ e : ℝ, 0 < e ∧ Ideal.ofBits .f32 0x3727C5AC#32 = (e : EReal) := by
  refine ⟨_, ?_, by simp [Ideal.ofBits, Ideal.ieee]; rfl⟩
  positivity

/-- Multiplying by the reciprocal square root of `S / n + e` is dividing by its square root. -/
theorem mul_rsqrt_eq_div_sqrt (a S : EReal) (hS : 0 ≤ S) (n e : ℝ) (hn : 0 < n) (he : 0 < e) :
    a * Ideal.rsqrt (Ideal.div S (n : EReal) + (e : EReal))
      = Ideal.div a (Ideal.sqrt (Ideal.div S (n : EReal) + (e : EReal))) := by
  rw [Ideal.div_coe hn.ne']
  have hi : (0 : ℝ) < 1 / n := one_div_pos.mpr hn
  induction S using EReal.rec with
  | bot => exact absurd hS (by simp)
  | top =>
    rw [EReal.top_mul_coe_of_pos hi, EReal.top_add_coe, Ideal.rsqrt_top, Ideal.sqrt_top, mul_zero]
    unfold Ideal.div
    rw [if_neg (by simp), EReal.inv_top, mul_zero]
  | coe r =>
    have hr : 0 ≤ r := EReal.coe_nonneg.mp hS
    rw [← EReal.coe_mul, ← EReal.coe_add]
    have hv : 0 < r * (1 / n) + e := add_pos_of_nonneg_of_pos (mul_nonneg hr hi.le) he
    rw [Ideal.rsqrt_coe, Ideal.sqrt_coe, if_neg (not_lt.mpr hv.le), if_neg hv.ne', if_neg (not_lt.mpr hv.le)]
    rw [Ideal.div_coe (Real.sqrt_pos.mpr hv).ne']
    simp only [one_div]

end Cert.RmsLaw
-- ==== Proof.RmsValue.lean ====
import proofs.«900466_g7700000000000467_dist_rmsnorm_colshard_i_m512_n256_v7x_i16_bf16_1_alg».proof.Proof.RmsPay
import proofs.«900466_g7700000000000467_dist_rmsnorm_colshard_i_m512_n256_v7x_i16_bf16_1_alg».proof.Proof.RmsRef
import proofs.«900466_g7700000000000467_dist_rmsnorm_colshard_i_m512_n256_v7x_i16_bf16_1_alg».proof.Proof.RmsLaw
import Idealize.ShloMosaic.Lib.Layout

/-!
# Each device's result is its block of the reference's result

Device `c` holds columns `256 c … 256 c + 255` of the matrix `X` and entries `256 c … 256 c + 255` of the
scale vector `Gam`. At row `r` and local column `j` (whole column `J = 256 c + j`) the device computes
`(Gam J * X r J) * rsqrt (T / n + e)`, where `T` is the total over the 16 devices of each device's sum of
squares of its 256 entries of row `r`; the reference computes `(Gam J * X r J) / sqrt (S / n + e)`, where
`S` is the sum of squares of the 4096 entries of row `r`. `T = S` by regrouping the 4096 columns into 16
blocks of 256, and the two last steps agree because `S ≥ 0`, `n > 0` and `e > 0`. No entry needs to be
finite.
-/

noncomputable section

open scoped BigOperators

namespace Cert.KernelIdeal.RmsValue

open Idealize.ShloMosaic Idealize.ShloMosaic.ValueIdx Cert.KernelIdeal Cert.KernelIdeal.RmsSpec
open Cert.ReferenceIdeal.RefValue

/-- Column `j` of block `c` is column `256 c + j` of the whole. -/
abbrev col (c : Fin 16) (j : Fin 256) : Fin 4096 := ⟨c.val * 256 + j.val, by omega⟩

/-- A block of the matrix at `(r, k)`. -/
theorem blockX_apply (X : FVec Ideal ⟨2, ![512, 4096]⟩ .f32) (c : Fin 16) (r : Fin 512) (k : Fin 256) :
    (Layout.block ⟨2, ![512, 256]⟩ ⟨2, ![512, 4096]⟩ 1 16 c X) (ix2 r k) = X (ix2 r (col c k)) :=
  congrArg X (funext fun a => Fin.ext (by match a with | ⟨0, _⟩ => rfl | ⟨1, _⟩ => rfl))

/-- A block of the scale vector at `j`. -/
theorem blockGam_apply (Gam : FVec Ideal ⟨1, ![4096]⟩ .f32) (c : Fin 16) (j : Fin 256) :
    (Layout.block ⟨1, ![256]⟩ ⟨1, ![4096]⟩ 0 16 c Gam) (ix1 j) = Gam (ix1 (col c j)) :=
  congrArg Gam (funext fun a => Fin.ext (by match a with | ⟨0, _⟩ => rfl))

/-- A block of the reference's result at `(r, j)`. -/
theorem blockG_apply (X : FVec Ideal ⟨2, ![512, 4096]⟩ .f32) (Gam : FVec Ideal ⟨1, ![4096]⟩ .f32) (c : Fin 16)
    (r : Fin 512) (j : Fin 256) :
    (Layout.block ⟨2, ![512, 256]⟩ ⟨2, ![512, 4096]⟩ 1 16 c (G X Gam)) (ix2 r j) = Gat X Gam r (col c j) := by
  show Gat X Gam _ _ = _
  congr 1

/-- The sum of squares of a whole row is the total of the 16 blocks' sums of squares. -/
theorem rowSq_blocks (X : FVec Ideal ⟨2, ![512, 4096]⟩ .f32) (r : Fin 512) :
    rowSq X r = ∑ d : Fin 16, ∑ k : Fin 256, X (ix2 r (col d k)) * X (ix2 r (col d k)) :=
  Cert.RmsLaw.sum_4096 fun K => X (ix2 r K) * X (ix2 r K)

/-- Device `c`'s result is block `c` of the reference's result. -/
theorem out_eq (X : FVec Ideal ⟨2, ![512, 4096]⟩ .f32) (Gam : FVec Ideal ⟨1, ![4096]⟩ .f32)
    (x : Dev nD → Vec Ideal S512x256 .f32) (g : Dev nD → Vec Ideal S256 .f32)
    (hx : ∀ c, x c = Layout.block ⟨2, ![512, 256]⟩ ⟨2, ![512, 4096]⟩ 1 16 c X)
    (hg : ∀ c, g c = Layout.block ⟨1, ![256]⟩ ⟨1, ![4096]⟩ 0 16 c Gam) :
    ∀ c, outOf (F := Ideal) x (g c) c = Layout.block ⟨2, ![512, 256]⟩ ⟨2, ![512, 4096]⟩ 1 16 c (G X Gam) := by
  intro c
  funext i
  obtain ⟨r, j, rfl⟩ : ∃ (r : Fin 512) (j : Fin 256), i = ix2 r j := ⟨i 0, i 1, eq_ix2 i⟩
  rw [outOf_apply, blockG_apply, hg c, blockGam_apply]
  simp only [hx, blockX_apply]
  unfold Gat
  rw [rowSq_blocks]
  obtain ⟨n, hn, en⟩ := Cert.RmsLaw.ofBits_n_pos
  obtain ⟨e, he, ee⟩ := Cert.RmsLaw.ofBits_eps_pos
  rw [en, ee]
  exact Cert.RmsLaw.mul_rsqrt_eq_div_sqrt _ _
    (Finset.sum_nonneg fun d _ => Cert.RmsLaw.sum_sq_nonneg _ _) n e hn he

end Cert.KernelIdeal.RmsValue

/-- info: 'Cert.KernelIdeal.RmsValue.out_eq' depends on axioms: [propext, Classical.choice, Quot.sound] -/
#guard_msgs in #print axioms Cert.KernelIdeal.RmsValue.out_eq
-- ==== Proof.RmsRefFrame.lean ====
import proofs.«900466_g7700000000000467_dist_rmsnorm_colshard_i_m512_n256_v7x_i16_bf16_1_alg».proof.Defs
import proofs.«900466_g7700000000000467_dist_rmsnorm_colshard_i_m512_n256_v7x_i16_bf16_1_alg».proof.Proof.Gen.ReferenceIdeal.Run
import proofs.«900466_g7700000000000467_dist_rmsnorm_colshard_i_m512_n256_v7x_i16_bf16_1_alg».proof.Proof.Gen.Pre_finite_inputs_ReferenceIdeal

/-!
# The reference runs and leaves its two arrays as they were

The reference is a straight line of host operations, none of which writes an argument array: its run
terminates with the result at the operations' composed term and both arguments unchanged; dropping the
result's value leaves the frame.
-/

noncomputable section

namespace Cert.ReferenceIdeal.RefValue

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue
-- ==== Proof.lean ====
/-
  The certificate of the distributed RMS-norm on sixteen devices against its one-device reference.

  Every device `c` holds columns `[256 c, 256 c + 256)` of `x : [512, 4096]` and block `c` of `gamma : [4096]`. The
  devices exchange their vectors of row sums of squares (a barrier handshake, then an all-to-all copy of one row of
  a 16 × 512 buffer), so that each ends with the full row sums `S_r = Σ_d Σ_j x_d[r, j]²`, and device `c` writes
  `(gamma_c[j] · x_c[r, j]) · rsqrt (S_r / 4096 + ε)`. The reference computes `(gamma[J] · x[r, J]) / sqrt (Σ_k x[r, k]² / 4096 + ε)`
  over the whole arrays. At the ideal instance the two are one function on the extended reals: the sum over 4096
  columns is the sum over sixteen blocks of 256, and `a · rsqrt v = a / sqrt v` for `v = S / 4096 + ε` with `S ≥ 0`;
  no finiteness of the inputs is needed, and the precondition is never opened.

  The three frames: the kernel's, at both instances, are its run with the values dropped — the run is the library's
  launch theorem applied to one thread's body, stepped through the protocol under the rounds discipline (a device
  waits on its barrier cell owing receive credits only, and on its receive and send cells owing nothing) —; the
  reference's is its generated run. The ideal pass rewrote nothing, so `preserves` is `True`.
-/
import proofs.«900466_g7700000000000467_dist_rmsnorm_colshard_i_m512_n256_v7x_i16_bf16_1_alg».proof.Defs
import proofs.«900466_g7700000000000467_dist_rmsnorm_colshard_i_m512_n256_v7x_i16_bf16_1_alg».proof.Proof.Gen.Kernel
import proofs.«900466_g7700000000000467_dist_rmsnorm_colshard_i_m512_n256_v7x_i16_bf16_1_alg».proof.Proof.Gen.KernelIdeal
import proofs.«900466_g7700000000000467_dist_rmsnorm_colshard_i_m512_n256_v7x_i16_bf16_1_alg».proof.Proof.Gen.ReferenceIdeal
import proofs.«900466_g7700000000000467_dist_rmsnorm_colshard_i_m512_n256_v7x_i16_bf16_1_alg».proof.Proof.Gen.Pre_finite_inputs_Kernel
import proofs.«900466_g7700000000000467_dist_rmsnorm_colshard_i_m512_n256_v7x_i16_bf16_1_alg».proof.Proof.Gen.Pre_finite_inputs_ReferenceIdeal
import proofs.«900466_g7700000000000467_dist_rmsnorm_colshard_i_m512_n256_v7x_i16_bf16_1_alg».proof.Proof.Gen.ReferenceIdeal.Run
import proofs.«900466_g7700000000000467_dist_rmsnorm_colshard_i_m512_n256_v7x_i16_bf16_1_alg».proof.Proof.Gen.ReferenceIdeal.Read
import proofs.«900466_g7700000000000467_dist_rmsnorm_colshard_i_m512_n256_v7x_i16_bf16_1_alg».proof.Proof.Run
import proofs.«900466_g7700000000000467_dist_rmsnorm_colshard_i_m512_n256_v7x_i16_bf16_1_alg».proof.Proof.WRun
import proofs.«900466_g7700000000000467_dist_rmsnorm_colshard_i_m512_n256_v7x_i16_bf16_1_alg».proof.Proof.RmsValue
import proofs.«900466_g7700000000000467_dist_rmsnorm_colshard_i_m512_n256_v7x_i16_bf16_1_alg».proof.Proof.RmsRefFrame
import Idealize.ShloMosaic.Adequacy
import Idealize.ShloMosaic.Init

noncomputable section

namespace Cert.Proof

open Idealize.ShloMosaic Idealize.ShloMosaic.TcCoe Idealize.SL.Sem

theorem frame_k : Cert.frame_Kernel := fun m g _ => Cert.Kernel.Coll.frame_run (F := Bits) m g
theorem frame_ki : Cert.frame_KernelIdeal := fun m g _ => Cert.KernelIdeal.Coll.frame_run (F := Ideal) m g
theorem frame_ri : Cert.frame_ReferenceIdeal := Cert.ReferenceIdeal.RefValue.frame_ri
theorem preserves : Cert.preserves_Kernel_KernelIdeal := trivial

/-- Both programs run; the reference's result is the specification `G` of its whole arrays, and each device's result
    is its block of `G` (the value bridge `out_eq`, at the devices' staged blocks, which are their argument buffers,
    which are the blocks of the reference's arrays). -/
theorem algebraic : Cert.algebraic_KernelIdeal_ReferenceIdeal := by
  intro m g m' g' _ hagree
  refine ⟨Cert.ReferenceIdeal.RefValue.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ⟨(h c).1.trans ?_, (h c).2.1, (h c).2.2⟩)
      (Cert.KernelIdeal.Coll.value_run (F := Ideal) m g)
    exact Cert.KernelIdeal.RmsValue.out_eq _ _ (fun d => Cert.KernelIdeal.Coll.xblk m d) (fun d => Cert.KernelIdeal.Coll.gblk m d)
      (fun d => (Cert.KernelIdeal.Coll.xblk_eq m d).trans (hagree d).1)
      (fun d => (Cert.KernelIdeal.Coll.gblk_eq m d).trans (hagree d).2) c
  · refine (θ_run (Cert.ReferenceIdeal.defs (F := Ideal)) _ _).mono (fun r h => ?_) (Cert.ReferenceIdeal.Value.run (F := Ideal) m' g')
    have h0 := h 0
    refine ⟨?_, h0.2.1, h0.2.2⟩
    rw [h0.1, Cert.ReferenceIdeal.Read.val_main_v13_eq, Cert.ReferenceIdeal.RefValue.ref_eq]

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
